-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v91)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v91) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v136) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S128x40 : Shape := ⟨2, ![128, 40]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part6 {F : FTy → Type} [FloatOps F] (main_arg22 : FVec F S128x40 .f32) (main_arg23 : FVec F S40 .f32) (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  let main_v104 : FVec F S128x40 .f32 := Host.absf main_arg22
  let main_cst_40 : FVec F S_ .f32 := constant S_ .f32 0x7F800000#32
  let main_v105 : FVec F S128x40 .f32 := broadcastInDim S128x40 ![] bcast_S_S128x40 main_cst_40
  let main_v106 : IVec S128x40 1 := cmpf .olt main_v104 main_v105
  let main_c_41 : IVec S_ 1 := constantI S_ 1 1#1
  let main_v107 : IVec S_ 1 := (fun x v => Host.reduce IntOp.andi x v reducesTo_S128x40_S_d0_1 h_S_) main_v106 main_c_41
  let main_v108 : IVec S_ 1 := andi main_v103 main_v107
  let main_v109 : FVec F S40 .f32 := Host.absf main_arg23
  let main_cst_42 : FVec F S_ .f32 := constant S_ .f32 0x7F800000#32
  let main_v110 : FVec F S40 .f32 := broadcastInDim S40 ![] bcast_S_S40 main_cst_42
  let main_v111 : IVec S40 1 := cmpf .olt main_v109 main_v110
  let main_c_43 : IVec S_ 1 := constantI S_ 1 1#1
  let main_v112 : IVec S_ 1 := (fun x v => Host.reduce IntOp.andi x v reducesTo_S40_S_d0 h_S_) main_v111 main_c_43
  let main_v113 : IVec S_ 1 := andi main_v108 main_v112
  main_v113

def fn_part5 {F : FTy → Type} [FloatOps F] (main_arg19 : FVec F S256 .f32) (main_arg20 : FVec F S256x128 .f32) (main_arg21 : FVec F S128 .f32) (main_arg22 : FVec F S128x40 .f32) (main_arg23 : FVec F S40 .f32) (main_v83 : IVec S_ 1) (main_v84 : FVec F S256 .f32) (main_cst_32 : FVec F S_ .f32) : IVec S_ 1 :=
  let main_v85 : FVec F S256 .f32 := broadcastInDim S256 ![] bcast_S_S256 main_cst_32
  let main_v86 : IVec S256 1 := cmpf .olt main_v84 main_v85
  let main_c_33 : IVec S_ 1 := constantI S_ 1 1#1
  let main_v87 : IVec S_ 1 := (fun x v => Host.reduce IntOp.andi x v reducesTo_S256_S_d0 h_S_) main_v86 main_c_33
  let main_v88 : IVec S_ 1 := andi main_v83 main_v87
  let main_v89 : FVec F S256 .f32 := Host.absf main_arg19
  let main_cst_34 : FVec F S_ .f32 := constant S_ .f32 0x7F800000#32
  let main_v90 : FVec F S256 .f32 := broadcastInDim S256 ![] bcast_S_S256 main_cst_34
  let main_v91 : IVec S256 1 := cmpf .olt main_v89 main_v90
  let main_c_35 : IVec S_ 1 := constantI S_ 1 1#1
  let main_v92 : IVec S_ 1 := (fun x v => Host.reduce IntOp.andi x v reducesTo_S256_S_d0 h_S_) main_v91 main_c_35
  let main_v93 : IVec S_ 1 := andi main_v88 main_v92
  let main_v94 : FVec F S256x128 .f32 := Host.absf main_arg20
  let main_cst_36 : FVec F S_ .f32 := constant S_ .f32 0x7F800000#32
  let main_v95 : FVec F S256x128 .f32 := broadcastInDim S256x128 ![] bcast_S_S256x128 main_cst_36
  let main_v96 : IVec S256x128 1 := cmpf .olt main_v94 main_v95
  let main_c_37 : IVec S_ 1 := constantI S_ 1 1#1
  let main_v97 : IVec S_ 1 := (fun x v => Host.reduce IntOp.andi x v reducesTo_S256x128_S_d0_1 h_S_) main_v96 main_c_37
  let main_v98 : IVec S_ 1 := andi main_v93 main_v97
  let main_v99 : FVec F S128 .f32 := Host.absf main_arg21
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_arg22 main_arg23 main_v98 main_v101 main_c_39

def fn_part4 {F : FTy → Type} [FloatOps F] (main_arg15 : FVec F S256 .f32) (main_arg16 : FVec F S256 .f32) (main_arg17 : FVec F S256 .f32) (main_arg18 : FVec F S256 .f32) (main_arg19 : FVec F S256 .f32) (main_arg20 : FVec F S256x128 .f32) (main_arg21 : FVec F S128 .f32) (main_arg22 : FVec F S128x40 .f32) (main_arg23 : FVec F S40 .f32) (main_v63 : IVec S_ 1) (main_v67 : IVec S_ 1) : IVec S_ 1 :=
  let main_v68 : IVec S_ 1 := andi main_v63 main_v67
  let main_v69 : FVec F S256 .f32 := Host.absf main_arg15
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S256 .f32 := Host.absf main_arg16
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S256 .f32 := Host.absf main_arg17
  let main_cst_30 : FVec F S_ .f32 := constant S_ .f32 0x7F800000#32
  let main_v80 : FVec F S256 .f32 := broadcastInDim S256 ![] bcast_S_S256 main_cst_30
  let main_v81 : IVec S256 1 := cmpf .olt main_v79 main_v80
  let main_c_31 : IVec S_ 1 := constantI S_ 1 1#1
  let main_v82 : IVec S_ 1 := (fun x v => Host.reduce IntOp.andi x v reducesTo_S256_S_d0 h_S_) main_v81 main_c_31
  let main_v83 : IVec S_ 1 := andi main_v78 main_v82
  let main_v84 : FVec F S256 .f32 := Host.absf main_arg18
  let main_cst_32 : FVec F S_ .f32 := constant S_ .f32 0x7F800000#32
  fn_part5 (F := F) main_arg19 main_arg20 main_arg21 main_arg22 main_arg23 main_v83 main_v84 main_cst_32

def fn_part3 {F : FTy → Type} [FloatOps F] (main_arg12 : FVec F S128 .f32) (main_arg13 : FVec F S128 .f32) (main_arg14 : FVec F S128x256 .f32) (main_arg15 : FVec F S256 .f32) (main_arg16 : FVec F S256 .f32) (main_arg17 : FVec F S256 .f32) (main_arg18 : FVec F S256 .f32) (main_arg19 : FVec F S256 .f32) (main_arg20 : FVec F S256x128 .f32) (main_arg21 : FVec F S128 .f32) (main_arg22 : FVec F S128x40 .f32) (main_arg23 : FVec F S40 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x256 .f32 := Host.absf main_arg14
  let main_cst_24 : FVec F S_ .f32 := constant S_ .f32 0x7F800000#32
  let main_v65 : FVec F S128x256 .f32 := broadcastInDim S128x256 ![] bcast_S_S128x256 main_cst_24
  let main_v66 : IVec S128x256 1 := cmpf .olt main_v64 main_v65
  let main_c_25 : IVec S_ 1 := constantI S_ 1 1#1
  let main_v67 : IVec S_ 1 := (fun x v => Host.reduce IntOp.andi x v reducesTo_S128x256_S_d0_1 h_S_) main_v66 main_c_25
  fn_part4 (F := F) main_arg15 main_arg16 main_arg17 main_arg18 main_arg19 main_arg20 main_arg21 main_arg22 main_arg23 main_v63 main_v67

def fn_part2 {F : FTy → Type} [FloatOps F] (main_arg8 : FVec F S128x128 .f32) (main_arg9 : FVec F S128 .f32) (main_arg10 : FVec F S128 .f32) (main_arg11 : FVec F S128 .f32) (main_arg12 : FVec F S128 .f32) (main_arg13 : FVec F S128 .f32) (main_arg14 : FVec F S128x256 .f32) (main_arg15 : FVec F S256 .f32) (main_arg16 : FVec F S256 .f32) (main_arg17 : FVec F S256 .f32) (main_arg18 : FVec F S256 .f32) (main_arg19 : FVec F S256 .f32) (main_arg20 : FVec F S256x128 .f32) (main_arg21 : FVec F S128 .f32) (main_arg22 : FVec F S128x40 .f32) (main_arg23 : FVec F S40 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_arg16 main_arg17 main_arg18 main_arg19 main_arg20 main_arg21 main_arg22 main_arg23 main_v48 main_v49 main_v50

def fn_part1 {F : FTy → Type} [FloatOps F] (main_arg5 : FVec F S128 .f32) (main_arg6 : FVec F S128 .f32) (main_arg7 : FVec F S128 .f32) (main_arg8 : FVec F S128x128 .f32) (main_arg9 : FVec F S128 .f32) (main_arg10 : FVec F S128 .f32) (main_arg11 : FVec F S128 .f32) (main_arg12 : FVec F S128 .f32) (main_arg13 : FVec F S128 .f32) (main_arg14 : FVec F S128x256 .f32) (main_arg15 : FVec F S256 .f32) (main_arg16 : FVec F S256 .f32) (main_arg17 : FVec F S256 .f32) (main_arg18 : FVec F S256 .f32) (main_arg19 : FVec F S256 .f32) (main_arg20 : FVec F S256x128 .f32) (main_arg21 : FVec F S128 .f32) (main_arg22 : FVec F S128x40 .f32) (main_arg23 : FVec F S40 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_arg22 main_arg23 main_v33

def fn {F : FTy → Type} [FloatOps F] (main_arg0 : FVec F S50000x128 .f32) (main_arg1 : IVec S2x800000 32) (main_arg2 : FVec F S128x128 .f32) (main_arg3 : FVec F S128 .f32) (main_arg4 : FVec F S128 .f32) (main_arg5 : FVec F S128 .f32) (main_arg6 : FVec F S128 .f32) (main_arg7 : FVec F S128 .f32) (main_arg8 : FVec F S128x128 .f32) (main_arg9 : FVec F S128 .f32) (main_arg10 : FVec F S128 .f32) (main_arg11 : FVec F S128 .f32) (main_arg12 : FVec F S128 .f32) (main_arg13 : FVec F S128 .f32) (main_arg14 : FVec F S128x256 .f32) (main_arg15 : FVec F S256 .f32) (main_arg16 : FVec F S256 .f32) (main_arg17 : FVec F S256 .f32) (main_arg18 : FVec F S256 .f32) (main_arg19 : FVec F S256 .f32) (main_arg20 : FVec F S256x128 .f32) (main_arg21 : FVec F S128 .f32) (main_arg22 : FVec F S128x40 .f32) (main_arg23 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_arg22 main_arg23 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S128x40 : Shape := ⟨2, ![128, 40]⟩
abbrev S40 : Shape := ⟨1, ![40]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S2000x128 : Shape := ⟨2, ![2000, 128]⟩
abbrev S850000x128 : Shape := ⟨2, ![850000, 128]⟩
abbrev S1x128 : Shape := ⟨2, ![1, 128]⟩
abbrev S50000x256 : Shape := ⟨2, ![50000, 256]⟩
abbrev S2000x256 : Shape := ⟨2, ![2000, 256]⟩
abbrev S850000x256 : Shape := ⟨2, ![850000, 256]⟩
abbrev S1x256 : Shape := ⟨2, ![1, 256]⟩
abbrev S1x40 : Shape := ⟨2, ![1, 40]⟩
abbrev S50000x40 : Shape := ⟨2, ![50000, 40]⟩
abbrev S2000x40 : Shape := ⟨2, ![2000, 40]⟩

abbrev nBuf : Space → Nat
  | .hbm => 132
  | .vmem => 50
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128, .f32⟩
  | 5 => ⟨S128, .f32⟩
  | 6 => ⟨S128, .f32⟩
  | 7 => ⟨S128, .f32⟩
  | 8 => ⟨S128x128, .f32⟩
  | 9 => ⟨S128, .f32⟩
  | 10 => ⟨S128, .f32⟩
  | 11 => ⟨S128, .f32⟩
  | 12 => ⟨S128, .f32⟩
  | 13 => ⟨S128, .f32⟩
  | 14 => ⟨S128x256, .f32⟩
  | 15 => ⟨S256, .f32⟩
  | 16 => ⟨S256, .f32⟩
  | 17 => ⟨S256, .f32⟩
  | 18 => ⟨S256, .f32⟩
  | 19 => ⟨S256, .f32⟩
  | 20 => ⟨S256x128, .f32⟩
  | 21 => ⟨S128, .f32⟩
  | 22 => ⟨S128x40, .f32⟩
  | 23 => ⟨S40, .f32⟩
  | 24 => ⟨S50000, .i32⟩
  | 25 => ⟨S1x800000, .i32⟩
  | 26 => ⟨S800000, .i32⟩
  | 27 => ⟨S850000, .i32⟩
  | 28 => ⟨S1x800000, .i32⟩
  | 29 => ⟨S800000, .i32⟩
  | 30 => ⟨S850000, .i32⟩
  | 31 => ⟨S_, .f32⟩
  | 32 => ⟨S850000, .f32⟩
  | 33 => ⟨S_, .f32⟩
  | 34 => ⟨S50000, .f32⟩
  | 35 => ⟨S850000x1, .i32⟩
  | 36 => ⟨S50000, .f32⟩
  | 37 => ⟨S_, .f32⟩
  | 38 => ⟨S50000, .f32⟩
  | 39 => ⟨S50000, .f32⟩
  | 40 => ⟨S50000, .f32⟩
  | 41 => ⟨S_, .i32⟩
  | 42 => ⟨S850000, .i32⟩
  | 43 => ⟨S850000, .i1⟩
  | 44 => ⟨S_, .i32⟩
  | 45 => ⟨S850000, .i32⟩
  | 46 => ⟨S850000, .i32⟩
  | 47 => ⟨S850000, .i32⟩
  | 48 => ⟨S850000x1, .i32⟩
  | 49 => ⟨S850000, .f32⟩
  | 50 => ⟨S_, .i32⟩
  | 51 => ⟨S850000, .i32⟩
  | 52 => ⟨S850000, .i1⟩
  | 53 => ⟨S_, .i32⟩
  | 54 => ⟨S850000, .i32⟩
  | 55 => ⟨S850000, .i32⟩
  | 56 => ⟨S850000, .i32⟩
  | 57 => ⟨S850000x1, .i32⟩
  | 58 => ⟨S850000, .f32⟩
  | 59 => ⟨S850000, .f32⟩
  | 60 => ⟨S50000x128, .f32⟩
  | 61 => ⟨S_, .i32⟩
  | 62 => ⟨S850000, .i32⟩
  | 63 => ⟨S850000, .i1⟩
  | 64 => ⟨S_, .i32⟩
  | 65 => ⟨S850000, .i32⟩
  | 66 => ⟨S850000, .i32⟩
  | 67 => ⟨S850000, .i32⟩
  | 68 => ⟨S850000x1, .i32⟩
  | 69 => ⟨S850000x128, .f32⟩
  | 70 => ⟨S850000x1, .f32⟩
  | 71 => ⟨S850000x128, .f32⟩
  | 72 => ⟨S850000x128, .f32⟩
  | 73 => ⟨S_, .f32⟩
  | 74 => ⟨S50000x128, .f32⟩
  | 75 => ⟨S850000x1, .i32⟩
  | 76 => ⟨S50000x128, .f32⟩
  | 77 => ⟨S1x128, .f32⟩
  | 78 => ⟨S1x128, .f32⟩
  | 79 => ⟨S1x128, .f32⟩
  | 80 => ⟨S1x128, .f32⟩
  | 81 => ⟨S1x128, .f32⟩
  | 82 => ⟨S50000x128, .f32⟩
  | 83 => ⟨S50000x128, .f32⟩
  | 84 => ⟨S_, .i32⟩
  | 85 => ⟨S850000, .i32⟩
  | 86 => ⟨S850000, .i1⟩
  | 87 => ⟨S_, .i32⟩
  | 88 => ⟨S850000, .i32⟩
  | 89 => ⟨S850000, .i32⟩
  | 90 => ⟨S850000, .i32⟩
  | 91 => ⟨S850000x1, .i32⟩
  | 92 => ⟨S850000x128, .f32⟩
  | 93 => ⟨S850000x1, .f32⟩
  | 94 => ⟨S850000x128, .f32⟩
  | 95 => ⟨S850000x128, .f32⟩
  | 96 => ⟨S_, .f32⟩
  | 97 => ⟨S50000x128, .f32⟩
  | 98 => ⟨S850000x1, .i32⟩
  | 99 => ⟨S50000x128, .f32⟩
  | 100 => ⟨S1x128, .f32⟩
  | 101 => ⟨S1x128, .f32⟩
  | 102 => ⟨S1x128, .f32⟩
  | 103 => ⟨S1x128, .f32⟩
  | 104 => ⟨S1x128, .f32⟩
  | 105 => ⟨S50000x128, .f32⟩
  | 106 => ⟨S50000x256, .f32⟩
  | 107 => ⟨S_, .i32⟩
  | 108 => ⟨S850000, .i32⟩
  | 109 => ⟨S850000, .i1⟩
  | 110 => ⟨S_, .i32⟩
  | 111 => ⟨S850000, .i32⟩
  | 112 => ⟨S850000, .i32⟩
  | 113 => ⟨S850000, .i32⟩
  | 114 => ⟨S850000x1, .i32⟩
  | 115 => ⟨S850000x256, .f32⟩
  | 116 => ⟨S850000x1, .f32⟩
  | 117 => ⟨S850000x256, .f32⟩
  | 118 => ⟨S850000x256, .f32⟩
  | 119 => ⟨S_, .f32⟩
  | 120 => ⟨S50000x256, .f32⟩
  | 121 => ⟨S850000x1, .i32⟩
  | 122 => ⟨S50000x256, .f32⟩
  | 123 => ⟨S1x256, .f32⟩
  | 124 => ⟨S1x256, .f32⟩
  | 125 => ⟨S1x256, .f32⟩
  | 126 => ⟨S1x256, .f32⟩
  | 127 => ⟨S1x256, .f32⟩
  | _ => ⟨S50000x128, .f32⟩

abbrev hbmTy0_1 (i : Nat) : BufTy := match i % 128 with
  | 0 => ⟨S50000x256, .f32⟩
  | 1 => ⟨S1x128, .f32⟩
  | 2 => ⟨S1x40, .f32⟩
  | 3 => ⟨S50000x40, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S128x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S128x256, .f32⟩
  | .local _ .vmem, ⟨31, _⟩ => ⟨S2000x256, .f32⟩
  | .local _ .vmem, ⟨32, _⟩ => ⟨S2000x256, .f32⟩
  | .local _ .vmem, ⟨33, _⟩ => ⟨S2000x256, .f32⟩
  | .local _ .vmem, ⟨34, _⟩ => ⟨S2000x256, .f32⟩
  | .local _ .vmem, ⟨35, _⟩ => ⟨S1x256, .f32⟩
  | .local _ .vmem, ⟨36, _⟩ => ⟨S1x256, .f32⟩
  | .local _ .vmem, ⟨37, _⟩ => ⟨S1x256, .f32⟩
  | .local _ .vmem, ⟨38, _⟩ => ⟨S1x256, .f32⟩
  | .local _ .vmem, ⟨39, _⟩ => ⟨S1x256, .f32⟩
  | .local _ .vmem, ⟨40, _⟩ => ⟨S2000x256, .f32⟩
  | .local _ .vmem, ⟨41, _⟩ => ⟨S2000x256, .f32⟩
  | .local _ .vmem, ⟨42, _⟩ => ⟨S2000x256, .f32⟩
  | .local _ .vmem, ⟨43, _⟩ => ⟨S2000x256, .f32⟩
  | .local _ .vmem, ⟨44, _⟩ => ⟨S256x128, .f32⟩
  | .local _ .vmem, ⟨45, _⟩ => ⟨S1x128, .f32⟩
  | .local _ .vmem, ⟨46, _⟩ => ⟨S128x40, .f32⟩
  | .local _ .vmem, ⟨47, _⟩ => ⟨S1x40, .f32⟩
  | .local _ .vmem, ⟨48, _⟩ => ⟨S2000x40, .f32⟩
  | .local _ .vmem, ⟨49, _⟩ => ⟨S2000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_cst : Ref sig .tc := ⟨.hbm, 31, rfl⟩
abbrev main_v7 : Ref sig .tc := ⟨.hbm, 32, rfl⟩
abbrev main_cst_0 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_cst_1 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_c : Ref sig .tc := ⟨.hbm, 41, rfl⟩
abbrev main_v14 : Ref sig .tc := ⟨.hbm, 42, rfl⟩
abbrev main_v15 : Ref sig .tc := ⟨.hbm, 43, rfl⟩
abbrev main_c_2 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_c_3 : Ref sig .tc := ⟨.hbm, 50, rfl⟩
abbrev main_v21 : Ref sig .tc := ⟨.hbm, 51, rfl⟩
abbrev main_v22 : Ref sig .tc := ⟨.hbm, 52, rfl⟩
abbrev main_c_4 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_c_5 : Ref sig .tc := ⟨.hbm, 61, rfl⟩
abbrev main_v30 : Ref sig .tc := ⟨.hbm, 62, rfl⟩
abbrev main_v31 : Ref sig .tc := ⟨.hbm, 63, rfl⟩
abbrev main_c_6 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_cst_7 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_c_8 : Ref sig .tc := ⟨.hbm, 84, rfl⟩
abbrev main_v50 : Ref sig .tc := ⟨.hbm, 85, rfl⟩
abbrev main_v51 : Ref sig .tc := ⟨.hbm, 86, rfl⟩
abbrev main_c_9 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_cst_10 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_c_11 : Ref sig .tc := ⟨.hbm, 107, rfl⟩
abbrev main_v70 : Ref sig .tc := ⟨.hbm, 108, rfl⟩
abbrev main_v71 : Ref sig .tc := ⟨.hbm, 109, rfl⟩
abbrev main_c_12 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_cst_13 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg6_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg4_0 : Ref sig .tc := ⟨.vmem, 24, rfl⟩
abbrev cc3_stg5_0 : Ref sig .tc := ⟨.vmem, 25, rfl⟩
abbrev cc3_stg6_0 : Ref sig .tc := ⟨.vmem, 26, rfl⟩
abbrev cc3_stg6_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg2_0 : Ref sig .tc := ⟨.vmem, 36, rfl⟩
abbrev cc5_stg3_0 : Ref sig .tc := ⟨.vmem, 37, rfl⟩
abbrev cc5_stg4_0 : Ref sig .tc := ⟨.vmem, 38, rfl⟩
abbrev cc5_stg5_0 : Ref sig .tc := ⟨.vmem, 39, rfl⟩
abbrev cc5_stg6_0 : Ref sig .tc := ⟨.vmem, 40, rfl⟩
abbrev cc5_stg6_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg2_0 : Ref sig .tc := ⟨.vmem, 45, rfl⟩
abbrev cc6_stg3_0 : Ref sig .tc := ⟨.vmem, 46, rfl⟩
abbrev cc6_stg4_0 : Ref sig .tc := ⟨.vmem, 47, rfl⟩
abbrev cc6_stg5_0 : Ref sig .tc := ⟨.vmem, 48, rfl⟩
abbrev cc6_stg5_1 : Ref sig .tc := ⟨.vmem, 49, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem6_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem3_0 : DmaSem sig := 23
abbrev cc3_sem4_0 : DmaSem sig := 24
abbrev cc3_sem5_0 : DmaSem sig := 25
abbrev cc3_sem6_0 : DmaSem sig := 26
abbrev cc3_sem6_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem2_0 : DmaSem sig := 36
abbrev cc5_sem3_0 : DmaSem sig := 37
abbrev cc5_sem4_0 : DmaSem sig := 38
abbrev cc5_sem5_0 : DmaSem sig := 39
abbrev cc5_sem6_0 : DmaSem sig := 40
abbrev cc5_sem6_1 : DmaSem sig := 41
abbrev cc6_sem0_0 : DmaSem sig := 42
abbrev cc6_sem0_1 : DmaSem sig := 43
abbrev cc6_sem1_0 : DmaSem sig := 44
abbrev cc6_sem2_0 : DmaSem sig := 45
abbrev cc6_sem3_0 : DmaSem sig := 46
abbrev cc6_sem4_0 : DmaSem sig := 47
abbrev cc6_sem5_0 : DmaSem sig := 48
abbrev cc6_sem5_1 : DmaSem sig := 49

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S2000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x256 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x256 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S2000x256 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S256x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S128x40 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x40 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S2000x40 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x256_S128x256_0_0 : ∀ a, (![0, 0] : Fin 2 → Nat) a + S128x256.size a ≤ S128x256.size a
  h_S128x256 : 0 < S128x256.numel
  inb_S2000x256_S2000x256_0_0 : ∀ a, (![0, 0] : Fin 2 → Nat) a + S2000x256.size a ≤ S2000x256.size a
  h_S2000x256 : 0 < S2000x256.numel
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  shapeCasts_S256_S1x256 : S256.ShapeCasts S1x256
  shapeCasts_S2000x256_S2000x256 : S2000x256.ShapeCasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  shapeCasts_S40_S1x40 : S40.ShapeCasts S1x40
  inb_S256x128_S256x128_0_0 : ∀ a, (![0, 0] : Fin 2 → Nat) a + S256x128.size a ≤ S256x128.size a
  h_S256x128 : 0 < S256x128.numel
  inb_S128x40_S128x40_0_0 : ∀ a, (![0, 0] : Fin 2 → Nat) a + S128x40.size a ≤ S128x40.size a
  h_S128x40 : 0 < S128x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2000x40 : S1x40.Broadcasts S2000x40
  inb_S2000x40_S2000x40_0_0 : ∀ a, (![0, 0] : Fin 2 → Nat) a + S2000x40.size a ≤ S2000x40.size a
  h_S2000x40 : 0 < S2000x40.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x128_S128x128_S2000x128_1_0_0_1_n_n_wf : DotDims.WF S2000x128 S128x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S2000x128_S128x256_S2000x256_1_0_0_1_n_n_wf : DotDims.WF S2000x128 S128x256 S2000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S2000x256_S256x128_S2000x128_1_0_0_1_n_n_wf : DotDims.WF S2000x256 S256x128 S2000x128 [1] [0] [0] [1] [] []
  dot_S2000x128_S128x40_S2000x40_1_0_0_1_n_n_wf : DotDims.WF S2000x128 S128x40 S2000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S50000x128.size a
  hwx1_6 : ∀ i : grid1.Coords, EltTy.bits .f32 = 32 ∨ (Rect.block (s := S50000x128) S2000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x128.size a ≤ S50000x128.size a
  hwx3_6 : ∀ i : grid3.Coords, EltTy.bits .f32 = 32 ∨ (Rect.block (s := S50000x128) S2000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x256.size a ≤ S128x256.size a
  hwx4_1 : ∀ i : grid4.Coords, EltTy.bits .f32 = 32 ∨ (Rect.block (s := S128x256) S128x256.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x256.size a ≤ S50000x256.size a
  hwx4_2 : ∀ i : grid4.Coords, EltTy.bits .f32 = 32 ∨ (Rect.block (s := S50000x256) S2000x256.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x256.size a ≤ S50000x256.size a
  hwx5_0 : ∀ i : grid5.Coords, EltTy.bits .f32 = 32 ∨ (Rect.block (s := S50000x256) S2000x256.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x256.size a ≤ S1x256.size a
  hwx5_1 : ∀ i : grid5.Coords, EltTy.bits .f32 = 32 ∨ (Rect.block (s := S1x256) S1x256.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x256.size a ≤ S1x256.size a
  hwx5_2 : ∀ i : grid5.Coords, EltTy.bits .f32 = 32 ∨ (Rect.block (s := S1x256) S1x256.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x256.size a ≤ S1x256.size a
  hwx5_3 : ∀ i : grid5.Coords, EltTy.bits .f32 = 32 ∨ (Rect.block (s := S1x256) S1x256.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x256.size a ≤ S1x256.size a
  hwx5_4 : ∀ i : grid5.Coords, EltTy.bits .f32 = 32 ∨ (Rect.block (s := S1x256) S1x256.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x256.size a ≤ S1x256.size a
  hwx5_5 : ∀ i : grid5.Coords, EltTy.bits .f32 = 32 ∨ (Rect.block (s := S1x256) S1x256.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S2000x256.size a ≤ S50000x256.size a
  hwx5_6 : ∀ i : grid5.Coords, EltTy.bits .f32 = 32 ∨ (Rect.block (s := S50000x256) S2000x256.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x256.size a ≤ S50000x256.size a
  hwx6_0 : ∀ i : grid6.Coords, EltTy.bits .f32 = 32 ∨ (Rect.block (s := S50000x256) S2000x256.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S256x128.size a ≤ S256x128.size a
  hwx6_1 : ∀ i : grid6.Coords, EltTy.bits .f32 = 32 ∨ (Rect.block (s := S256x128) S256x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x40.size a ≤ S128x40.size a
  hwx6_3 : ∀ i : grid6.Coords, EltTy.bits .f32 = 32 ∨ (Rect.block (s := S128x40) S128x40.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x40.size a ≤ S1x40.size a
  hwx6_4 : ∀ i : grid6.Coords, EltTy.bits .f32 = 32 ∨ (Rect.block (s := S1x40) S1x40.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S2000x40.size a ≤ S50000x40.size a
  hwx6_5 : ∀ i : grid6.Coords, EltTy.bits .f32 = 32 ∨ (Rect.block (s := S50000x40) S2000x40.size (cc6_transform_5 i) (hinb6_5 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def dot_S2000x128_S128x40_S2000x40_1_0_0_1_n_n : DotDims S2000x128 S128x40 S2000x40 where
  lhsContracting := [1]
  rhsContracting := [0]
  lhsNonContracting := [0]
  rhsNonContracting := [1]
  lhsBatch := []
  rhsBatch := []
  wf := dot_S2000x128_S128x40_S2000x40_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v46) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v47) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v48) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v48) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v49) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v62) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v63) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v64) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v65) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v66) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v67) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v68) S2000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v68) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg14) S128x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v69) S2000x256.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v82) S2000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v83) S1x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v84) S1x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v85) S1x256.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v86) S1x256.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v87) S1x256.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v88) S2000x256.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v88) S2000x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg20) S256x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v89) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg22) S128x40.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v90) S1x40.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v91) S2000x40.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S128x40 : Shape := ⟨2, ![128, 40]⟩
abbrev S40 : Shape := ⟨1, ![40]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x256 : Shape := ⟨2, ![50000, 256]⟩
abbrev S850000x256 : Shape := ⟨2, ![850000, 256]⟩
abbrev S1x256 : Shape := ⟨2, ![1, 256]⟩
abbrev S50000x40 : Shape := ⟨2, ![50000, 40]⟩
abbrev S1x40 : Shape := ⟨2, ![1, 40]⟩

abbrev nBuf : Space → Nat
  | .hbm => 188
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128, .f32⟩
  | 5 => ⟨S128, .f32⟩
  | 6 => ⟨S128, .f32⟩
  | 7 => ⟨S128, .f32⟩
  | 8 => ⟨S128x128, .f32⟩
  | 9 => ⟨S128, .f32⟩
  | 10 => ⟨S128, .f32⟩
  | 11 => ⟨S128, .f32⟩
  | 12 => ⟨S128, .f32⟩
  | 13 => ⟨S128, .f32⟩
  | 14 => ⟨S128x256, .f32⟩
  | 15 => ⟨S256, .f32⟩
  | 16 => ⟨S256, .f32⟩
  | 17 => ⟨S256, .f32⟩
  | 18 => ⟨S256, .f32⟩
  | 19 => ⟨S256, .f32⟩
  | 20 => ⟨S256x128, .f32⟩
  | 21 => ⟨S128, .f32⟩
  | 22 => ⟨S128x40, .f32⟩
  | 23 => ⟨S40, .f32⟩
  | 24 => ⟨S50000, .i32⟩
  | 25 => ⟨S1x800000, .i32⟩
  | 26 => ⟨S800000, .i32⟩
  | 27 => ⟨S850000, .i32⟩
  | 28 => ⟨S1x800000, .i32⟩
  | 29 => ⟨S800000, .i32⟩
  | 30 => ⟨S850000, .i32⟩
  | 31 => ⟨S_, .f32⟩
  | 32 => ⟨S850000, .f32⟩
  | 33 => ⟨S_, .f32⟩
  | 34 => ⟨S50000, .f32⟩
  | 35 => ⟨S850000x1, .i32⟩
  | 36 => ⟨S50000, .f32⟩
  | 37 => ⟨S_, .f32⟩
  | 38 => ⟨S50000, .f32⟩
  | 39 => ⟨S50000, .f32⟩
  | 40 => ⟨S50000, .f32⟩
  | 41 => ⟨S_, .i32⟩
  | 42 => ⟨S850000, .i32⟩
  | 43 => ⟨S850000, .i1⟩
  | 44 => ⟨S_, .i32⟩
  | 45 => ⟨S850000, .i32⟩
  | 46 => ⟨S850000, .i32⟩
  | 47 => ⟨S850000, .i32⟩
  | 48 => ⟨S850000x1, .i32⟩
  | 49 => ⟨S850000, .f32⟩
  | 50 => ⟨S_, .i32⟩
  | 51 => ⟨S850000, .i32⟩
  | 52 => ⟨S850000, .i1⟩
  | 53 => ⟨S_, .i32⟩
  | 54 => ⟨S850000, .i32⟩
  | 55 => ⟨S850000, .i32⟩
  | 56 => ⟨S850000, .i32⟩
  | 57 => ⟨S850000x1, .i32⟩
  | 58 => ⟨S850000, .f32⟩
  | 59 => ⟨S850000, .f32⟩
  | 60 => ⟨S50000x128, .f32⟩
  | 61 => ⟨S_, .i32⟩
  | 62 => ⟨S850000, .i32⟩
  | 63 => ⟨S850000, .i1⟩
  | 64 => ⟨S_, .i32⟩
  | 65 => ⟨S850000, .i32⟩
  | 66 => ⟨S850000, .i32⟩
  | 67 => ⟨S850000, .i32⟩
  | 68 => ⟨S850000x1, .i32⟩
  | 69 => ⟨S850000x128, .f32⟩
  | 70 => ⟨S850000x1, .f32⟩
  | 71 => ⟨S850000x128, .f32⟩
  | 72 => ⟨S850000x128, .f32⟩
  | 73 => ⟨S_, .f32⟩
  | 74 => ⟨S50000x128, .f32⟩
  | 75 => ⟨S850000x1, .i32⟩
  | 76 => ⟨S50000x128, .f32⟩
  | 77 => ⟨S1x128, .f32⟩
  | 78 => ⟨S50000x128, .f32⟩
  | 79 => ⟨S50000x128, .f32⟩
  | 80 => ⟨S1x128, .f32⟩
  | 81 => ⟨S50000x128, .f32⟩
  | 82 => ⟨S50000x128, .f32⟩
  | 83 => ⟨S_, .f32⟩
  | 84 => ⟨S128, .f32⟩
  | 85 => ⟨S128, .f32⟩
  | 86 => ⟨S128, .f32⟩
  | 87 => ⟨S1x128, .f32⟩
  | 88 => ⟨S50000x128, .f32⟩
  | 89 => ⟨S50000x128, .f32⟩
  | 90 => ⟨S1x128, .f32⟩
  | 91 => ⟨S50000x128, .f32⟩
  | 92 => ⟨S50000x128, .f32⟩
  | 93 => ⟨S1x128, .f32⟩
  | 94 => ⟨S50000x128, .f32⟩
  | 95 => ⟨S50000x128, .f32⟩
  | 96 => ⟨S_, .f32⟩
  | 97 => ⟨S50000x128, .f32⟩
  | 98 => ⟨S50000x128, .f32⟩
  | 99 => ⟨S50000x128, .f32⟩
  | 100 => ⟨S_, .i32⟩
  | 101 => ⟨S850000, .i32⟩
  | 102 => ⟨S850000, .i1⟩
  | 103 => ⟨S_, .i32⟩
  | 104 => ⟨S850000, .i32⟩
  | 105 => ⟨S850000, .i32⟩
  | 106 => ⟨S850000, .i32⟩
  | 107 => ⟨S850000x1, .i32⟩
  | 108 => ⟨S850000x128, .f32⟩
  | 109 => ⟨S850000x1, .f32⟩
  | 110 => ⟨S850000x128, .f32⟩
  | 111 => ⟨S850000x128, .f32⟩
  | 112 => ⟨S_, .f32⟩
  | 113 => ⟨S50000x128, .f32⟩
  | 114 => ⟨S850000x1, .i32⟩
  | 115 => ⟨S50000x128, .f32⟩
  | 116 => ⟨S1x128, .f32⟩
  | 117 => ⟨S50000x128, .f32⟩
  | 118 => ⟨S50000x128, .f32⟩
  | 119 => ⟨S1x128, .f32⟩
  | 120 => ⟨S50000x128, .f32⟩
  | 121 => ⟨S50000x128, .f32⟩
  | 122 => ⟨S_, .f32⟩
  | 123 => ⟨S128, .f32⟩
  | 124 => ⟨S128, .f32⟩
  | 125 => ⟨S128, .f32⟩
  | 126 => ⟨S1x128, .f32⟩
  | 127 => ⟨S50000x128, .f32⟩
  | _ => ⟨S50000x128, .f32⟩

abbrev hbmTy0_1 (i : Nat) : BufTy := match i % 128 with
  | 0 => ⟨S50000x128, .f32⟩
  | 1 => ⟨S1x128, .f32⟩
  | 2 => ⟨S50000x128, .f32⟩
  | 3 => ⟨S50000x128, .f32⟩
  | 4 => ⟨S1x128, .f32⟩
  | 5 => ⟨S50000x128, .f32⟩
  | 6 => ⟨S50000x128, .f32⟩
  | 7 => ⟨S_, .f32⟩
  | 8 => ⟨S50000x128, .f32⟩
  | 9 => ⟨S50000x128, .f32⟩
  | 10 => ⟨S50000x256, .f32⟩
  | 11 => ⟨S_, .i32⟩
  | 12 => ⟨S850000, .i32⟩
  | 13 => ⟨S850000, .i1⟩
  | 14 => ⟨S_, .i32⟩
  | 15 => ⟨S850000, .i32⟩
  | 16 => ⟨S850000, .i32⟩
  | 17 => ⟨S850000, .i32⟩
  | 18 => ⟨S850000x1, .i32⟩
  | 19 => ⟨S850000x256, .f32⟩
  | 20 => ⟨S850000x1, .f32⟩
  | 21 => ⟨S850000x256, .f32⟩
  | 22 => ⟨S850000x256, .f32⟩
  | 23 => ⟨S_, .f32⟩
  | 24 => ⟨S50000x256, .f32⟩
  | 25 => ⟨S850000x1, .i32⟩
  | 26 => ⟨S50000x256, .f32⟩
  | 27 => ⟨S1x256, .f32⟩
  | 28 => ⟨S50000x256, .f32⟩
  | 29 => ⟨S50000x256, .f32⟩
  | 30 => ⟨S1x256, .f32⟩
  | 31 => ⟨S50000x256, .f32⟩
  | 32 => ⟨S50000x256, .f32⟩
  | 33 => ⟨S_, .f32⟩
  | 34 => ⟨S256, .f32⟩
  | 35 => ⟨S256, .f32⟩
  | 36 => ⟨S256, .f32⟩
  | 37 => ⟨S1x256, .f32⟩
  | 38 => ⟨S50000x256, .f32⟩
  | 39 => ⟨S50000x256, .f32⟩
  | 40 => ⟨S1x256, .f32⟩
  | 41 => ⟨S50000x256, .f32⟩
  | 42 => ⟨S50000x256, .f32⟩
  | 43 => ⟨S1x256, .f32⟩
  | 44 => ⟨S50000x256, .f32⟩
  | 45 => ⟨S50000x256, .f32⟩
  | 46 => ⟨S_, .f32⟩
  | 47 => ⟨S50000x256, .f32⟩
  | 48 => ⟨S50000x256, .f32⟩
  | 49 => ⟨S50000x128, .f32⟩
  | 50 => ⟨S1x128, .f32⟩
  | 51 => ⟨S50000x128, .f32⟩
  | 52 => ⟨S50000x128, .f32⟩
  | 53 => ⟨S_, .f32⟩
  | 54 => ⟨S50000x128, .f32⟩
  | 55 => ⟨S50000x128, .f32⟩
  | 56 => ⟨S50000x40, .f32⟩
  | 57 => ⟨S1x40, .f32⟩
  | 58 => ⟨S50000x40, .f32⟩
  | 59 => ⟨S50000x40, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_cst : Ref sig .tc := ⟨.hbm, 31, rfl⟩
abbrev main_v7 : Ref sig .tc := ⟨.hbm, 32, rfl⟩
abbrev main_cst_0 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_cst_1 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_c : Ref sig .tc := ⟨.hbm, 41, rfl⟩
abbrev main_v14 : Ref sig .tc := ⟨.hbm, 42, rfl⟩
abbrev main_v15 : Ref sig .tc := ⟨.hbm, 43, rfl⟩
abbrev main_c_2 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_c_3 : Ref sig .tc := ⟨.hbm, 50, rfl⟩
abbrev main_v21 : Ref sig .tc := ⟨.hbm, 51, rfl⟩
abbrev main_v22 : Ref sig .tc := ⟨.hbm, 52, rfl⟩
abbrev main_c_4 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_c_5 : Ref sig .tc := ⟨.hbm, 61, rfl⟩
abbrev main_v30 : Ref sig .tc := ⟨.hbm, 62, rfl⟩
abbrev main_v31 : Ref sig .tc := ⟨.hbm, 63, rfl⟩
abbrev main_c_6 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_cst_7 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_cst_8 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_call0_cst : Ref sig .tc := ⟨.hbm, 96, rfl⟩
abbrev main_call0_v0 : Ref sig .tc := ⟨.hbm, 97, rfl⟩
abbrev main_v61 : Ref sig .tc := ⟨.hbm, 98, rfl⟩
abbrev main_v62 : Ref sig .tc := ⟨.hbm, 99, rfl⟩
abbrev main_c_9 : Ref sig .tc := ⟨.hbm, 100, rfl⟩
abbrev main_v63 : Ref sig .tc := ⟨.hbm, 101, rfl⟩
abbrev main_v64 : Ref sig .tc := ⟨.hbm, 102, rfl⟩
abbrev main_c_10 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_cst_11 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_cst_12 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_call1_cst : Ref sig .tc := ⟨.hbm, 135, rfl⟩
abbrev main_call1_v0 : Ref sig .tc := ⟨.hbm, 136, rfl⟩
abbrev main_v94 : Ref sig .tc := ⟨.hbm, 137, rfl⟩
abbrev main_v95 : Ref sig .tc := ⟨.hbm, 138, rfl⟩
abbrev main_c_13 : Ref sig .tc := ⟨.hbm, 139, rfl⟩
abbrev main_v96 : Ref sig .tc := ⟨.hbm, 140, rfl⟩
abbrev main_v97 : Ref sig .tc := ⟨.hbm, 141, rfl⟩
abbrev main_c_14 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_cst_15 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_cst_16 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_call2_cst : Ref sig .tc := ⟨.hbm, 174, rfl⟩
abbrev main_call2_v0 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_call3_cst : Ref sig .tc := ⟨.hbm, 181, rfl⟩
abbrev main_call3_v0 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S128 : S_.BroadcastsInDim S128 (![] : Fin 0 → Fin S128.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S256 : S_.BroadcastsInDim S256 (![] : Fin 0 → Fin S256.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x256_S50000x256_1_0_0_1_n_n_wf : DotDims.WF S50000x128 S128x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x128_S50000x128_1_0_0_1_n_n_wf : DotDims.WF S50000x256 S256x128 S50000x128 [1] [0] [0] [1] [] []
  dot_S50000x128_S128x40_S50000x40_1_0_0_1_n_n_wf : DotDims.WF S50000x128 S128x40 S50000x40 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf

class Facts : Prop extends Facts₀ where

variable [Facts]
-- ==== Proof.KernelRun.lean ====
/-
  The idealized kernel program's run with its result named.

  The program is seven kernel launches among stretches of host operations.  Launched over its segments from any memory
  with zero counters, every weakly fair execution terminates, nothing faulting, with every buffer that outlives the
  launches at the contents the last segment boundary prescribes; in particular the result buffer holds the last
  boundary's contents at the last launch's output array, and no argument array has changed.
-/
import proofs.«111996_j38113539785179_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program ends with the result buffer at the last boundary's contents and the
    argument arrays as launched. -/
theorem run : θ_run defs (onTc (τ := τ) (main (F := F))) ⟨m, fun _ => 0, ρ⟩ (fun r => ∀ c : Dev nD,
      r.2.mem ((c.tc : Thread nD τ).loc main_v91) = W12 m ρ c (Proc.devRef .tc main_v91)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v91 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c),
       (h c _ (mem_uc main_arg13 (by decide))).trans (W12_main_arg13 m ρ c),
       (h c _ (mem_uc main_arg14 (by decide))).trans (W12_main_arg14 m ρ c),
       (h c _ (mem_uc main_arg15 (by decide))).trans (W12_main_arg15 m ρ c),
       (h c _ (mem_uc main_arg16 (by decide))).trans (W12_main_arg16 m ρ c),
       (h c _ (mem_uc main_arg17 (by decide))).trans (W12_main_arg17 m ρ c),
       (h c _ (mem_uc main_arg18 (by decide))).trans (W12_main_arg18 m ρ c),
       (h c _ (mem_uc main_arg19 (by decide))).trans (W12_main_arg19 m ρ c),
       (h c _ (mem_uc main_arg20 (by decide))).trans (W12_main_arg20 m ρ c),
       (h c _ (mem_uc main_arg21 (by decide))).trans (W12_main_arg21 m ρ c),
       (h c _ (mem_uc main_arg22 (by decide))).trans (W12_main_arg22 m ρ c),
       (h c _ (mem_uc main_arg23 (by decide))).trans (W12_main_arg23 m ρ c)⟩)

end Cert.KernelIdeal.RunValue

end
-- ==== Proof.LibPlainDot.lean ====
/-
  A plain matrix product, read at one entry.

  A contraction with the dimension numbers of "rows of an [n, k] matrix against columns of a [k, d] matrix" (contract
  axis 1 of the left with axis 0 of the right, no batch axis) sums, at entry (p, o), the products of row p of the left
  operand with column o of the right: the sum over j of lhs(p, j) · rhs(j, o).  This holds for any record of those
  dimension numbers, whatever its extents and formats, and gives the same reading of a matrix unit's product into the
  zero accumulator and of the host's dot_general, on the extended reals.
-/
import Idealize.ShloMosaic.PureOps.Ideal.Laws
import Idealize.ShloMosaic.Lib.ValueIdx

noncomputable section

namespace Cert.LibPlainDot

open Idealize.ShloMosaic Idealize.ShloMosaic.ValueIdx

/-- The sum over the contraction index is the sum over the one contracted coordinate j, the left operand read at
    (p, j) and the right at (j, o). -/
theorem sum_contr_plain {n k d : ℕ} (D : DotDims ⟨2, ![n, k]⟩ ⟨2, ![k, d]⟩ ⟨2, ![n, d]⟩)
    (hlc : D.lhsContracting = [1]) (hrc : D.rhsContracting = [0]) (hln : D.lhsNonContracting = [0]) (hrn : D.rhsNonContracting = [1])
    (hlb : D.lhsBatch = []) (hrb : D.rhsBatch = [])
    (lhs : (⟨2, ![n, k]⟩ : Shape).Idx → EReal) (rhs : (⟨2, ![k, d]⟩ : Shape).Idx → EReal) (p : Fin n) (o : Fin d) :
    ∑ q : D.contr.Idx, lhs (D.lhsIdx (ix2 p o) q) * rhs (D.rhsIdx (ix2 p o) q) = ∑ j : Fin k, lhs (ix2 p j) * rhs (ix2 j o) := by
  obtain ⟨lc, rc, ln, rn, lb, rb, wf⟩ := D
  simp only at hlc hrc hln hrn hlb hrb
  subst hlc hrc hln hrn hlb hrb
  rw [← Equiv.sum_comp (contrEquiv1 (DotDims.mk [1] [0] [0] [1] [] [] wf) k rfl rfl).symm]
  refine Finset.sum_congr rfl fun j _ => ?_
  have hk := contrEquiv1_symm_val (DotDims.mk [1] [0] [0] [1] [] [] wf) k rfl rfl j
  have el : (DotDims.mk [1] [0] [0] [1] [] [] wf).lhsIdx (ix2 p o) ((contrEquiv1 (DotDims.mk [1] [0] [0] [1] [] [] wf) k rfl rfl).symm j) = ix2 p j :=
    funext fun a => Fin.ext (by
      match a with
      | ⟨0, _⟩ => rfl
      | ⟨1, _⟩ => exact ((DotDims.mk [1] [0] [0] [1] [] [] wf).lhsIdx_val_of_single rfl _ _).trans hk)
  have er : (DotDims.mk [1] [0] [0] [1] [] [] wf).rhsIdx (ix2 p o) ((contrEquiv1 (DotDims.mk [1] [0] [0] [1] [] [] wf) k rfl rfl).symm j) = ix2 j o :=
    funext fun a => Fin.ext (by
      match a with
      | ⟨0, _⟩ => exact ((DotDims.mk [1] [0] [0] [1] [] [] wf).rhsIdx_val_of_single rfl _ _).trans hk
      | ⟨1, _⟩ => rfl)
  rw [el, er]

/-- A matrix unit's product into the zero accumulator, at (p, o). -/
theorem matmul_zero_apply {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0]) (hrn : D.rhsNonContracting = [1])
    (hlb : D.lhsBatch = []) (hrb : D.rhsBatch = []) (prec : Option ContractPrecision)
    (lhs : FVec Ideal ⟨2, ![n, k]⟩ φ₁) (rhs : FVec Ideal ⟨2, ![k, d]⟩ φ₂) (p : Fin n) (o : Fin d) :
    FloatOps.matmul D prec lhs rhs (constant ⟨2, ![n, d]⟩ .f32 0x00000000#32) (ix2 p o) = ∑ j : Fin k, lhs (ix2 p j) * rhs (ix2 j o) :=
  (Ideal.matmul_constant_zero_apply D prec lhs rhs (ix2 p o)).trans (sum_contr_plain D hlc hrc hln hrn hlb hrb lhs rhs p o)

/-- The host's dot_general, at (p, o). -/
theorem dotGeneral_apply {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0]) (hrn : D.rhsNonContracting = [1])
    (hlb : D.lhsBatch = []) (hrb : D.rhsBatch = []) (prec : Option ContractPrecision) (sched : HostSchedule)
    (lhs : FVec Ideal ⟨2, ![n, k]⟩ φ₁) (rhs : FVec Ideal ⟨2, ![k, d]⟩ φ₂) (p : Fin n) (o : Fin d) :
    FloatOps.dotGeneral D prec sched lhs rhs (ix2 p o) = ∑ j : Fin k, lhs (ix2 p j) * rhs (ix2 j o) :=
  (Ideal.dotGeneral_apply D prec sched lhs rhs (ix2 p o)).trans (sum_contr_plain D hlc hrc hln hrn hlb hrb lhs rhs p o)

end Cert.LibPlainDot

end
-- ==== Proof.LibBiasRow.lean ====
/-
  A bias vector laid along the rows of a matrix, read at an entry.

  A vector [D] reshaped to the one-row matrix [1, D] has the vector's element k at (0, k); that row spread over N rows has,
  at (p, k), the row's element (0, k).  Together: adding a bias vector to every row of an [N, D] matrix adds element k of the
  vector at column k.  General in the extents and the element type.
-/
import Idealize.ShloMosaic.Lib.ValueIdx
import Idealize.ShloMosaic.Lib.Pipeline.Value

noncomputable section

namespace Cert.LibBiasRow

open Idealize.ShloMosaic Idealize.ShloMosaic.ValueIdx

/-- A vector reshaped to a one-row matrix: element (u, k) of the row is element k of the vector. -/
theorem vec_as_row_apply {α : Type} {D : ℕ} (h : (⟨1, ![D]⟩ : Shape).ShapeCasts ⟨2, ![1, D]⟩)
    (v : (⟨1, ![D]⟩ : Shape).Idx → α) (u : Fin 1) (k : Fin D) :
    shapeCast ⟨2, ![1, D]⟩ v h (ix2 u k) = v (ix1 k) := by
  refine (shapeCast_addUnit_apply (n := 1) ![D] v h (ix2 u k)).trans (congrArg v ?_)
  funext a
  match a with
  | ⟨0, _⟩ => rfl

/-- A one-row matrix spread over N rows: element (p, k) is the row's element (0, k) (the first axis is a unit axis; the
    second is read at the column, also when D = 1). -/
theorem row_spread_apply {α : Type} {N D : ℕ} (h : (⟨2, ![1, D]⟩ : Shape).Broadcasts ⟨2, ![N, D]⟩)
    (v : (⟨2, ![1, D]⟩ : Shape).Idx → α) (p : Fin N) (k : Fin D) :
    broadcastTo ⟨2, ![N, D]⟩ v h (ix2 p k) = v (ix2 (0 : Fin 1) k) :=
  broadcastTo_apply v h (ix2 p k) (ix2 (0 : Fin 1) k) (fun a => by
    match a with
    | ⟨0, _⟩ => rfl
    | ⟨1, _⟩ =>
      show k.val = if D = 1 then 0 else k.val
      split
      · have := k.isLt; omega
      · rfl)

/-- The two together: a vector reshaped to a row and spread over N rows reads, at (p, k), the vector's element k. -/
theorem vec_spread_apply {α : Type} {N D : ℕ} (h₁ : (⟨1, ![D]⟩ : Shape).ShapeCasts ⟨2, ![1, D]⟩)
    (h₂ : (⟨2, ![1, D]⟩ : Shape).Broadcasts ⟨2, ![N, D]⟩) (v : (⟨1, ![D]⟩ : Shape).Idx → α) (p : Fin N) (k : Fin D) :
    broadcastTo ⟨2, ![N, D]⟩ (shapeCast ⟨2, ![1, D]⟩ v h₁) h₂ (ix2 p k) = v (ix1 k) :=
  (row_spread_apply h₂ _ p k).trans (vec_as_row_apply h₁ v 0 k)

end Cert.LibBiasRow

end
-- ==== Proof.LibRowBroadcast.lean ====
/-
  Two more `broadcastInDim` forms read at an index: a vector [D] placed as the one row of a [1, D] matrix (the operand's
  axis sent to the result's axis 1), and a [1, D] row spread over N rows. General in the extents and the element type.
-/
import Idealize.ShloMosaic.Lib.ValueIdx
import Idealize.ShloMosaic.Lib.Pipeline.Value

noncomputable section

namespace Cert.LibRowBroadcast

open Idealize.ShloMosaic Idealize.ShloMosaic.ValueIdx

/-- A vector as a row: element (u, o) of the row is element o of the vector (also when D = 1, where the operand's one
    axis is a unit axis read at 0 = o). -/
theorem vec_row_apply {α : Type} {D : ℕ} (h : (⟨1, ![D]⟩ : Shape).BroadcastsInDim ⟨2, ![1, D]⟩ ![1])
    (v : (⟨1, ![D]⟩ : Shape).Idx → α) (u : Fin 1) (o : Fin D) :
    broadcastInDim ⟨2, ![1, D]⟩ ![1] h v (ix2 u o) = v (ix1 o) :=
  broadcastInDim_apply ![1] h v (ix2 u o) (ix1 o) (fun a => by
    match a with
    | ⟨0, _⟩ =>
      show o.val = if D = 1 then 0 else o.val
      split
      · have := o.isLt; omega
      · rfl)

/-- A row spread over N rows: element (p, o) is the row's element (0, o) (the operand's first axis is a unit axis; its
    second is read at the column, also when D = 1). -/
theorem row_mat_apply {α : Type} {N D : ℕ} (h : (⟨2, ![1, D]⟩ : Shape).BroadcastsInDim ⟨2, ![N, D]⟩ ![0, 1])
    (v : (⟨2, ![1, D]⟩ : Shape).Idx → α) (p : Fin N) (o : Fin D) :
    broadcastInDim ⟨2, ![N, D]⟩ ![0, 1] h v (ix2 p o) = v (ix2 (0 : Fin 1) o) :=
  broadcastInDim_apply ![0, 1] h v (ix2 p o) (ix2 (0 : Fin 1) o) (fun a => by
    match a with
    | ⟨0, _⟩ => rfl
    | ⟨1, _⟩ =>
      show o.val = if D = 1 then 0 else o.val
      split
      · have := o.isLt; omega
      · rfl)

end Cert.LibRowBroadcast

end
-- ==== Proof.LibRowStages.lean ====
/-
  Row-wise stages on matrices of extended reals: the matrix product, a bias row added to every row, the floor at zero.

  On the extended reals an [n, k] matrix times a [k, d] matrix has at (p, o) the sum over j of a(p, j) * w(j, o); adding a
  one-row matrix to every row adds b(0, j) at (p, j); flooring takes the maximum with what the zero word of the 32-bit
  float format denotes.  Each of the three works one row at a time: row p of the result depends on row p of the matrix
  operand only.  So if row q of a matrix ab is row p of a matrix a, the same holds of their images under any of the three
  (`RowEq`, `mm_row`, `addRow_row`, `relu_row`), hence under any composition: a stage computed on a block of rows is the
  same rows of the stage of the whole matrix.  Nothing is distributed or cancelled, so this holds at the infinities too.

  The operations a vector unit and a host program apply are these functions, entry by entry: a matrix unit's product into
  the zero accumulator and the host's contraction with the same dimension numbers are `mm` whatever the operands' float
  formats; a bias row spread over the rows and added is `addRow` (for the unit's spread of a one-row matrix, and for the
  host's vector placed as a row and then spread); the maximum against a splat of the zero word is `relu` (splat from a
  scalar constant by the unit, from a scalar array by the host); a change to a narrower float format changes nothing.
-/
import Idealize.ShloMosaic.PureOps.Ideal
import Idealize.ShloMosaic.PureOps.Ideal.Laws
import Idealize.ShloMosaic.Lib.ValueIdx
import Idealize.ShloMosaic.Lib.Pipeline.Value
import proofs.«111996_j38113539785179_1_alg».proof.Proof.LibPlainDot
import proofs.«111996_j38113539785179_1_alg».proof.Proof.LibBiasRow
import proofs.«111996_j38113539785179_1_alg».proof.Proof.LibRowBroadcast

noncomputable section

open scoped BigOperators

namespace Cert.LibRowStages

open Idealize.ShloMosaic Idealize.ShloMosaic.ValueIdx

/-- An [a, b] matrix of extended reals. -/
abbrev Mat (a b : ℕ) : Type := (⟨2, ![a, b]⟩ : Shape).Idx → EReal

/-- The floor of the rectifier: what the zero word of the 32-bit float format denotes (never evaluated: the same word
    stands on both sides of every equation). -/
def floor0 : EReal := Ideal.ofBits .f32 0x00000000#32

/-- The matrix product: entry (p, o) is the sum over j of a(p, j) * w(j, o). -/
def mm {n k d : ℕ} (a : Mat n k) (w : Mat k d) : Mat n d :=
  fun i => ∑ j : Fin k, a (ix2 (i 0) j) * w (ix2 j (i 1))

/-- A one-row matrix added to every row: entry (p, j) gains b(0, j). -/
def addRow {n k : ℕ} (a : Mat n k) (b : Mat 1 k) : Mat n k :=
  fun i => a i + b (ix2 (0 : Fin 1) (i 1))

/-- Every entry floored at zero. -/
def relu {n k : ℕ} (a : Mat n k) : Mat n k := fun i => max (a i) floor0

/-! ## One row at a time -/

/-- Row q of ab is row p of a. -/
def RowEq {m n k : ℕ} (ab : Mat m k) (q : Fin m) (a : Mat n k) (p : Fin n) : Prop :=
  ∀ j : Fin k, ab (ix2 q j) = a (ix2 p j)

theorem mm_row {m n k d : ℕ} {ab : Mat m k} {q : Fin m} {a : Mat n k} {p : Fin n} (h : RowEq ab q a p) (w : Mat k d) :
    RowEq (mm ab w) q (mm a w) p := fun o => by
  show ∑ j : Fin k, ab (ix2 q j) * w (ix2 j o) = ∑ j : Fin k, a (ix2 p j) * w (ix2 j o)
  exact Finset.sum_congr rfl fun j _ => by rw [h j]

theorem addRow_row {m n k : ℕ} {ab : Mat m k} {q : Fin m} {a : Mat n k} {p : Fin n} (h : RowEq ab q a p) (b : Mat 1 k) :
    RowEq (addRow ab b) q (addRow a b) p := fun j => by
  show ab (ix2 q j) + b (ix2 (0 : Fin 1) j) = a (ix2 p j) + b (ix2 (0 : Fin 1) j)
  rw [h j]

theorem relu_row {m n k : ℕ} {ab : Mat m k} {q : Fin m} {a : Mat n k} {p : Fin n} (h : RowEq ab q a p) :
    RowEq (relu ab) q (relu a) p := fun j => by
  show max (ab (ix2 q j)) floor0 = max (a (ix2 p j)) floor0
  rw [h j]

/-! ## The machine's operations are these functions -/

/-- A matrix unit's product into the zero accumulator is the matrix product, whatever the operands' formats. -/
theorem matmul_eq_mm {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![n, k]⟩ φ₁) (r : FVec Ideal ⟨2, ![k, d]⟩ φ₂) :
    matmul D prec l r (constant ⟨2, ![n, d]⟩ .f32 0x00000000#32) = mm l r := by
  funext i
  obtain ⟨p, o, rfl⟩ : ∃ (p : Fin n) (o : Fin d), i = ix2 p o := ⟨i 0, i 1, eq_ix2 i⟩
  exact Cert.LibPlainDot.matmul_zero_apply D hlc hrc hln hrn hlb hrb prec l r p o

/-- The host's contraction with the same dimension numbers is the matrix product. -/
theorem dotGeneral_eq_mm {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![n, k]⟩ φ₁) (r : FVec Ideal ⟨2, ![k, d]⟩ φ₂) :
    Host.dotGeneral D prec l r = mm l r := by
  funext i
  obtain ⟨p, o, rfl⟩ : ∃ (p : Fin n) (o : Fin d), i = ix2 p o := ⟨i 0, i 1, eq_ix2 i⟩
  exact Cert.LibPlainDot.dotGeneral_apply D hlc hrc hln hrn hlb hrb prec .single l r p o

/-- Adding a one-row matrix spread over the rows is `addRow`. -/
theorem addf_spread_eq_addRow {n k : ℕ} (h : (⟨2, ![1, k]⟩ : Shape).Broadcasts ⟨2, ![n, k]⟩)
    (a : FVec Ideal ⟨2, ![n, k]⟩ .f32) (b : FVec Ideal ⟨2, ![1, k]⟩ .f32) :
    addf a (broadcastTo ⟨2, ![n, k]⟩ b h) = addRow a b := by
  funext i
  obtain ⟨p, j, rfl⟩ : ∃ (p : Fin n) (j : Fin k), i = ix2 p j := ⟨i 0, i 1, eq_ix2 i⟩
  show a (ix2 p j) + broadcastTo ⟨2, ![n, k]⟩ b h (ix2 p j) = a (ix2 p j) + b (ix2 (0 : Fin 1) j)
  rw [Cert.LibBiasRow.row_spread_apply h b p j]

/-- The maximum against a splat of the zero word is `relu`. -/
theorem maximumf_zero_eq_relu {n k : ℕ} (a : FVec Ideal ⟨2, ![n, k]⟩ .f32) :
    maximumf a (broadcast ⟨2, ![n, k]⟩ (Scalar.ofBits (F := Ideal) .f32 0x00000000#32)) = relu a := rfl

/-- A change to a narrower float format changes no extended real. -/
theorem truncf_eq {s : Shape} {φ ψ : FTy} (a : FVec Ideal s φ) (h : ψ.bits < φ.bits) :
    (truncf ψ a h : FVec Ideal s ψ) = a := rfl

/-! ## The host program's spellings -/

/-- Adding a vector placed as a row and spread over the rows is `addRow` of the vector reshaped to a row. -/
theorem addf_hostBias_eq_addRow {n k : ℕ} (h1 : (⟨1, ![k]⟩ : Shape).BroadcastsInDim ⟨2, ![1, k]⟩ ![1])
    (h2 : (⟨2, ![1, k]⟩ : Shape).BroadcastsInDim ⟨2, ![n, k]⟩ ![0, 1]) (hc : (⟨1, ![k]⟩ : Shape).ShapeCasts ⟨2, ![1, k]⟩)
    (a : FVec Ideal ⟨2, ![n, k]⟩ .f32) (v : FVec Ideal ⟨1, ![k]⟩ .f32) :
    addf a (broadcastInDim ⟨2, ![n, k]⟩ ![0, 1] h2 (broadcastInDim ⟨2, ![1, k]⟩ ![1] h1 v))
      = addRow a (shapeCast ⟨2, ![1, k]⟩ v hc) := by
  funext i
  obtain ⟨p, j, rfl⟩ : ∃ (p : Fin n) (j : Fin k), i = ix2 p j := ⟨i 0, i 1, eq_ix2 i⟩
  show a (ix2 p j) + broadcastInDim ⟨2, ![n, k]⟩ ![0, 1] h2 (broadcastInDim ⟨2, ![1, k]⟩ ![1] h1 v) (ix2 p j)
    = a (ix2 p j) + shapeCast ⟨2, ![1, k]⟩ v hc (ix2 (0 : Fin 1) j)
  rw [Cert.LibRowBroadcast.row_mat_apply h2 _ p j, Cert.LibRowBroadcast.vec_row_apply h1 v 0 j,
    Cert.LibBiasRow.vec_as_row_apply hc v 0 j]

/-- The maximum against the zero word spread from a scalar is `relu`. -/
theorem maximumf_hostZero_eq_relu {n k : ℕ} (h : (⟨0, ![]⟩ : Shape).BroadcastsInDim ⟨2, ![n, k]⟩ ![])
    (a : FVec Ideal ⟨2, ![n, k]⟩ .f32) :
    maximumf a (broadcastInDim ⟨2, ![n, k]⟩ ![] h (constant (F := Ideal) ⟨0, ![]⟩ .f32 0x00000000#32)) = relu a := by
  funext i
  show max (a i) (broadcastInDim ⟨2, ![n, k]⟩ ![] h (constant (F := Ideal) ⟨0, ![]⟩ .f32 0x00000000#32) i) = max (a i) floor0
  rw [broadcastInDim_apply ![] h _ i ix0 (fun a => a.elim0)]
  rfl

end Cert.LibRowStages

end
-- ==== Proof.LibNormStages.lean ====
/-
  Two more row-wise stages on matrices of extended reals: the inference-time batch normalisation with its bias and floor,
  and a two-layer dense head.

  The normalisation stage takes an [n, k] matrix a and five one-row parameter matrices and gives, entry by entry,
      (p, j)  ↦  max ((((a(p,j) + b(j)) - mu(j)) * rsqrt (v(j) + eps)) * g(j) + bb(j)) 0,
  eps the word 0x3727C5AC of the 32-bit float format (the float nearest 1e-5), never evaluated.  Like the matrix product,
  the bias row and the floor, it works one row at a time: row p of the result depends on row p of the matrix operand only
  (`bnRelu_row`).  The head is `addRow (mm (relu (addRow (mm h w1) b1)) w2) b2`, a composition of row-local stages
  (`head_row`).  So either stage computed on a block of rows is the same rows of the stage of the whole matrix.

  The vector unit's spelling of the normalisation (one-row matrices spread over the rows) and a host program's (vectors
  placed as rows, then spread; the reciprocal square root taken on the vector) are both this function (`unitBN_eq`,
  `hostBN_eq`): the sums, differences and products are taken entry by entry in the same order on both sides, nothing is
  distributed or cancelled, and the reciprocal square root is one function of the extended reals for the unit and for the
  host.  General in the extents.
-/
import Idealize.ShloMosaic.PureOps.Ideal
import Idealize.ShloMosaic.PureOps.Ideal.Laws
import Idealize.ShloMosaic.Lib.ValueIdx
import Idealize.ShloMosaic.Lib.Pipeline.Value
import proofs.«111996_j38113539785179_1_alg».proof.Proof.LibRowStages

noncomputable section

namespace Cert.LibNormStages

open Idealize.ShloMosaic Idealize.ShloMosaic.ValueIdx Cert.LibRowStages

/-- What the word of the variance offset denotes (never evaluated: the same word stands on both sides). -/
def epsBN : EReal := Ideal.ofBits .f32 0x3727C5AC#32

/-- One entry of the normalisation stage. -/
def bnS (x b g bb mu v : EReal) : EReal :=
  max ((((x + b) - mu) * Ideal.rsqrt (v + epsBN)) * g + bb) floor0

/-- Bias, normalisation by running statistics, scale and shift, floor at zero: entry (p, j) from a(p, j) and column j
    of the five one-row parameter matrices. -/
def bnRelu {n k : ℕ} (a : Mat n k) (b g bb mu v : Mat 1 k) : Mat n k := fun i =>
  bnS (a i) (b (ix2 (0 : Fin 1) (i 1))) (g (ix2 (0 : Fin 1) (i 1))) (bb (ix2 (0 : Fin 1) (i 1)))
    (mu (ix2 (0 : Fin 1) (i 1))) (v (ix2 (0 : Fin 1) (i 1)))

theorem bnRelu_row {m n k : ℕ} {ab : Mat m k} {q : Fin m} {a : Mat n k} {p : Fin n} (h : RowEq ab q a p)
    (b g bb mu v : Mat 1 k) : RowEq (bnRelu ab b g bb mu v) q (bnRelu a b g bb mu v) p := fun j => by
  show bnS (ab (ix2 q j)) (b (ix2 (0 : Fin 1) j)) (g (ix2 (0 : Fin 1) j)) (bb (ix2 (0 : Fin 1) j))
      (mu (ix2 (0 : Fin 1) j)) (v (ix2 (0 : Fin 1) j))
    = bnS (a (ix2 p j)) (b (ix2 (0 : Fin 1) j)) (g (ix2 (0 : Fin 1) j)) (bb (ix2 (0 : Fin 1) j))
      (mu (ix2 (0 : Fin 1) j)) (v (ix2 (0 : Fin 1) j))
  rw [h j]

/-- The two dense layers of the head. -/
def head {n k d e : ℕ} (h : Mat n k) (w1 : Mat k d) (b1 : Mat 1 d) (w2 : Mat d e) (b2 : Mat 1 e) : Mat n e :=
  addRow (mm (relu (addRow (mm h w1) b1)) w2) b2

theorem head_row {m n k d e : ℕ} {ab : Mat m k} {q : Fin m} {a : Mat n k} {p : Fin n} (h : RowEq ab q a p)
    (w1 : Mat k d) (b1 : Mat 1 d) (w2 : Mat d e) (b2 : Mat 1 e) :
    RowEq (head ab w1 b1 w2 b2) q (head a w1 b1 w2 b2) p :=
  addRow_row (mm_row (relu_row (addRow_row (mm_row h w1) b1)) w2) b2

/-- The vector unit's normalisation: the one-row parameter matrices spread over the rows, the operations entry by entry. -/
theorem unitBN_eq {n k : ℕ} (h : (⟨2, ![1, k]⟩ : Shape).Broadcasts ⟨2, ![n, k]⟩)
    (a : FVec Ideal ⟨2, ![n, k]⟩ .f32) (b g bb mu v : FVec Ideal ⟨2, ![1, k]⟩ .f32) :
    maximumf (addf (mulf (mulf (subf (addf a (broadcastTo ⟨2, ![n, k]⟩ b h)) (broadcastTo ⟨2, ![n, k]⟩ mu h))
        (broadcastTo ⟨2, ![n, k]⟩ (rsqrt (addf v (broadcast ⟨2, ![1, k]⟩ (Scalar.ofBits (F := Ideal) .f32 0x3727C5AC#32)))) h))
        (broadcastTo ⟨2, ![n, k]⟩ g h)) (broadcastTo ⟨2, ![n, k]⟩ bb h))
      (broadcast ⟨2, ![n, k]⟩ (Scalar.ofBits (F := Ideal) .f32 0x00000000#32))
    = bnRelu a b g bb mu v := by
  funext i
  obtain ⟨p, j, rfl⟩ : ∃ (p : Fin n) (j : Fin k), i = ix2 p j := ⟨i 0, i 1, eq_ix2 i⟩
  show max ((((a (ix2 p j) + broadcastTo ⟨2, ![n, k]⟩ b h (ix2 p j)) - broadcastTo ⟨2, ![n, k]⟩ mu h (ix2 p j))
        * broadcastTo ⟨2, ![n, k]⟩ (rsqrt (addf v (broadcast ⟨2, ![1, k]⟩ (Scalar.ofBits (F := Ideal) .f32 0x3727C5AC#32)))) h (ix2 p j))
        * broadcastTo ⟨2, ![n, k]⟩ g h (ix2 p j) + broadcastTo ⟨2, ![n, k]⟩ bb h (ix2 p j)) floor0
    = bnS (a (ix2 p j)) (b (ix2 (0 : Fin 1) j)) (g (ix2 (0 : Fin 1) j)) (bb (ix2 (0 : Fin 1) j))
      (mu (ix2 (0 : Fin 1) j)) (v (ix2 (0 : Fin 1) j))
  rw [Cert.LibBiasRow.row_spread_apply h b p j, Cert.LibBiasRow.row_spread_apply h mu p j,
    Cert.LibBiasRow.row_spread_apply h _ p j, Cert.LibBiasRow.row_spread_apply h g p j,
    Cert.LibBiasRow.row_spread_apply h bb p j]
  rfl

/-- The host program's normalisation: each parameter vector placed as a row and spread over the rows, the reciprocal
    square root taken on the vector; the parameters here as the one-row matrices the vectors reshape to. -/
theorem hostBN_eq {n k : ℕ} (h1 : (⟨1, ![k]⟩ : Shape).BroadcastsInDim ⟨2, ![1, k]⟩ ![1])
    (h2 : (⟨2, ![1, k]⟩ : Shape).BroadcastsInDim ⟨2, ![n, k]⟩ ![0, 1])
    (h0 : (⟨0, ![]⟩ : Shape).BroadcastsInDim ⟨2, ![n, k]⟩ ![]) (he : (⟨0, ![]⟩ : Shape).BroadcastsInDim ⟨1, ![k]⟩ ![])
    (hc : (⟨1, ![k]⟩ : Shape).ShapeCasts ⟨2, ![1, k]⟩)
    (a : FVec Ideal ⟨2, ![n, k]⟩ .f32) (b g bb mu v : FVec Ideal ⟨1, ![k]⟩ .f32) :
    maximumf (addf (mulf (mulf (subf
        (addf a (broadcastInDim ⟨2, ![n, k]⟩ ![0, 1] h2 (broadcastInDim ⟨2, ![1, k]⟩ ![1] h1 b)))
        (broadcastInDim ⟨2, ![n, k]⟩ ![0, 1] h2 (broadcastInDim ⟨2, ![1, k]⟩ ![1] h1 mu)))
        (broadcastInDim ⟨2, ![n, k]⟩ ![0, 1] h2 (broadcastInDim ⟨2, ![1, k]⟩ ![1] h1
          (Host.rsqrt (addf v (broadcastInDim ⟨1, ![k]⟩ ![] he (constant (F := Ideal) ⟨0, ![]⟩ .f32 0x3727C5AC#32)))))))
        (broadcastInDim ⟨2, ![n, k]⟩ ![0, 1] h2 (broadcastInDim ⟨2, ![1, k]⟩ ![1] h1 g)))
        (broadcastInDim ⟨2, ![n, k]⟩ ![0, 1] h2 (broadcastInDim ⟨2, ![1, k]⟩ ![1] h1 bb)))
      (broadcastInDim ⟨2, ![n, k]⟩ ![] h0 (constant (F := Ideal) ⟨0, ![]⟩ .f32 0x00000000#32))
    = bnRelu a (shapeCast ⟨2, ![1, k]⟩ b hc) (shapeCast ⟨2, ![1, k]⟩ g hc) (shapeCast ⟨2, ![1, k]⟩ bb hc)
        (shapeCast ⟨2, ![1, k]⟩ mu hc) (shapeCast ⟨2, ![1, k]⟩ v hc) := by
  funext i
  obtain ⟨p, j, rfl⟩ : ∃ (p : Fin n) (j : Fin k), i = ix2 p j := ⟨i 0, i 1, eq_ix2 i⟩
  show max ((((a (ix2 p j) + broadcastInDim ⟨2, ![n, k]⟩ ![0, 1] h2 (broadcastInDim ⟨2, ![1, k]⟩ ![1] h1 b) (ix2 p j))
        - broadcastInDim ⟨2, ![n, k]⟩ ![0, 1] h2 (broadcastInDim ⟨2, ![1, k]⟩ ![1] h1 mu) (ix2 p j))
        * broadcastInDim ⟨2, ![n, k]⟩ ![0, 1] h2 (broadcastInDim ⟨2, ![1, k]⟩ ![1] h1
          (Host.rsqrt (addf v (broadcastInDim ⟨1, ![k]⟩ ![] he (constant (F := Ideal) ⟨0, ![]⟩ .f32 0x3727C5AC#32))))) (ix2 p j))
        * broadcastInDim ⟨2, ![n, k]⟩ ![0, 1] h2 (broadcastInDim ⟨2, ![1, k]⟩ ![1] h1 g) (ix2 p j)
        + broadcastInDim ⟨2, ![n, k]⟩ ![0, 1] h2 (broadcastInDim ⟨2, ![1, k]⟩ ![1] h1 bb) (ix2 p j))
      (broadcastInDim ⟨2, ![n, k]⟩ ![] h0 (constant (F := Ideal) ⟨0, ![]⟩ .f32 0x00000000#32) (ix2 p j))
    = bnS (a (ix2 p j)) (shapeCast ⟨2, ![1, k]⟩ b hc (ix2 (0 : Fin 1) j)) (shapeCast ⟨2, ![1, k]⟩ g hc (ix2 (0 : Fin 1) j))
      (shapeCast ⟨2, ![1, k]⟩ bb hc (ix2 (0 : Fin 1) j)) (shapeCast ⟨2, ![1, k]⟩ mu hc (ix2 (0 : Fin 1) j))
      (shapeCast ⟨2, ![1, k]⟩ v hc (ix2 (0 : Fin 1) j))
  rw [Cert.LibRowBroadcast.row_mat_apply h2 _ p j, Cert.LibRowBroadcast.row_mat_apply h2 _ p j,
    Cert.LibRowBroadcast.row_mat_apply h2 _ p j, Cert.LibRowBroadcast.row_mat_apply h2 _ p j,
    Cert.LibRowBroadcast.row_mat_apply h2 _ p j,
    Cert.LibRowBroadcast.vec_row_apply h1 b 0 j, Cert.LibRowBroadcast.vec_row_apply h1 mu 0 j,
    Cert.LibRowBroadcast.vec_row_apply h1 _ 0 j, Cert.LibRowBroadcast.vec_row_apply h1 g 0 j,
    Cert.LibRowBroadcast.vec_row_apply h1 bb 0 j,
    Cert.LibBiasRow.vec_as_row_apply hc b 0 j, Cert.LibBiasRow.vec_as_row_apply hc g 0 j,
    Cert.LibBiasRow.vec_as_row_apply hc bb 0 j, Cert.LibBiasRow.vec_as_row_apply hc mu 0 j,
    Cert.LibBiasRow.vec_as_row_apply hc v 0 j,
    broadcastInDim_apply ![] h0 _ (ix2 p j) ix0 (fun a => a.elim0)]
  show max ((((a (ix2 p j) + b (ix1 j)) - mu (ix1 j))
        * Ideal.rsqrt (v (ix1 j) + broadcastInDim ⟨1, ![k]⟩ ![] he (constant (F := Ideal) ⟨0, ![]⟩ .f32 0x3727C5AC#32) (ix1 j)))
        * g (ix1 j) + bb (ix1 j)) floor0 = _
  rw [broadcastInDim_apply ![] he _ (ix1 j) ix0 (fun a => a.elim0)]
  rfl

end Cert.LibNormStages

end
-- ==== Proof.RefSide.lean ====
/-
  The reference program, stage by stage.

  The reference computes, from the node features x, the edge list and the parameters: the edge normalisation (shared by
  all layers), then three times "matrix product, gather along the edges and scale, scatter-add to the target nodes, bias,
  normalisation, floor at zero", then two dense layers.  Read one operation at a time, each dense stage of its run is one
  of the row-wise stages on extended reals: a contraction is the matrix product, the chain from the bias to the floor is
  the normalisation stage, and the last five operations are the head.  The gather and scatter-add between them are
  carried as they stand (`edgeIdx`, `agg128`, `agg256`): one function of the product, the two index vectors and the edge weights.
-/
import proofs.«111996_j38113539785179_1_alg».proof.Proof.Gen.ReferenceIdeal.Read
import proofs.«111996_j38113539785179_1_alg».proof.Proof.LibNormStages

set_option maxRecDepth 16384

noncomputable section

namespace Cert.Gcn.Ref

open Cert.ReferenceIdeal Cert.ReferenceIdeal.Gen Cert.ReferenceIdeal.Read
open Idealize.ShloMosaic Idealize.ShloMosaic.ValueIdx
open Cert.LibRowStages Cert.LibNormStages

/-- An index vector made ready for a gather: a negative entry is moved up by the number of nodes, and the vector is
    placed as a column. -/
def edgeIdx (s : (⟨S850000, .i32⟩ : BufTy).Contents (Elt Ideal)) : (⟨S850000x1, .i32⟩ : BufTy).Contents (Elt Ideal) :=
  broadcastInDim S850000x1 ![0] bcast_S850000_S850000x1_0
    (select (cmpi .slt s (broadcastInDim S850000 ![] bcast_S_S850000 (constantI S_ 32 0#32)))
      (addi s (broadcastInDim S850000 ![] bcast_S_S850000 (constantI S_ 32 50000#32))) s)

/-- The aggregation of a layer of width 128: rows of xw gathered at the sources, scaled by the edge weights, added into
    the rows of the targets, from zero. -/
def agg128 (xw : (⟨S50000x128, .f32⟩ : BufTy).Contents (Elt Ideal)) (s d : (⟨S850000, .i32⟩ : BufTy).Contents (Elt Ideal)) (nrm : (⟨S850000, .f32⟩ : BufTy).Contents (Elt Ideal)) : (⟨S50000x128, .f32⟩ : BufTy).Contents (Elt Ideal) :=
  Host.scatterAdd scatter_S50000x128_S850000x1_S850000x128_1_0_0_1
    (broadcastInDim S50000x128 ![] bcast_S_S50000x128 (constant (F := Ideal) S_ .f32 0x00000000#32))
    (broadcastInDim S850000x1 ![0] bcast_S850000_S850000x1_0 d)
    (mulf (Host.gather gather_S50000x128_S850000x1_S850000x128_1_0_n_n_0_1_1128 xw (edgeIdx s))
      (broadcastInDim S850000x128 ![0, 1] bcast_S850000x1_S850000x128_0_1 (broadcastInDim S850000x1 ![0] bcast_S850000_S850000x1_0 nrm)))

/-- The same at width 256. -/
def agg256 (xw : (⟨S50000x256, .f32⟩ : BufTy).Contents (Elt Ideal)) (s d : (⟨S850000, .i32⟩ : BufTy).Contents (Elt Ideal)) (nrm : (⟨S850000, .f32⟩ : BufTy).Contents (Elt Ideal)) : (⟨S50000x256, .f32⟩ : BufTy).Contents (Elt Ideal) :=
  Host.scatterAdd scatter_S50000x256_S850000x1_S850000x256_1_0_0_1
    (broadcastInDim S50000x256 ![] bcast_S_S50000x256 (constant (F := Ideal) S_ .f32 0x00000000#32))
    (broadcastInDim S850000x1 ![0] bcast_S850000_S850000x1_0 d)
    (mulf (Host.gather gather_S50000x256_S850000x1_S850000x256_1_0_n_n_0_1_1256 xw (edgeIdx s))
      (broadcastInDim S850000x256 ![0, 1] bcast_S850000x1_S850000x256_0_1 (broadcastInDim S850000x1 ![0] bcast_S850000_S850000x1_0 nrm)))

variable (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 x4 x5 x6 x7 : (⟨S128, .f32⟩ : BufTy).Contents (Elt Ideal)) (x8 : (⟨S128x128, .f32⟩ : BufTy).Contents (Elt Ideal)) (x9 x10 x11 x12 x13 : (⟨S128, .f32⟩ : BufTy).Contents (Elt Ideal)) (x14 : (⟨S128x256, .f32⟩ : BufTy).Contents (Elt Ideal)) (x15 x16 x17 x18 x19 : (⟨S256, .f32⟩ : BufTy).Contents (Elt Ideal)) (x20 : (⟨S256x128, .f32⟩ : BufTy).Contents (Elt Ideal)) (x21 : (⟨S128, .f32⟩ : BufTy).Contents (Elt Ideal)) (x22 : (⟨S128x40, .f32⟩ : BufTy).Contents (Elt Ideal)) (x23 : (⟨S40, .f32⟩ : BufTy).Contents (Elt Ideal))
variable (hc128 : S128.ShapeCasts (⟨2, ![1, 128]⟩ : Shape)) (hc256 : S256.ShapeCasts (⟨2, ![1, 256]⟩ : Shape))
  (hc40 : S40.ShapeCasts (⟨2, ![1, 40]⟩ : Shape))

/-! ## Layer 1 -/

theorem xw1 : val_main_v29 (F := Ideal) x0 x2 = mm x0 x2 := by
  unfold val_main_v29
  exact dotGeneral_eq_mm dot_S50000x128_S128x128_S50000x128_1_0_0_1_n_n rfl rfl rfl rfl rfl rfl none x0 x2

theorem agg1 : val_main_v42 (F := Ideal) x0 x1 x2
    = agg128 (val_main_v29 (F := Ideal) x0 x2) (val_main_v3 (F := Ideal) x1) (val_main_v6 (F := Ideal) x1) (val_main_v28 (F := Ideal) x1) := rfl

theorem h1 : val_main_v61 (F := Ideal) x0 x1 x2 x3 x4 x5 x6 x7
    = bnRelu (val_main_v42 (F := Ideal) x0 x1 x2) (shapeCast ⟨2, ![1, 128]⟩ x3 hc128) (shapeCast ⟨2, ![1, 128]⟩ x4 hc128)
        (shapeCast ⟨2, ![1, 128]⟩ x5 hc128) (shapeCast ⟨2, ![1, 128]⟩ x6 hc128) (shapeCast ⟨2, ![1, 128]⟩ x7 hc128) :=
  hostBN_eq (n := 50000) (k := 128) bcast_S128_S1x128_1 bcast_S1x128_S50000x128_0_1 bcast_S_S50000x128 bcast_S_S128 hc128
    (val_main_v42 (F := Ideal) x0 x1 x2) x3 x4 x5 x6 x7

/-! ## Layer 2 -/

theorem xw2 : val_main_v62 (F := Ideal) x0 x1 x2 x3 x4 x5 x6 x7 x8 = mm (val_main_v61 (F := Ideal) x0 x1 x2 x3 x4 x5 x6 x7) x8 := by
  unfold val_main_v62
  exact dotGeneral_eq_mm dot_S50000x128_S128x128_S50000x128_1_0_0_1_n_n rfl rfl rfl rfl rfl rfl none _ x8

theorem agg2 : val_main_v75 (F := Ideal) x0 x1 x2 x3 x4 x5 x6 x7 x8
    = agg128 (val_main_v62 (F := Ideal) x0 x1 x2 x3 x4 x5 x6 x7 x8) (val_main_v3 (F := Ideal) x1) (val_main_v6 (F := Ideal) x1) (val_main_v28 (F := Ideal) x1) := rfl

theorem h2 : val_main_v94 (F := Ideal) x0 x1 x2 x3 x4 x5 x6 x7 x8 x9 x10 x11 x12 x13
    = bnRelu (val_main_v75 (F := Ideal) x0 x1 x2 x3 x4 x5 x6 x7 x8) (shapeCast ⟨2, ![1, 128]⟩ x9 hc128) (shapeCast ⟨2, ![1, 128]⟩ x10 hc128)
        (shapeCast ⟨2, ![1, 128]⟩ x11 hc128) (shapeCast ⟨2, ![1, 128]⟩ x12 hc128) (shapeCast ⟨2, ![1, 128]⟩ x13 hc128) :=
  hostBN_eq (n := 50000) (k := 128) bcast_S128_S1x128_1 bcast_S1x128_S50000x128_0_1 bcast_S_S50000x128 bcast_S_S128 hc128
    (val_main_v75 (F := Ideal) x0 x1 x2 x3 x4 x5 x6 x7 x8) x9 x10 x11 x12 x13

/-! ## Layer 3 -/

theorem xw3 : val_main_v95 (F := Ideal) x0 x1 x2 x3 x4 x5 x6 x7 x8 x9 x10 x11 x12 x13 x14 = mm (val_main_v94 (F := Ideal) x0 x1 x2 x3 x4 x5 x6 x7 x8 x9 x10 x11 x12 x13) x14 := by
  unfold val_main_v95
  exact dotGeneral_eq_mm dot_S50000x128_S128x256_S50000x256_1_0_0_1_n_n rfl rfl rfl rfl rfl rfl none _ x14

theorem agg3 : val_main_v108 (F := Ideal) x0 x1 x2 x3 x4 x5 x6 x7 x8 x9 x10 x11 x12 x13 x14
    = agg256 (val_main_v95 (F := Ideal) x0 x1 x2 x3 x4 x5 x6 x7 x8 x9 x10 x11 x12 x13 x14) (val_main_v3 (F := Ideal) x1) (val_main_v6 (F := Ideal) x1) (val_main_v28 (F := Ideal) x1) := rfl

theorem h3 : val_main_v127 (F := Ideal) x0 x1 x2 x3 x4 x5 x6 x7 x8 x9 x10 x11 x12 x13 x14 x15 x16 x17 x18 x19
    = bnRelu (val_main_v108 (F := Ideal) x0 x1 x2 x3 x4 x5 x6 x7 x8 x9 x10 x11 x12 x13 x14) (shapeCast ⟨2, ![1, 256]⟩ x15 hc256) (shapeCast ⟨2, ![1, 256]⟩ x16 hc256)
        (shapeCast ⟨2, ![1, 256]⟩ x17 hc256) (shapeCast ⟨2, ![1, 256]⟩ x18 hc256) (shapeCast ⟨2, ![1, 256]⟩ x19 hc256) :=
  hostBN_eq (n := 50000) (k := 256) bcast_S256_S1x256_1 bcast_S1x256_S50000x256_0_1 bcast_S_S50000x256 bcast_S_S256 hc256
    (val_main_v108 (F := Ideal) x0 x1 x2 x3 x4 x5 x6 x7 x8 x9 x10 x11 x12 x13 x14) x15 x16 x17 x18 x19

/-! ## The head -/

theorem out : val_main_v136 (F := Ideal) x0 x1 x2 x3 x4 x5 x6 x7 x8 x9 x10 x11 x12 x13 x14 x15 x16 x17 x18 x19 x20 x21 x22 x23
    = head (val_main_v127 (F := Ideal) x0 x1 x2 x3 x4 x5 x6 x7 x8 x9 x10 x11 x12 x13 x14 x15 x16 x17 x18 x19) x20 (shapeCast ⟨2, ![1, 128]⟩ x21 hc128) x22 (shapeCast ⟨2, ![1, 40]⟩ x23 hc40) := by
  unfold head val_main_v136 val_main_v135 val_main_v134 val_main_v133 val_main_v132 val_main_call3_v0 val_main_call3_cst
    val_main_v131 val_main_v130 val_main_v129 val_main_v128
  rw [dotGeneral_eq_mm dot_S50000x256_S256x128_S50000x128_1_0_0_1_n_n rfl rfl rfl rfl rfl rfl none _ x20,
    addf_hostBias_eq_addRow bcast_S128_S1x128_1 bcast_S1x128_S50000x128_0_1 hc128 _ x21,
    maximumf_hostZero_eq_relu bcast_S_S50000x128,
    dotGeneral_eq_mm dot_S50000x128_S128x40_S50000x40_1_0_0_1_n_n rfl rfl rfl rfl rfl rfl none _ x22,
    addf_hostBias_eq_addRow bcast_S40_S1x40_1 bcast_S1x40_S50000x40_0_1 hc40 _ x23]

end Cert.Gcn.Ref

end
-- ==== Proof.HostSide.lean ====
/-
  The host operations of the kernel program between its launches, read at the buffers the launches take.

  Before the first launch the host computes, from the edge list alone, the two index vectors (sources and targets, each with
  the self-loops appended) and the edge weights: the same operations, in the same order, as the reference's.  Between a
  product launch and the normalisation launch that follows it the host gathers the product's rows at the sources, scales
  them by the edge weights and adds them into the rows of the targets — again the reference's operations — and reshapes the
  five parameter vectors to one-row matrices.  Each is stated for ANY contents the stretch starts from; a buffer the stretch
  does not write keeps its contents.
-/
import proofs.«111996_j38113539785179_1_alg».proof.Proof.Gen.KernelIdeal.Launch
import proofs.«111996_j38113539785179_1_alg».proof.Proof.RefSide
import Idealize.ShloMosaic.Lib.StableHlo.Run

set_option maxRecDepth 16384

noncomputable section

namespace Cert.KernelIdeal.HostSide

open Cert.KernelIdeal Cert.KernelIdeal.Gen
open Idealize.ShloMosaic Idealize.ShloMosaic.TcCoe Idealize.ShloMosaic.StableHlo
open Idealize.SL.Sem

variable (X : Valuation τ sig (Elt Ideal))

/-! ## What each stretch leaves alone -/

/-- The buffers stretch 0 writes. -/
abbrev wr0 : List (Ref sig .tc) := [main_v0, main_v1, main_v2, main_v3, main_v4, main_v5, main_v6, main_cst, main_v7, main_cst_0, main_v8, main_v9, main_v10, main_cst_1, main_v11, main_v12, main_v13, main_c, main_v14, main_v15, main_c_2, main_v16, main_v17, main_v18, main_v19, main_v20, main_c_3, main_v21, main_v22, main_c_4, main_v23, main_v24, main_v25, main_v26, main_v27, main_v28]
theorem wr0_sub : (hostOps0 : List (HloOp τ sig (Elt Ideal))).Forall fun op => op.writes ⊆ (wr0.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer stretch 0 does not write keeps its contents. -/
theorem keep0 (r : Ref sig .tc) (h : r ∉ wr0) :
    StableHlo.after hostOps0 X (Proc.devRef .tc r) = X (Proc.devRef .tc r) :=
  StableHlo.after_of_writes_sub hostOps0 X wr0_sub h

/-- The buffers stretch 1 writes. -/
abbrev wr1 : List (Ref sig .tc) := [main_c_5, main_v30, main_v31, main_c_6, main_v32, main_v33, main_v34, main_v35, main_v36, main_v37, main_v38, main_v39, main_cst_7, main_v40, main_v41, main_v42, main_v43, main_v44, main_v45, main_v46, main_v47]
theorem wr1_sub : (hostOps1 : List (HloOp τ sig (Elt Ideal))).Forall fun op => op.writes ⊆ (wr1.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer stretch 1 does not write keeps its contents. -/
theorem keep1 (r : Ref sig .tc) (h : r ∉ wr1) :
    StableHlo.after hostOps1 X (Proc.devRef .tc r) = X (Proc.devRef .tc r) :=
  StableHlo.after_of_writes_sub hostOps1 X wr1_sub h

/-- The buffers stretch 3 writes. -/
abbrev wr3 : List (Ref sig .tc) := [main_c_8, main_v50, main_v51, main_c_9, main_v52, main_v53, main_v54, main_v55, main_v56, main_v57, main_v58, main_v59, main_cst_10, main_v60, main_v61, main_v62, main_v63, main_v64, main_v65, main_v66, main_v67]
theorem wr3_sub : (hostOps3 : List (HloOp τ sig (Elt Ideal))).Forall fun op => op.writes ⊆ (wr3.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer stretch 3 does not write keeps its contents. -/
theorem keep3 (r : Ref sig .tc) (h : r ∉ wr3) :
    StableHlo.after hostOps3 X (Proc.devRef .tc r) = X (Proc.devRef .tc r) :=
  StableHlo.after_of_writes_sub hostOps3 X wr3_sub h

/-- The buffers stretch 5 writes. -/
abbrev wr5 : List (Ref sig .tc) := [main_c_11, main_v70, main_v71, main_c_12, main_v72, main_v73, main_v74, main_v75, main_v76, main_v77, main_v78, main_v79, main_cst_13, main_v80, main_v81, main_v82, main_v83, main_v84, main_v85, main_v86, main_v87]
theorem wr5_sub : (hostOps5 : List (HloOp τ sig (Elt Ideal))).Forall fun op => op.writes ⊆ (wr5.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer stretch 5 does not write keeps its contents. -/
theorem keep5 (r : Ref sig .tc) (h : r ∉ wr5) :
    StableHlo.after hostOps5 X (Proc.devRef .tc r) = X (Proc.devRef .tc r) :=
  StableHlo.after_of_writes_sub hostOps5 X wr5_sub h

/-- The buffers stretch 6 writes. -/
abbrev wr6 : List (Ref sig .tc) := [main_v89, main_v90]
theorem wr6_sub : (hostOps6 : List (HloOp τ sig (Elt Ideal))).Forall fun op => op.writes ⊆ (wr6.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer stretch 6 does not write keeps its contents. -/
theorem keep6 (r : Ref sig .tc) (h : r ∉ wr6) :
    StableHlo.after hostOps6 X (Proc.devRef .tc r) = X (Proc.devRef .tc r) :=
  StableHlo.after_of_writes_sub hostOps6 X wr6_sub h

/-! ## Before the first launch: the index vectors and the edge weights -/

theorem src0 : StableHlo.after hostOps0 X (Proc.devRef .tc main_v3)
    = Cert.ReferenceIdeal.Read.val_main_v3 (F := Ideal) (X (Proc.devRef .tc main_arg1)) := by
  after_results_simp
  rfl
theorem dst0 : StableHlo.after hostOps0 X (Proc.devRef .tc main_v6)
    = Cert.ReferenceIdeal.Read.val_main_v6 (F := Ideal) (X (Proc.devRef .tc main_arg1)) := by
  after_results_simp
  rfl
theorem nrm0 : StableHlo.after hostOps0 X (Proc.devRef .tc main_v28)
    = Cert.ReferenceIdeal.Read.val_main_v28 (F := Ideal) (X (Proc.devRef .tc main_arg1)) := by
  after_results_simp
  rfl

/-! ## Between the launches -/

/-- Stretch 1's aggregate: the gather, scale and scatter-add applied to the product the launch before it left. -/
theorem agg1 : StableHlo.after hostOps1 X (Proc.devRef .tc main_v42)
    = Cert.Gcn.Ref.agg128 (X (Proc.devRef .tc main_v29)) (X (Proc.devRef .tc main_v3)) (X (Proc.devRef .tc main_v6)) (X (Proc.devRef .tc main_v28)) := by
  after_results_simp
  rfl

theorem par1_v43 : StableHlo.after hostOps1 X (Proc.devRef .tc main_v43)
    = shapeCast (⟨2, ![1, 128]⟩ : Shape) (X (Proc.devRef .tc main_arg3)) shapeCasts_S128_S1x128 := by
  after_results_simp
  rfl
theorem par1_v44 : StableHlo.after hostOps1 X (Proc.devRef .tc main_v44)
    = shapeCast (⟨2, ![1, 128]⟩ : Shape) (X (Proc.devRef .tc main_arg4)) shapeCasts_S128_S1x128 := by
  after_results_simp
  rfl
theorem par1_v45 : StableHlo.after hostOps1 X (Proc.devRef .tc main_v45)
    = shapeCast (⟨2, ![1, 128]⟩ : Shape) (X (Proc.devRef .tc main_arg5)) shapeCasts_S128_S1x128 := by
  after_results_simp
  rfl
theorem par1_v46 : StableHlo.after hostOps1 X (Proc.devRef .tc main_v46)
    = shapeCast (⟨2, ![1, 128]⟩ : Shape) (X (Proc.devRef .tc main_arg6)) shapeCasts_S128_S1x128 := by
  after_results_simp
  rfl
theorem par1_v47 : StableHlo.after hostOps1 X (Proc.devRef .tc main_v47)
    = shapeCast (⟨2, ![1, 128]⟩ : Shape) (X (Proc.devRef .tc main_arg7)) shapeCasts_S128_S1x128 := by
  after_results_simp
  rfl

/-- Stretch 3's aggregate: the gather, scale and scatter-add applied to the product the launch before it left. -/
theorem agg3 : StableHlo.after hostOps3 X (Proc.devRef .tc main_v62)
    = Cert.Gcn.Ref.agg128 (X (Proc.devRef .tc main_v49)) (X (Proc.devRef .tc main_v3)) (X (Proc.devRef .tc main_v6)) (X (Proc.devRef .tc main_v28)) := by
  after_results_simp
  rfl

theorem par3_v63 : StableHlo.after hostOps3 X (Proc.devRef .tc main_v63)
    = shapeCast (⟨2, ![1, 128]⟩ : Shape) (X (Proc.devRef .tc main_arg9)) shapeCasts_S128_S1x128 := by
  after_results_simp
  rfl
theorem par3_v64 : StableHlo.after hostOps3 X (Proc.devRef .tc main_v64)
    = shapeCast (⟨2, ![1, 128]⟩ : Shape) (X (Proc.devRef .tc main_arg10)) shapeCasts_S128_S1x128 := by
  after_results_simp
  rfl
theorem par3_v65 : StableHlo.after hostOps3 X (Proc.devRef .tc main_v65)
    = shapeCast (⟨2, ![1, 128]⟩ : Shape) (X (Proc.devRef .tc main_arg11)) shapeCasts_S128_S1x128 := by
  after_results_simp
  rfl
theorem par3_v66 : StableHlo.after hostOps3 X (Proc.devRef .tc main_v66)
    = shapeCast (⟨2, ![1, 128]⟩ : Shape) (X (Proc.devRef .tc main_arg12)) shapeCasts_S128_S1x128 := by
  after_results_simp
  rfl
theorem par3_v67 : StableHlo.after hostOps3 X (Proc.devRef .tc main_v67)
    = shapeCast (⟨2, ![1, 128]⟩ : Shape) (X (Proc.devRef .tc main_arg13)) shapeCasts_S128_S1x128 := by
  after_results_simp
  rfl

/-- Stretch 5's aggregate: the gather, scale and scatter-add applied to the product the launch before it left. -/
theorem agg5 : StableHlo.after hostOps5 X (Proc.devRef .tc main_v82)
    = Cert.Gcn.Ref.agg256 (X (Proc.devRef .tc main_v69)) (X (Proc.devRef .tc main_v3)) (X (Proc.devRef .tc main_v6)) (X (Proc.devRef .tc main_v28)) := by
  after_results_simp
  rfl

theorem par5_v83 : StableHlo.after hostOps5 X (Proc.devRef .tc main_v83)
    = shapeCast (⟨2, ![1, 256]⟩ : Shape) (X (Proc.devRef .tc main_arg15)) shapeCasts_S256_S1x256 := by
  after_results_simp
  rfl
theorem par5_v84 : StableHlo.after hostOps5 X (Proc.devRef .tc main_v84)
    = shapeCast (⟨2, ![1, 256]⟩ : Shape) (X (Proc.devRef .tc main_arg16)) shapeCasts_S256_S1x256 := by
  after_results_simp
  rfl
theorem par5_v85 : StableHlo.after hostOps5 X (Proc.devRef .tc main_v85)
    = shapeCast (⟨2, ![1, 256]⟩ : Shape) (X (Proc.devRef .tc main_arg17)) shapeCasts_S256_S1x256 := by
  after_results_simp
  rfl
theorem par5_v86 : StableHlo.after hostOps5 X (Proc.devRef .tc main_v86)
    = shapeCast (⟨2, ![1, 256]⟩ : Shape) (X (Proc.devRef .tc main_arg18)) shapeCasts_S256_S1x256 := by
  after_results_simp
  rfl
theorem par5_v87 : StableHlo.after hostOps5 X (Proc.devRef .tc main_v87)
    = shapeCast (⟨2, ![1, 256]⟩ : Shape) (X (Proc.devRef .tc main_arg19)) shapeCasts_S256_S1x256 := by
  after_results_simp
  rfl

theorem par6_v89 : StableHlo.after hostOps6 X (Proc.devRef .tc main_v89)
    = shapeCast (⟨2, ![1, 128]⟩ : Shape) (X (Proc.devRef .tc main_arg21)) shapeCasts_S128_S1x128 := by
  after_results_simp
  rfl
theorem par6_v90 : StableHlo.after hostOps6 X (Proc.devRef .tc main_v90)
    = shapeCast (⟨2, ![1, 40]⟩ : Shape) (X (Proc.devRef .tc main_arg23)) shapeCasts_S40_S1x40 := by
  after_results_simp
  rfl

end Cert.KernelIdeal.HostSide

end
-- ==== Proof.Region0.lean ====
/-
  Launch 0 of the program: a matrix product, 2000 rows at a time.

  Grid point t takes rows 2000·t … 2000·t + 1999 of the left matrix and the whole right matrix, and writes their product
  to the same rows of the result.  A row of a product depends on the same row of the left operand only, so the 25 blocks
  written back are the 25 row blocks of ONE product of the whole matrices, and they tile the result: after the launch the
  result array holds the product of the two arrays as the launch found them.
-/
import proofs.«111996_j38113539785179_1_alg».proof.Proof.Gen.KernelIdeal.Frame
import proofs.«111996_j38113539785179_1_alg».proof.Proof.LibNormStages
import Idealize.ShloMosaic.Lib.Pipeline.Value
import Idealize.ShloMosaic.Lib.ValueIdx

set_option maxRecDepth 16384

noncomputable section

namespace Cert.KernelIdeal.Regions

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.LibRowStages Cert.LibNormStages

variable (V : (c : Dev nD) → (b : Ref sig .tc) → Buf (Elt Ideal) ((c : Thread nD τ).loc b))

theorem hz0 : (![0, 0] : Fin 2 → Nat) = fun _ => 0 := funext fun a => by fin_cases a <;> rfl

/-- The body's arithmetic is the matrix product of its two loaded blocks (the change to the narrower float format
    changes no extended real). -/
theorem pay0 (x : Vec Ideal S2000x128 .f32) (w : Vec Ideal S128x128 .f32) : k0_pay1 x w = mm x w := by
  unfold k0_pay1

  exact matmul_eq_mm dot_S2000x128_S128x128_S2000x128_1_0_0_1_n_n rfl rfl rfl rfl rfl rfl none _ _

/-- The printed index maps over the grid: the left operand's and the result's row blocks move together, point t's at
    block t; every other block index is zero. -/
theorem idx0 : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) ≤ 24 :=
  (by decide +kernel : ∀ t : Fin grid0.N, _)

theorem onto0 : ∀ q : Fin 25, ∃ t : Fin cfg0.N, win0_2.index t (0 : Fin 2) = q.val :=
  (by decide +kernel : ∀ q : Fin 25, ∃ t : Fin grid0.N, win0_2.index t (0 : Fin 2) = q.val)

/-- Row q of the left operand's block at point t is row 2000·(block index) + q of its array. -/
theorem rows0 (c : Dev nD) (t : Fin cfg0.N) (q : Fin 2000) (p : Fin 50000)
    (hp : p.val = win0_2.index t (0 : Fin 2) * 2000 + q.val) :
    RowEq (iblk0 V c 0 t) q (V c main_arg0) p := fun j => by
  obtain ⟨e0, e1, -, -, -, -⟩ := idx0 t
  show V c main_arg0 (((cfg0.win 0).blk t).view.emb (ix2 q j)) = V c main_arg0 (ix2 p j)
  refine congrArg _ ?_
  funext a; apply Fin.ext
  match a with
  | ⟨0, _⟩ => show win0_0.index t (0 : Fin 2) * 2000 + 1 * q.val = p.val; omega
  | ⟨1, _⟩ => show win0_0.index t (1 : Fin 2) * 128 + 1 * j.val = j.val; omega

/-- The right operand's block is its whole array at every point. -/
theorem whole0 (c : Dev nD) (t : Fin cfg0.N) : iblk0 V c 1 t = V c main_arg2 := by
  obtain ⟨-, -, e2, e3, -, -⟩ := idx0 t
  funext y
  show V c main_arg2 (((cfg0.win 1).blk t).view.emb y) = V c main_arg2 y
  refine congrArg _ ?_
  funext a; apply Fin.ext
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- What point t writes back is block t of the product of the whole arrays. -/
theorem flushed0 (c : Dev nD) (t : Fin cfg0.N) :
    (dat0 V c).flushed 2 t = ((cfg0.win 2).blk t).view.read (Elt Ideal) (mm (V c main_arg0) (V c main_arg2)) := by
  show (cfg0.win 2).cut (grid0.coords t) ((dat0 V c).after 2 t) = _
  rw [after0_2]
  unfold out0_2
  rw [View.canon_unit_zero hz0]
  simp only [View.ld_unit_zero (S := S2000x128) hz0, View.ld_unit_zero (S := S128x128) hz0]
  rw [pay0, whole0]
  obtain ⟨-, -, -, -, e4, e5⟩ := idx0 t
  funext y
  obtain ⟨q, j, rfl⟩ : ∃ (q : Fin 2000) (j : Fin 128), y = ix2 q j := ⟨y 0, y 1, eq_ix2 y⟩
  show mm (iblk0 V c 0 t) (V c main_arg2) (ix2 q j)
    = mm (V c main_arg0) (V c main_arg2) (((cfg0.win 2).blk t).view.emb (ix2 q j))
  have hq : q.val < 2000 := q.isLt
  have hemb : ((cfg0.win 2).blk t).view.emb (ix2 q j)
      = ix2 (⟨win0_2.index t (0 : Fin 2) * 2000 + q.val, by omega⟩ : Fin 50000) j := by
    funext a; apply Fin.ext
    match a with
    | ⟨0, _⟩ => show win0_2.index t (0 : Fin 2) * 2000 + 1 * q.val = win0_2.index t (0 : Fin 2) * 2000 + q.val; omega
    | ⟨1, _⟩ => show win0_2.index t (1 : Fin 2) * 128 + 1 * j.val = j.val; omega
  rw [hemb]
  exact mm_row (rows0 V c t q _ rfl) (V c main_arg2) j

theorem mem_blk0 (t : Fin cfg0.N) (i : S50000x128.Idx) :
    i ∈ ((cfg0.win 2).blk t).view.set ↔ ∀ a : Fin 2, win0_2.index t a * S2000x128.size a ≤ (i a).val
      ∧ (i a).val < win0_2.index t a * S2000x128.size a + S2000x128.size a := by
  show i ∈ ((View.whole main_v29).slice (win0_2.rect t)).set ↔ _
  rw [View.set_slice_whole, Rect.mem_set_unit]
  exact Iff.rfl

/-- The 25 row blocks tile the result array. -/
theorem cover0 (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := onto0 ⟨(i 0).val / 2000, by omega⟩
  have ht' : win0_2.index t (0 : Fin 2) = (i 0).val / 2000 := ht
  obtain ⟨-, -, -, -, e4, -⟩ := idx0 t
  refine ⟨t, flush0_2 t, ?_⟩
  rw [mem_blk0]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- After the launch the result array is the product of the two arrays as the launch found them. -/
theorem final0 (c : Dev nD) :
    (dat0 V c).arrAt 2 cfg0.N = mm (V c main_arg0) (V c main_arg2) :=
  (dat0 V c).arrAt_eq_of_cover 2 (mm (V c main_arg0) (V c main_arg2)) (fun t _ => flushed0 V c t) (cover0)

end Cert.KernelIdeal.Regions

end
-- ==== Proof.Region1.lean ====
/-
  Launch 1 of the program: bias, normalisation and floor, 2000 rows at a time.

  Grid point t takes rows 2000·t … 2000·t + 1999 of the aggregate and the five one-row parameter matrices whole, and
  writes the normalised rows to the same rows of the result.  The stage works entry by entry from the aggregate's entry
  and the parameters' column, so the 25 blocks written back are the 25 row blocks of ONE normalisation of the whole
  aggregate, and they tile the result.
-/
import proofs.«111996_j38113539785179_1_alg».proof.Proof.Gen.KernelIdeal.Frame
import proofs.«111996_j38113539785179_1_alg».proof.Proof.LibNormStages
import Idealize.ShloMosaic.Lib.Pipeline.Value
import Idealize.ShloMosaic.Lib.ValueIdx

set_option maxRecDepth 16384

noncomputable section

namespace Cert.KernelIdeal.Regions

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.LibRowStages Cert.LibNormStages

variable (V : (c : Dev nD) → (b : Ref sig .tc) → Buf (Elt Ideal) ((c : Thread nD τ).loc b))

theorem hz1 : (![0, 0] : Fin 2 → Nat) = fun _ => 0 := funext fun a => by fin_cases a <;> rfl

/-- The body's arithmetic is the normalisation stage of its loaded blocks. -/
theorem pay1 (a : Vec Ideal S2000x128 .f32) (b v mu g bb : Vec Ideal S1x128 .f32) :
    k1_pay1 a b v mu g bb = bnRelu a b g bb mu v := by
  unfold k1_pay1
  simp only [shapeCast_self]
  exact unitBN_eq broadcasts_S1x128_S2000x128 a b g bb mu v

/-- The printed index maps over the grid: the aggregate's and the result's row blocks move together, point t's at
    block t. -/
theorem idx1 : ∀ t : Fin cfg1.N, win1_0.index t (0 : Fin 2) = win1_6.index t (0 : Fin 2)
    ∧ win1_0.index t (1 : Fin 2) = 0 ∧ win1_6.index t (1 : Fin 2) = 0 ∧ win1_6.index t (0 : Fin 2) ≤ 24 :=
  (by decide +kernel : ∀ t : Fin grid1.N, _)
theorem zero1_1 : ∀ t : Fin cfg1.N, win1_1.index t (0 : Fin 2) = 0 ∧ win1_1.index t (1 : Fin 2) = 0 :=
  (by decide +kernel : ∀ t : Fin grid1.N, _)
theorem zero1_2 : ∀ t : Fin cfg1.N, win1_2.index t (0 : Fin 2) = 0 ∧ win1_2.index t (1 : Fin 2) = 0 :=
  (by decide +kernel : ∀ t : Fin grid1.N, _)
theorem zero1_3 : ∀ t : Fin cfg1.N, win1_3.index t (0 : Fin 2) = 0 ∧ win1_3.index t (1 : Fin 2) = 0 :=
  (by decide +kernel : ∀ t : Fin grid1.N, _)
theorem zero1_4 : ∀ t : Fin cfg1.N, win1_4.index t (0 : Fin 2) = 0 ∧ win1_4.index t (1 : Fin 2) = 0 :=
  (by decide +kernel : ∀ t : Fin grid1.N, _)
theorem zero1_5 : ∀ t : Fin cfg1.N, win1_5.index t (0 : Fin 2) = 0 ∧ win1_5.index t (1 : Fin 2) = 0 :=
  (by decide +kernel : ∀ t : Fin grid1.N, _)

theorem onto1 : ∀ q : Fin 25, ∃ t : Fin cfg1.N, win1_6.index t (0 : Fin 2) = q.val :=
  (by decide +kernel : ∀ q : Fin 25, ∃ t : Fin grid1.N, win1_6.index t (0 : Fin 2) = q.val)

/-- Row q of the aggregate's block at point t is row 2000·(block index) + q of its array. -/
theorem rows1 (c : Dev nD) (t : Fin cfg1.N) (q : Fin 2000) (p : Fin 50000)
    (hp : p.val = win1_6.index t (0 : Fin 2) * 2000 + q.val) :
    RowEq (iblk1 V c 0 t) q (V c main_v42) p := fun j => by
  obtain ⟨e0, e1, -, -⟩ := idx1 t
  show V c main_v42 (((cfg1.win 0).blk t).view.emb (ix2 q j)) = V c main_v42 (ix2 p j)
  refine congrArg _ ?_
  funext a; apply Fin.ext
  match a with
  | ⟨0, _⟩ => show win1_0.index t (0 : Fin 2) * 2000 + 1 * q.val = p.val; omega
  | ⟨1, _⟩ => show win1_0.index t (1 : Fin 2) * 128 + 1 * j.val = j.val; omega

/-- Parameter window 1's block is its whole one-row array at every point. -/
theorem whole1_1 (c : Dev nD) (t : Fin cfg1.N) : iblk1 V c 1 t = V c main_v43 := by
  obtain ⟨z0, z1⟩ := zero1_1 t
  funext y
  show V c main_v43 (((cfg1.win 1).blk t).view.emb y) = V c main_v43 y
  refine congrArg _ ?_
  funext a; apply Fin.ext
  match a with
  | ⟨0, _⟩ => show win1_1.index t (0 : Fin 2) * 1 + 1 * (y 0).val = (y 0).val; omega
  | ⟨1, _⟩ => show win1_1.index t (1 : Fin 2) * 128 + 1 * (y 1).val = (y 1).val; omega

/-- Parameter window 2's block is its whole one-row array at every point. -/
theorem whole1_2 (c : Dev nD) (t : Fin cfg1.N) : iblk1 V c 2 t = V c main_v44 := by
  obtain ⟨z0, z1⟩ := zero1_2 t
  funext y
  show V c main_v44 (((cfg1.win 2).blk t).view.emb y) = V c main_v44 y
  refine congrArg _ ?_
  funext a; apply Fin.ext
  match a with
  | ⟨0, _⟩ => show win1_2.index t (0 : Fin 2) * 1 + 1 * (y 0).val = (y 0).val; omega
  | ⟨1, _⟩ => show win1_2.index t (1 : Fin 2) * 128 + 1 * (y 1).val = (y 1).val; omega

/-- Parameter window 3's block is its whole one-row array at every point. -/
theorem whole1_3 (c : Dev nD) (t : Fin cfg1.N) : iblk1 V c 3 t = V c main_v45 := by
  obtain ⟨z0, z1⟩ := zero1_3 t
  funext y
  show V c main_v45 (((cfg1.win 3).blk t).view.emb y) = V c main_v45 y
  refine congrArg _ ?_
  funext a; apply Fin.ext
  match a with
  | ⟨0, _⟩ => show win1_3.index t (0 : Fin 2) * 1 + 1 * (y 0).val = (y 0).val; omega
  | ⟨1, _⟩ => show win1_3.index t (1 : Fin 2) * 128 + 1 * (y 1).val = (y 1).val; omega

/-- Parameter window 4's block is its whole one-row array at every point. -/
theorem whole1_4 (c : Dev nD) (t : Fin cfg1.N) : iblk1 V c 4 t = V c main_v46 := by
  obtain ⟨z0, z1⟩ := zero1_4 t
  funext y
  show V c main_v46 (((cfg1.win 4).blk t).view.emb y) = V c main_v46 y
  refine congrArg _ ?_
  funext a; apply Fin.ext
  match a with
  | ⟨0, _⟩ => show win1_4.index t (0 : Fin 2) * 1 + 1 * (y 0).val = (y 0).val; omega
  | ⟨1, _⟩ => show win1_4.index t (1 : Fin 2) * 128 + 1 * (y 1).val = (y 1).val; omega

/-- Parameter window 5's block is its whole one-row array at every point. -/
theorem whole1_5 (c : Dev nD) (t : Fin cfg1.N) : iblk1 V c 5 t = V c main_v47 := by
  obtain ⟨z0, z1⟩ := zero1_5 t
  funext y
  show V c main_v47 (((cfg1.win 5).blk t).view.emb y) = V c main_v47 y
  refine congrArg _ ?_
  funext a; apply Fin.ext
  match a with
  | ⟨0, _⟩ => show win1_5.index t (0 : Fin 2) * 1 + 1 * (y 0).val = (y 0).val; omega
  | ⟨1, _⟩ => show win1_5.index t (1 : Fin 2) * 128 + 1 * (y 1).val = (y 1).val; omega

/-- What point t writes back is block t of the normalisation of the whole arrays. -/
theorem flushed1 (c : Dev nD) (t : Fin cfg1.N) :
    (dat1 V c).flushed 6 t = ((cfg1.win 6).blk t).view.read (Elt Ideal) (bnRelu (V c main_v42) (V c main_v43) (V c main_v44) (V c main_v45) (V c main_v46) (V c main_v47)) := by
  show (cfg1.win 6).cut (grid1.coords t) ((dat1 V c).after 6 t) = _
  rw [after1_6]
  unfold out1_6
  rw [View.canon_unit_zero hz1]
  simp only [View.ld_unit_zero (S := S2000x128) hz1, View.ld_unit_zero (S := S1x128) hz1]
  rw [pay1, whole1_1, whole1_2, whole1_3, whole1_4, whole1_5]
  obtain ⟨-, -, e4, e5⟩ := idx1 t
  funext y
  obtain ⟨q, j, rfl⟩ : ∃ (q : Fin 2000) (j : Fin 128), y = ix2 q j := ⟨y 0, y 1, eq_ix2 y⟩
  show bnRelu (iblk1 V c 0 t) (V c main_v43) (V c main_v44) (V c main_v45) (V c main_v46) (V c main_v47) (ix2 q j)
    = (bnRelu (V c main_v42) (V c main_v43) (V c main_v44) (V c main_v45) (V c main_v46) (V c main_v47)) (((cfg1.win 6).blk t).view.emb (ix2 q j))
  have hq : q.val < 2000 := q.isLt
  have hemb : ((cfg1.win 6).blk t).view.emb (ix2 q j)
      = ix2 (⟨win1_6.index t (0 : Fin 2) * 2000 + q.val, by omega⟩ : Fin 50000) j := by
    funext a; apply Fin.ext
    match a with
    | ⟨0, _⟩ => show win1_6.index t (0 : Fin 2) * 2000 + 1 * q.val = win1_6.index t (0 : Fin 2) * 2000 + q.val; omega
    | ⟨1, _⟩ => show win1_6.index t (1 : Fin 2) * 128 + 1 * j.val = j.val; omega
  rw [hemb]
  exact bnRelu_row (rows1 V c t q _ rfl) _ _ _ _ _ j

theorem mem_blk1 (t : Fin cfg1.N) (i : S50000x128.Idx) :
    i ∈ ((cfg1.win 6).blk t).view.set ↔ ∀ a : Fin 2, win1_6.index t a * S2000x128.size a ≤ (i a).val
      ∧ (i a).val < win1_6.index t a * S2000x128.size a + S2000x128.size a := by
  show i ∈ ((View.whole main_v48).slice (win1_6.rect t)).set ↔ _
  rw [View.set_slice_whole, Rect.mem_set_unit]
  exact Iff.rfl

/-- The 25 row blocks tile the result array. -/
theorem cover1 (i : S50000x128.Idx) :
    ∃ t : Fin cfg1.N, (cfg1.win 6).flush t = true ∧ i ∈ ((cfg1.win 6).blk t).view.set := by
  have hi0 : (i 0).val < 50000 := (i 0).isLt
  have hi1 : (i 1).val < 128 := (i 1).isLt
  obtain ⟨t, ht⟩ := onto1 ⟨(i 0).val / 2000, by omega⟩
  have ht' : win1_6.index t (0 : Fin 2) = (i 0).val / 2000 := ht
  obtain ⟨-, -, e4, -⟩ := idx1 t
  refine ⟨t, flush1_6 t, ?_⟩
  rw [mem_blk1]
  intro a
  match a with
  | ⟨0, _⟩ => show win1_6.index t (0 : Fin 2) * 2000 ≤ (i 0).val ∧ (i 0).val < win1_6.index t (0 : Fin 2) * 2000 + 2000; omega
  | ⟨1, _⟩ => show win1_6.index t (1 : Fin 2) * 128 ≤ (i 1).val ∧ (i 1).val < win1_6.index t (1 : Fin 2) * 128 + 128; omega

/-- After the launch the result array is the normalisation stage of the arrays as the launch found them. -/
theorem final1 (c : Dev nD) :
    (dat1 V c).arrAt 6 cfg1.N = bnRelu (V c main_v42) (V c main_v43) (V c main_v44) (V c main_v45) (V c main_v46) (V c main_v47) :=
  (dat1 V c).arrAt_eq_of_cover 6 (bnRelu (V c main_v42) (V c main_v43) (V c main_v44) (V c main_v45) (V c main_v46) (V c main_v47)) (fun t _ => flushed1 V c t) (cover1)

end Cert.KernelIdeal.Regions

end
-- ==== Proof.Region2.lean ====
/-
  Launch 2 of the program: a matrix product, 2000 rows at a time.

  Grid point t takes rows 2000·t … 2000·t + 1999 of the left matrix and the whole right matrix, and writes their product
  to the same rows of the result.  A row of a product depends on the same row of the left operand only, so the 25 blocks
  written back are the 25 row blocks of ONE product of the whole matrices, and they tile the result: after the launch the
  result array holds the product of the two arrays as the launch found them.
-/
import proofs.«111996_j38113539785179_1_alg».proof.Proof.Gen.KernelIdeal.Frame
import proofs.«111996_j38113539785179_1_alg».proof.Proof.LibNormStages
import Idealize.ShloMosaic.Lib.Pipeline.Value
import Idealize.ShloMosaic.Lib.ValueIdx

set_option maxRecDepth 16384

noncomputable section

namespace Cert.KernelIdeal.Regions

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.LibRowStages Cert.LibNormStages

variable (V : (c : Dev nD) → (b : Ref sig .tc) → Buf (Elt Ideal) ((c : Thread nD τ).loc b))

theorem hz2 : (![0, 0] : Fin 2 → Nat) = fun _ => 0 := funext fun a => by fin_cases a <;> rfl

/-- The body's arithmetic is the matrix product of its two loaded blocks (the change to the narrower float format
    changes no extended real). -/
theorem pay2 (x : Vec Ideal S2000x128 .f32) (w : Vec Ideal S128x128 .f32) : k2_pay1 x w = mm x w := by
  unfold k2_pay1
  simp only [shapeCast_self]
  exact matmul_eq_mm dot_S2000x128_S128x128_S2000x128_1_0_0_1_n_n rfl rfl rfl rfl rfl rfl none _ _

/-- The printed index maps over the grid: the left operand's and the result's row blocks move together, point t's at
    block t; every other block index is zero. -/
theorem idx2 : ∀ t : Fin cfg2.N, win2_0.index t (0 : Fin 2) = win2_2.index t (0 : Fin 2)
    ∧ win2_0.index t (1 : Fin 2) = 0 ∧ win2_1.index t (0 : Fin 2) = 0 ∧ win2_1.index t (1 : Fin 2) = 0
    ∧ win2_2.index t (1 : Fin 2) = 0 ∧ win2_2.index t (0 : Fin 2) ≤ 24 :=
  (by decide +kernel : ∀ t : Fin grid2.N, _)

theorem onto2 : ∀ q : Fin 25, ∃ t : Fin cfg2.N, win2_2.index t (0 : Fin 2) = q.val :=
  (by decide +kernel : ∀ q : Fin 25, ∃ t : Fin grid2.N, win2_2.index t (0 : Fin 2) = q.val)

/-- Row q of the left operand's block at point t is row 2000·(block index) + q of its array. -/
theorem rows2 (c : Dev nD) (t : Fin cfg2.N) (q : Fin 2000) (p : Fin 50000)
    (hp : p.val = win2_2.index t (0 : Fin 2) * 2000 + q.val) :
    RowEq (iblk2 V c 0 t) q (V c main_v48) p := fun j => by
  obtain ⟨e0, e1, -, -, -, -⟩ := idx2 t
  show V c main_v48 (((cfg2.win 0).blk t).view.emb (ix2 q j)) = V c main_v48 (ix2 p j)
  refine congrArg _ ?_
  funext a; apply Fin.ext
  match a with
  | ⟨0, _⟩ => show win2_0.index t (0 : Fin 2) * 2000 + 1 * q.val = p.val; omega
  | ⟨1, _⟩ => show win2_0.index t (1 : Fin 2) * 128 + 1 * j.val = j.val; omega

/-- The right operand's block is its whole array at every point. -/
theorem whole2 (c : Dev nD) (t : Fin cfg2.N) : iblk2 V c 1 t = V c main_arg8 := by
  obtain ⟨-, -, e2, e3, -, -⟩ := idx2 t
  funext y
  show V c main_arg8 (((cfg2.win 1).blk t).view.emb y) = V c main_arg8 y
  refine congrArg _ ?_
  funext a; apply Fin.ext
  match a with
  | ⟨0, _⟩ => show win2_1.index t (0 : Fin 2) * 128 + 1 * (y 0).val = (y 0).val; omega
  | ⟨1, _⟩ => show win2_1.index t (1 : Fin 2) * 128 + 1 * (y 1).val = (y 1).val; omega

/-- What point t writes back is block t of the product of the whole arrays. -/
theorem flushed2 (c : Dev nD) (t : Fin cfg2.N) :
    (dat2 V c).flushed 2 t = ((cfg2.win 2).blk t).view.read (Elt Ideal) (mm (V c main_v48) (V c main_arg8)) := by
  show (cfg2.win 2).cut (grid2.coords t) ((dat2 V c).after 2 t) = _
  rw [after2_2]
  unfold out2_2
  rw [View.canon_unit_zero hz2]
  simp only [View.ld_unit_zero (S := S2000x128) hz2, View.ld_unit_zero (S := S128x128) hz2]
  rw [pay2, whole2]
  obtain ⟨-, -, -, -, e4, e5⟩ := idx2 t
  funext y
  obtain ⟨q, j, rfl⟩ : ∃ (q : Fin 2000) (j : Fin 128), y = ix2 q j := ⟨y 0, y 1, eq_ix2 y⟩
  show mm (iblk2 V c 0 t) (V c main_arg8) (ix2 q j)
    = mm (V c main_v48) (V c main_arg8) (((cfg2.win 2).blk t).view.emb (ix2 q j))
  have hq : q.val < 2000 := q.isLt
  have hemb : ((cfg2.win 2).blk t).view.emb (ix2 q j)
      = ix2 (⟨win2_2.index t (0 : Fin 2) * 2000 + q.val, by omega⟩ : Fin 50000) j := by
    funext a; apply Fin.ext
    match a with
    | ⟨0, _⟩ => show win2_2.index t (0 : Fin 2) * 2000 + 1 * q.val = win2_2.index t (0 : Fin 2) * 2000 + q.val; omega
    | ⟨1, _⟩ => show win2_2.index t (1 : Fin 2) * 128 + 1 * j.val = j.val; omega
  rw [hemb]
  exact mm_row (rows2 V c t q _ rfl) (V c main_arg8) j

theorem mem_blk2 (t : Fin cfg2.N) (i : S50000x128.Idx) :
    i ∈ ((cfg2.win 2).blk t).view.set ↔ ∀ a : Fin 2, win2_2.index t a * S2000x128.size a ≤ (i a).val
      ∧ (i a).val < win2_2.index t a * S2000x128.size a + S2000x128.size a := by
  show i ∈ ((View.whole main_v49).slice (win2_2.rect t)).set ↔ _
  rw [View.set_slice_whole, Rect.mem_set_unit]
  exact Iff.rfl

/-- The 25 row blocks tile the result array. -/
theorem cover2 (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  obtain ⟨t, ht⟩ := onto2 ⟨(i 0).val / 2000, by omega⟩
  have ht' : win2_2.index t (0 : Fin 2) = (i 0).val / 2000 := ht
  obtain ⟨-, -, -, -, e4, -⟩ := idx2 t
  refine ⟨t, flush2_2 t, ?_⟩
  rw [mem_blk2]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 128 ≤ (i 1).val ∧ (i 1).val < win2_2.index t (1 : Fin 2) * 128 + 128; omega

/-- After the launch the result array is the product of the two arrays as the launch found them. -/
theorem final2 (c : Dev nD) :
    (dat2 V c).arrAt 2 cfg2.N = mm (V c main_v48) (V c main_arg8) :=
  (dat2 V c).arrAt_eq_of_cover 2 (mm (V c main_v48) (V c main_arg8)) (fun t _ => flushed2 V c t) (cover2)

end Cert.KernelIdeal.Regions

end
-- ==== Proof.Region3.lean ====
/-
  Launch 3 of the program: bias, normalisation and floor, 2000 rows at a time.

  Grid point t takes rows 2000·t … 2000·t + 1999 of the aggregate and the five one-row parameter matrices whole, and
  writes the normalised rows to the same rows of the result.  The stage works entry by entry from the aggregate's entry
  and the parameters' column, so the 25 blocks written back are the 25 row blocks of ONE normalisation of the whole
  aggregate, and they tile the result.
-/
import proofs.«111996_j38113539785179_1_alg».proof.Proof.Gen.KernelIdeal.Frame
import proofs.«111996_j38113539785179_1_alg».proof.Proof.LibNormStages
import Idealize.ShloMosaic.Lib.Pipeline.Value
import Idealize.ShloMosaic.Lib.ValueIdx

set_option maxRecDepth 16384

noncomputable section

namespace Cert.KernelIdeal.Regions

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.LibRowStages Cert.LibNormStages

variable (V : (c : Dev nD) → (b : Ref sig .tc) → Buf (Elt Ideal) ((c : Thread nD τ).loc b))

theorem hz3 : (![0, 0] : Fin 2 → Nat) = fun _ => 0 := funext fun a => by fin_cases a <;> rfl

/-- The body's arithmetic is the normalisation stage of its loaded blocks. -/
theorem pay3 (a : Vec Ideal S2000x128 .f32) (b v mu g bb : Vec Ideal S1x128 .f32) :
    k3_pay1 a b v mu g bb = bnRelu a b g bb mu v := by
  unfold k3_pay1
  simp only [shapeCast_self]
  exact unitBN_eq broadcasts_S1x128_S2000x128 a b g bb mu v

/-- The printed index maps over the grid: the aggregate's and the result's row blocks move together, point t's at
    block t. -/
theorem idx3 : ∀ t : Fin cfg3.N, win3_0.index t (0 : Fin 2) = win3_6.index t (0 : Fin 2)
    ∧ win3_0.index t (1 : Fin 2) = 0 ∧ win3_6.index t (1 : Fin 2) = 0 ∧ win3_6.index t (0 : Fin 2) ≤ 24 :=
  (by decide +kernel : ∀ t : Fin grid3.N, _)
theorem zero3_1 : ∀ t : Fin cfg3.N, win3_1.index t (0 : Fin 2) = 0 ∧ win3_1.index t (1 : Fin 2) = 0 :=
  (by decide +kernel : ∀ t : Fin grid3.N, _)
theorem zero3_2 : ∀ t : Fin cfg3.N, win3_2.index t (0 : Fin 2) = 0 ∧ win3_2.index t (1 : Fin 2) = 0 :=
  (by decide +kernel : ∀ t : Fin grid3.N, _)
theorem zero3_3 : ∀ t : Fin cfg3.N, win3_3.index t (0 : Fin 2) = 0 ∧ win3_3.index t (1 : Fin 2) = 0 :=
  (by decide +kernel : ∀ t : Fin grid3.N, _)
theorem zero3_4 : ∀ t : Fin cfg3.N, win3_4.index t (0 : Fin 2) = 0 ∧ win3_4.index t (1 : Fin 2) = 0 :=
  (by decide +kernel : ∀ t : Fin grid3.N, _)
theorem zero3_5 : ∀ t : Fin cfg3.N, win3_5.index t (0 : Fin 2) = 0 ∧ win3_5.index t (1 : Fin 2) = 0 :=
  (by decide +kernel : ∀ t : Fin grid3.N, _)

theorem onto3 : ∀ q : Fin 25, ∃ t : Fin cfg3.N, win3_6.index t (0 : Fin 2) = q.val :=
  (by decide +kernel : ∀ q : Fin 25, ∃ t : Fin grid3.N, win3_6.index t (0 : Fin 2) = q.val)

/-- Row q of the aggregate's block at point t is row 2000·(block index) + q of its array. -/
theorem rows3 (c : Dev nD) (t : Fin cfg3.N) (q : Fin 2000) (p : Fin 50000)
    (hp : p.val = win3_6.index t (0 : Fin 2) * 2000 + q.val) :
    RowEq (iblk3 V c 0 t) q (V c main_v62) p := fun j => by
  obtain ⟨e0, e1, -, -⟩ := idx3 t
  show V c main_v62 (((cfg3.win 0).blk t).view.emb (ix2 q j)) = V c main_v62 (ix2 p j)
  refine congrArg _ ?_
  funext a; apply Fin.ext
  match a with
  | ⟨0, _⟩ => show win3_0.index t (0 : Fin 2) * 2000 + 1 * q.val = p.val; omega
  | ⟨1, _⟩ => show win3_0.index t (1 : Fin 2) * 128 + 1 * j.val = j.val; omega

/-- Parameter window 1's block is its whole one-row array at every point. -/
theorem whole3_1 (c : Dev nD) (t : Fin cfg3.N) : iblk3 V c 1 t = V c main_v63 := by
  obtain ⟨z0, z1⟩ := zero3_1 t
  funext y
  show V c main_v63 (((cfg3.win 1).blk t).view.emb y) = V c main_v63 y
  refine congrArg _ ?_
  funext a; apply Fin.ext
  match a with
  | ⟨0, _⟩ => show win3_1.index t (0 : Fin 2) * 1 + 1 * (y 0).val = (y 0).val; omega
  | ⟨1, _⟩ => show win3_1.index t (1 : Fin 2) * 128 + 1 * (y 1).val = (y 1).val; omega

/-- Parameter window 2's block is its whole one-row array at every point. -/
theorem whole3_2 (c : Dev nD) (t : Fin cfg3.N) : iblk3 V c 2 t = V c main_v64 := by
  obtain ⟨z0, z1⟩ := zero3_2 t
  funext y
  show V c main_v64 (((cfg3.win 2).blk t).view.emb y) = V c main_v64 y
  refine congrArg _ ?_
  funext a; apply Fin.ext
  match a with
  | ⟨0, _⟩ => show win3_2.index t (0 : Fin 2) * 1 + 1 * (y 0).val = (y 0).val; omega
  | ⟨1, _⟩ => show win3_2.index t (1 : Fin 2) * 128 + 1 * (y 1).val = (y 1).val; omega

/-- Parameter window 3's block is its whole one-row array at every point. -/
theorem whole3_3 (c : Dev nD) (t : Fin cfg3.N) : iblk3 V c 3 t = V c main_v65 := by
  obtain ⟨z0, z1⟩ := zero3_3 t
  funext y
  show V c main_v65 (((cfg3.win 3).blk t).view.emb y) = V c main_v65 y
  refine congrArg _ ?_
  funext a; apply Fin.ext
  match a with
  | ⟨0, _⟩ => show win3_3.index t (0 : Fin 2) * 1 + 1 * (y 0).val = (y 0).val; omega
  | ⟨1, _⟩ => show win3_3.index t (1 : Fin 2) * 128 + 1 * (y 1).val = (y 1).val; omega

/-- Parameter window 4's block is its whole one-row array at every point. -/
theorem whole3_4 (c : Dev nD) (t : Fin cfg3.N) : iblk3 V c 4 t = V c main_v66 := by
  obtain ⟨z0, z1⟩ := zero3_4 t
  funext y
  show V c main_v66 (((cfg3.win 4).blk t).view.emb y) = V c main_v66 y
  refine congrArg _ ?_
  funext a; apply Fin.ext
  match a with
  | ⟨0, _⟩ => show win3_4.index t (0 : Fin 2) * 1 + 1 * (y 0).val = (y 0).val; omega
  | ⟨1, _⟩ => show win3_4.index t (1 : Fin 2) * 128 + 1 * (y 1).val = (y 1).val; omega

/-- Parameter window 5's block is its whole one-row array at every point. -/
theorem whole3_5 (c : Dev nD) (t : Fin cfg3.N) : iblk3 V c 5 t = V c main_v67 := by
  obtain ⟨z0, z1⟩ := zero3_5 t
  funext y
  show V c main_v67 (((cfg3.win 5).blk t).view.emb y) = V c main_v67 y
  refine congrArg _ ?_
  funext a; apply Fin.ext
  match a with
  | ⟨0, _⟩ => show win3_5.index t (0 : Fin 2) * 1 + 1 * (y 0).val = (y 0).val; omega
  | ⟨1, _⟩ => show win3_5.index t (1 : Fin 2) * 128 + 1 * (y 1).val = (y 1).val; omega

/-- What point t writes back is block t of the normalisation of the whole arrays. -/
theorem flushed3 (c : Dev nD) (t : Fin cfg3.N) :
    (dat3 V c).flushed 6 t = ((cfg3.win 6).blk t).view.read (Elt Ideal) (bnRelu (V c main_v62) (V c main_v63) (V c main_v64) (V c main_v65) (V c main_v66) (V c main_v67)) := by
  show (cfg3.win 6).cut (grid3.coords t) ((dat3 V c).after 6 t) = _
  rw [after3_6]
  unfold out3_6
  rw [View.canon_unit_zero hz3]
  simp only [View.ld_unit_zero (S := S2000x128) hz3, View.ld_unit_zero (S := S1x128) hz3]
  rw [pay3, whole3_1, whole3_2, whole3_3, whole3_4, whole3_5]
  obtain ⟨-, -, e4, e5⟩ := idx3 t
  funext y
  obtain ⟨q, j, rfl⟩ : ∃ (q : Fin 2000) (j : Fin 128), y = ix2 q j := ⟨y 0, y 1, eq_ix2 y⟩
  show bnRelu (iblk3 V c 0 t) (V c main_v63) (V c main_v64) (V c main_v65) (V c main_v66) (V c main_v67) (ix2 q j)
    = (bnRelu (V c main_v62) (V c main_v63) (V c main_v64) (V c main_v65) (V c main_v66) (V c main_v67)) (((cfg3.win 6).blk t).view.emb (ix2 q j))
  have hq : q.val < 2000 := q.isLt
  have hemb : ((cfg3.win 6).blk t).view.emb (ix2 q j)
      = ix2 (⟨win3_6.index t (0 : Fin 2) * 2000 + q.val, by omega⟩ : Fin 50000) j := by
    funext a; apply Fin.ext
    match a with
    | ⟨0, _⟩ => show win3_6.index t (0 : Fin 2) * 2000 + 1 * q.val = win3_6.index t (0 : Fin 2) * 2000 + q.val; omega
    | ⟨1, _⟩ => show win3_6.index t (1 : Fin 2) * 128 + 1 * j.val = j.val; omega
  rw [hemb]
  exact bnRelu_row (rows3 V c t q _ rfl) _ _ _ _ _ j

theorem mem_blk3 (t : Fin cfg3.N) (i : S50000x128.Idx) :
    i ∈ ((cfg3.win 6).blk t).view.set ↔ ∀ a : Fin 2, win3_6.index t a * S2000x128.size a ≤ (i a).val
      ∧ (i a).val < win3_6.index t a * S2000x128.size a + S2000x128.size a := by
  show i ∈ ((View.whole main_v68).slice (win3_6.rect t)).set ↔ _
  rw [View.set_slice_whole, Rect.mem_set_unit]
  exact Iff.rfl

/-- The 25 row blocks tile the result array. -/
theorem cover3 (i : S50000x128.Idx) :
    ∃ t : Fin cfg3.N, (cfg3.win 6).flush t = true ∧ i ∈ ((cfg3.win 6).blk t).view.set := by
  have hi0 : (i 0).val < 50000 := (i 0).isLt
  have hi1 : (i 1).val < 128 := (i 1).isLt
  obtain ⟨t, ht⟩ := onto3 ⟨(i 0).val / 2000, by omega⟩
  have ht' : win3_6.index t (0 : Fin 2) = (i 0).val / 2000 := ht
  obtain ⟨-, -, e4, -⟩ := idx3 t
  refine ⟨t, flush3_6 t, ?_⟩
  rw [mem_blk3]
  intro a
  match a with
  | ⟨0, _⟩ => show win3_6.index t (0 : Fin 2) * 2000 ≤ (i 0).val ∧ (i 0).val < win3_6.index t (0 : Fin 2) * 2000 + 2000; omega
  | ⟨1, _⟩ => show win3_6.index t (1 : Fin 2) * 128 ≤ (i 1).val ∧ (i 1).val < win3_6.index t (1 : Fin 2) * 128 + 128; omega

/-- After the launch the result array is the normalisation stage of the arrays as the launch found them. -/
theorem final3 (c : Dev nD) :
    (dat3 V c).arrAt 6 cfg3.N = bnRelu (V c main_v62) (V c main_v63) (V c main_v64) (V c main_v65) (V c main_v66) (V c main_v67) :=
  (dat3 V c).arrAt_eq_of_cover 6 (bnRelu (V c main_v62) (V c main_v63) (V c main_v64) (V c main_v65) (V c main_v66) (V c main_v67)) (fun t _ => flushed3 V c t) (cover3)

end Cert.KernelIdeal.Regions

end
-- ==== Proof.Region4.lean ====
/-
  Launch 4 of the program: a matrix product, 2000 rows at a time.

  Grid point t takes rows 2000·t … 2000·t + 1999 of the left matrix and the whole right matrix, and writes their product
  to the same rows of the result.  A row of a product depends on the same row of the left operand only, so the 25 blocks
  written back are the 25 row blocks of ONE product of the whole matrices, and they tile the result: after the launch the
  result array holds the product of the two arrays as the launch found them.
-/
import proofs.«111996_j38113539785179_1_alg».proof.Proof.Gen.KernelIdeal.Frame
import proofs.«111996_j38113539785179_1_alg».proof.Proof.LibNormStages
import Idealize.ShloMosaic.Lib.Pipeline.Value
import Idealize.ShloMosaic.Lib.ValueIdx

set_option maxRecDepth 16384

noncomputable section

namespace Cert.KernelIdeal.Regions

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.LibRowStages Cert.LibNormStages

variable (V : (c : Dev nD) → (b : Ref sig .tc) → Buf (Elt Ideal) ((c : Thread nD τ).loc b))

theorem hz4 : (![0, 0] : Fin 2 → Nat) = fun _ => 0 := funext fun a => by fin_cases a <;> rfl

/-- The body's arithmetic is the matrix product of its two loaded blocks (the change to the narrower float format
    changes no extended real). -/
theorem pay4 (x : Vec Ideal S2000x128 .f32) (w : Vec Ideal S128x256 .f32) : k4_pay1 x w = mm x w := by
  unfold k4_pay1
  simp only [shapeCast_self]
  exact matmul_eq_mm dot_S2000x128_S128x256_S2000x256_1_0_0_1_n_n rfl rfl rfl rfl rfl rfl none _ _

/-- The printed index maps over the grid: the left operand's and the result's row blocks move together, point t's at
    block t; every other block index is zero. -/
theorem idx4 : ∀ t : Fin cfg4.N, win4_0.index t (0 : Fin 2) = win4_2.index t (0 : Fin 2)
    ∧ win4_0.index t (1 : Fin 2) = 0 ∧ win4_1.index t (0 : Fin 2) = 0 ∧ win4_1.index t (1 : Fin 2) = 0
    ∧ win4_2.index t (1 : Fin 2) = 0 ∧ win4_2.index t (0 : Fin 2) ≤ 24 :=
  (by decide +kernel : ∀ t : Fin grid4.N, _)

theorem onto4 : ∀ q : Fin 25, ∃ t : Fin cfg4.N, win4_2.index t (0 : Fin 2) = q.val :=
  (by decide +kernel : ∀ q : Fin 25, ∃ t : Fin grid4.N, win4_2.index t (0 : Fin 2) = q.val)

/-- Row q of the left operand's block at point t is row 2000·(block index) + q of its array. -/
theorem rows4 (c : Dev nD) (t : Fin cfg4.N) (q : Fin 2000) (p : Fin 50000)
    (hp : p.val = win4_2.index t (0 : Fin 2) * 2000 + q.val) :
    RowEq (iblk4 V c 0 t) q (V c main_v68) p := fun j => by
  obtain ⟨e0, e1, -, -, -, -⟩ := idx4 t
  show V c main_v68 (((cfg4.win 0).blk t).view.emb (ix2 q j)) = V c main_v68 (ix2 p j)
  refine congrArg _ ?_
  funext a; apply Fin.ext
  match a with
  | ⟨0, _⟩ => show win4_0.index t (0 : Fin 2) * 2000 + 1 * q.val = p.val; omega
  | ⟨1, _⟩ => show win4_0.index t (1 : Fin 2) * 128 + 1 * j.val = j.val; omega

/-- The right operand's block is its whole array at every point. -/
theorem whole4 (c : Dev nD) (t : Fin cfg4.N) : iblk4 V c 1 t = V c main_arg14 := by
  obtain ⟨-, -, e2, e3, -, -⟩ := idx4 t
  funext y
  show V c main_arg14 (((cfg4.win 1).blk t).view.emb y) = V c main_arg14 y
  refine congrArg _ ?_
  funext a; apply Fin.ext
  match a with
  | ⟨0, _⟩ => show win4_1.index t (0 : Fin 2) * 128 + 1 * (y 0).val = (y 0).val; omega
  | ⟨1, _⟩ => show win4_1.index t (1 : Fin 2) * 256 + 1 * (y 1).val = (y 1).val; omega

/-- What point t writes back is block t of the product of the whole arrays. -/
theorem flushed4 (c : Dev nD) (t : Fin cfg4.N) :
    (dat4 V c).flushed 2 t = ((cfg4.win 2).blk t).view.read (Elt Ideal) (mm (V c main_v68) (V c main_arg14)) := by
  show (cfg4.win 2).cut (grid4.coords t) ((dat4 V c).after 2 t) = _
  rw [after4_2]
  unfold out4_2
  rw [View.canon_unit_zero hz4]
  simp only [View.ld_unit_zero (S := S2000x128) hz4, View.ld_unit_zero (S := S128x256) hz4]
  rw [pay4, whole4]
  obtain ⟨-, -, -, -, e4, e5⟩ := idx4 t
  funext y
  obtain ⟨q, j, rfl⟩ : ∃ (q : Fin 2000) (j : Fin 256), y = ix2 q j := ⟨y 0, y 1, eq_ix2 y⟩
  show mm (iblk4 V c 0 t) (V c main_arg14) (ix2 q j)
    = mm (V c main_v68) (V c main_arg14) (((cfg4.win 2).blk t).view.emb (ix2 q j))
  have hq : q.val < 2000 := q.isLt
  have hemb : ((cfg4.win 2).blk t).view.emb (ix2 q j)
      = ix2 (⟨win4_2.index t (0 : Fin 2) * 2000 + q.val, by omega⟩ : Fin 50000) j := by
    funext a; apply Fin.ext
    match a with
    | ⟨0, _⟩ => show win4_2.index t (0 : Fin 2) * 2000 + 1 * q.val = win4_2.index t (0 : Fin 2) * 2000 + q.val; omega
    | ⟨1, _⟩ => show win4_2.index t (1 : Fin 2) * 256 + 1 * j.val = j.val; omega
  rw [hemb]
  exact mm_row (rows4 V c t q _ rfl) (V c main_arg14) j

theorem mem_blk4 (t : Fin cfg4.N) (i : S50000x256.Idx) :
    i ∈ ((cfg4.win 2).blk t).view.set ↔ ∀ a : Fin 2, win4_2.index t a * S2000x256.size a ≤ (i a).val
      ∧ (i a).val < win4_2.index t a * S2000x256.size a + S2000x256.size a := by
  show i ∈ ((View.whole main_v69).slice (win4_2.rect t)).set ↔ _
  rw [View.set_slice_whole, Rect.mem_set_unit]
  exact Iff.rfl

/-- The 25 row blocks tile the result array. -/
theorem cover4 (i : S50000x256.Idx) :
    ∃ t : Fin cfg4.N, (cfg4.win 2).flush t = true ∧ i ∈ ((cfg4.win 2).blk t).view.set := by
  have hi0 : (i 0).val < 50000 := (i 0).isLt
  have hi1 : (i 1).val < 256 := (i 1).isLt
  obtain ⟨t, ht⟩ := onto4 ⟨(i 0).val / 2000, by omega⟩
  have ht' : win4_2.index t (0 : Fin 2) = (i 0).val / 2000 := ht
  obtain ⟨-, -, -, -, e4, -⟩ := idx4 t
  refine ⟨t, flush4_2 t, ?_⟩
  rw [mem_blk4]
  intro a
  match a with
  | ⟨0, _⟩ => show win4_2.index t (0 : Fin 2) * 2000 ≤ (i 0).val ∧ (i 0).val < win4_2.index t (0 : Fin 2) * 2000 + 2000; omega
  | ⟨1, _⟩ => show win4_2.index t (1 : Fin 2) * 256 ≤ (i 1).val ∧ (i 1).val < win4_2.index t (1 : Fin 2) * 256 + 256; omega

/-- After the launch the result array is the product of the two arrays as the launch found them. -/
theorem final4 (c : Dev nD) :
    (dat4 V c).arrAt 2 cfg4.N = mm (V c main_v68) (V c main_arg14) :=
  (dat4 V c).arrAt_eq_of_cover 2 (mm (V c main_v68) (V c main_arg14)) (fun t _ => flushed4 V c t) (cover4)

end Cert.KernelIdeal.Regions

end
-- ==== Proof.Region5.lean ====
/-
  Launch 5 of the program: bias, normalisation and floor, 2000 rows at a time.

  Grid point t takes rows 2000·t … 2000·t + 1999 of the aggregate and the five one-row parameter matrices whole, and
  writes the normalised rows to the same rows of the result.  The stage works entry by entry from the aggregate's entry
  and the parameters' column, so the 25 blocks written back are the 25 row blocks of ONE normalisation of the whole
  aggregate, and they tile the result.
-/
import proofs.«111996_j38113539785179_1_alg».proof.Proof.Gen.KernelIdeal.Frame
import proofs.«111996_j38113539785179_1_alg».proof.Proof.LibNormStages
import Idealize.ShloMosaic.Lib.Pipeline.Value
import Idealize.ShloMosaic.Lib.ValueIdx

set_option maxRecDepth 16384

noncomputable section

namespace Cert.KernelIdeal.Regions

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.LibRowStages Cert.LibNormStages

variable (V : (c : Dev nD) → (b : Ref sig .tc) → Buf (Elt Ideal) ((c : Thread nD τ).loc b))

theorem hz5 : (![0, 0] : Fin 2 → Nat) = fun _ => 0 := funext fun a => by fin_cases a <;> rfl

/-- The body's arithmetic is the normalisation stage of its loaded blocks. -/
theorem pay5 (a : Vec Ideal S2000x256 .f32) (b v mu g bb : Vec Ideal S1x256 .f32) :
    k5_pay1 a b v mu g bb = bnRelu a b g bb mu v := by
  unfold k5_pay1
  simp only [shapeCast_self]
  exact unitBN_eq broadcasts_S1x256_S2000x256 a b g bb mu v

/-- The printed index maps over the grid: the aggregate's and the result's row blocks move together, point t's at
    block t. -/
theorem idx5 : ∀ t : Fin cfg5.N, win5_0.index t (0 : Fin 2) = win5_6.index t (0 : Fin 2)
    ∧ win5_0.index t (1 : Fin 2) = 0 ∧ win5_6.index t (1 : Fin 2) = 0 ∧ win5_6.index t (0 : Fin 2) ≤ 24 :=
  (by decide +kernel : ∀ t : Fin grid5.N, _)
theorem zero5_1 : ∀ t : Fin cfg5.N, win5_1.index t (0 : Fin 2) = 0 ∧ win5_1.index t (1 : Fin 2) = 0 :=
  (by decide +kernel : ∀ t : Fin grid5.N, _)
theorem zero5_2 : ∀ t : Fin cfg5.N, win5_2.index t (0 : Fin 2) = 0 ∧ win5_2.index t (1 : Fin 2) = 0 :=
  (by decide +kernel : ∀ t : Fin grid5.N, _)
theorem zero5_3 : ∀ t : Fin cfg5.N, win5_3.index t (0 : Fin 2) = 0 ∧ win5_3.index t (1 : Fin 2) = 0 :=
  (by decide +kernel : ∀ t : Fin grid5.N, _)
theorem zero5_4 : ∀ t : Fin cfg5.N, win5_4.index t (0 : Fin 2) = 0 ∧ win5_4.index t (1 : Fin 2) = 0 :=
  (by decide +kernel : ∀ t : Fin grid5.N, _)
theorem zero5_5 : ∀ t : Fin cfg5.N, win5_5.index t (0 : Fin 2) = 0 ∧ win5_5.index t (1 : Fin 2) = 0 :=
  (by decide +kernel : ∀ t : Fin grid5.N, _)

theorem onto5 : ∀ q : Fin 25, ∃ t : Fin cfg5.N, win5_6.index t (0 : Fin 2) = q.val :=
  (by decide +kernel : ∀ q : Fin 25, ∃ t : Fin grid5.N, win5_6.index t (0 : Fin 2) = q.val)

/-- Row q of the aggregate's block at point t is row 2000·(block index) + q of its array. -/
theorem rows5 (c : Dev nD) (t : Fin cfg5.N) (q : Fin 2000) (p : Fin 50000)
    (hp : p.val = win5_6.index t (0 : Fin 2) * 2000 + q.val) :
    RowEq (iblk5 V c 0 t) q (V c main_v82) p := fun j => by
  obtain ⟨e0, e1, -, -⟩ := idx5 t
  show V c main_v82 (((cfg5.win 0).blk t).view.emb (ix2 q j)) = V c main_v82 (ix2 p j)
  refine congrArg _ ?_
  funext a; apply Fin.ext
  match a with
  | ⟨0, _⟩ => show win5_0.index t (0 : Fin 2) * 2000 + 1 * q.val = p.val; omega
  | ⟨1, _⟩ => show win5_0.index t (1 : Fin 2) * 256 + 1 * j.val = j.val; omega

/-- Parameter window 1's block is its whole one-row array at every point. -/
theorem whole5_1 (c : Dev nD) (t : Fin cfg5.N) : iblk5 V c 1 t = V c main_v83 := by
  obtain ⟨z0, z1⟩ := zero5_1 t
  funext y
  show V c main_v83 (((cfg5.win 1).blk t).view.emb y) = V c main_v83 y
  refine congrArg _ ?_
  funext a; apply Fin.ext
  match a with
  | ⟨0, _⟩ => show win5_1.index t (0 : Fin 2) * 1 + 1 * (y 0).val = (y 0).val; omega
  | ⟨1, _⟩ => show win5_1.index t (1 : Fin 2) * 256 + 1 * (y 1).val = (y 1).val; omega

/-- Parameter window 2's block is its whole one-row array at every point. -/
theorem whole5_2 (c : Dev nD) (t : Fin cfg5.N) : iblk5 V c 2 t = V c main_v84 := by
  obtain ⟨z0, z1⟩ := zero5_2 t
  funext y
  show V c main_v84 (((cfg5.win 2).blk t).view.emb y) = V c main_v84 y
  refine congrArg _ ?_
  funext a; apply Fin.ext
  match a with
  | ⟨0, _⟩ => show win5_2.index t (0 : Fin 2) * 1 + 1 * (y 0).val = (y 0).val; omega
  | ⟨1, _⟩ => show win5_2.index t (1 : Fin 2) * 256 + 1 * (y 1).val = (y 1).val; omega

/-- Parameter window 3's block is its whole one-row array at every point. -/
theorem whole5_3 (c : Dev nD) (t : Fin cfg5.N) : iblk5 V c 3 t = V c main_v85 := by
  obtain ⟨z0, z1⟩ := zero5_3 t
  funext y
  show V c main_v85 (((cfg5.win 3).blk t).view.emb y) = V c main_v85 y
  refine congrArg _ ?_
  funext a; apply Fin.ext
  match a with
  | ⟨0, _⟩ => show win5_3.index t (0 : Fin 2) * 1 + 1 * (y 0).val = (y 0).val; omega
  | ⟨1, _⟩ => show win5_3.index t (1 : Fin 2) * 256 + 1 * (y 1).val = (y 1).val; omega

/-- Parameter window 4's block is its whole one-row array at every point. -/
theorem whole5_4 (c : Dev nD) (t : Fin cfg5.N) : iblk5 V c 4 t = V c main_v86 := by
  obtain ⟨z0, z1⟩ := zero5_4 t
  funext y
  show V c main_v86 (((cfg5.win 4).blk t).view.emb y) = V c main_v86 y
  refine congrArg _ ?_
  funext a; apply Fin.ext
  match a with
  | ⟨0, _⟩ => show win5_4.index t (0 : Fin 2) * 1 + 1 * (y 0).val = (y 0).val; omega
  | ⟨1, _⟩ => show win5_4.index t (1 : Fin 2) * 256 + 1 * (y 1).val = (y 1).val; omega

/-- Parameter window 5's block is its whole one-row array at every point. -/
theorem whole5_5 (c : Dev nD) (t : Fin cfg5.N) : iblk5 V c 5 t = V c main_v87 := by
  obtain ⟨z0, z1⟩ := zero5_5 t
  funext y
  show V c main_v87 (((cfg5.win 5).blk t).view.emb y) = V c main_v87 y
  refine congrArg _ ?_
  funext a; apply Fin.ext
  match a with
  | ⟨0, _⟩ => show win5_5.index t (0 : Fin 2) * 1 + 1 * (y 0).val = (y 0).val; omega
  | ⟨1, _⟩ => show win5_5.index t (1 : Fin 2) * 256 + 1 * (y 1).val = (y 1).val; omega

/-- What point t writes back is block t of the normalisation of the whole arrays. -/
theorem flushed5 (c : Dev nD) (t : Fin cfg5.N) :
    (dat5 V c).flushed 6 t = ((cfg5.win 6).blk t).view.read (Elt Ideal) (bnRelu (V c main_v82) (V c main_v83) (V c main_v84) (V c main_v85) (V c main_v86) (V c main_v87)) := by
  show (cfg5.win 6).cut (grid5.coords t) ((dat5 V c).after 6 t) = _
  rw [after5_6]
  unfold out5_6
  rw [View.canon_unit_zero hz5]
  simp only [View.ld_unit_zero (S := S2000x256) hz5, View.ld_unit_zero (S := S1x256) hz5]
  rw [pay5, whole5_1, whole5_2, whole5_3, whole5_4, whole5_5]
  obtain ⟨-, -, e4, e5⟩ := idx5 t
  funext y
  obtain ⟨q, j, rfl⟩ : ∃ (q : Fin 2000) (j : Fin 256), y = ix2 q j := ⟨y 0, y 1, eq_ix2 y⟩
  show bnRelu (iblk5 V c 0 t) (V c main_v83) (V c main_v84) (V c main_v85) (V c main_v86) (V c main_v87) (ix2 q j)
    = (bnRelu (V c main_v82) (V c main_v83) (V c main_v84) (V c main_v85) (V c main_v86) (V c main_v87)) (((cfg5.win 6).blk t).view.emb (ix2 q j))
  have hq : q.val < 2000 := q.isLt
  have hemb : ((cfg5.win 6).blk t).view.emb (ix2 q j)
      = ix2 (⟨win5_6.index t (0 : Fin 2) * 2000 + q.val, by omega⟩ : Fin 50000) j := by
    funext a; apply Fin.ext
    match a with
    | ⟨0, _⟩ => show win5_6.index t (0 : Fin 2) * 2000 + 1 * q.val = win5_6.index t (0 : Fin 2) * 2000 + q.val; omega
    | ⟨1, _⟩ => show win5_6.index t (1 : Fin 2) * 256 + 1 * j.val = j.val; omega
  rw [hemb]
  exact bnRelu_row (rows5 V c t q _ rfl) _ _ _ _ _ j

theorem mem_blk5 (t : Fin cfg5.N) (i : S50000x256.Idx) :
    i ∈ ((cfg5.win 6).blk t).view.set ↔ ∀ a : Fin 2, win5_6.index t a * S2000x256.size a ≤ (i a).val
      ∧ (i a).val < win5_6.index t a * S2000x256.size a + S2000x256.size a := by
  show i ∈ ((View.whole main_v88).slice (win5_6.rect t)).set ↔ _
  rw [View.set_slice_whole, Rect.mem_set_unit]
  exact Iff.rfl

/-- The 25 row blocks tile the result array. -/
theorem cover5 (i : S50000x256.Idx) :
    ∃ t : Fin cfg5.N, (cfg5.win 6).flush t = true ∧ i ∈ ((cfg5.win 6).blk t).view.set := by
  have hi0 : (i 0).val < 50000 := (i 0).isLt
  have hi1 : (i 1).val < 256 := (i 1).isLt
  obtain ⟨t, ht⟩ := onto5 ⟨(i 0).val / 2000, by omega⟩
  have ht' : win5_6.index t (0 : Fin 2) = (i 0).val / 2000 := ht
  obtain ⟨-, -, e4, -⟩ := idx5 t
  refine ⟨t, flush5_6 t, ?_⟩
  rw [mem_blk5]
  intro a
  match a with
  | ⟨0, _⟩ => show win5_6.index t (0 : Fin 2) * 2000 ≤ (i 0).val ∧ (i 0).val < win5_6.index t (0 : Fin 2) * 2000 + 2000; omega
  | ⟨1, _⟩ => show win5_6.index t (1 : Fin 2) * 256 ≤ (i 1).val ∧ (i 1).val < win5_6.index t (1 : Fin 2) * 256 + 256; omega

/-- After the launch the result array is the normalisation stage of the arrays as the launch found them. -/
theorem final5 (c : Dev nD) :
    (dat5 V c).arrAt 6 cfg5.N = bnRelu (V c main_v82) (V c main_v83) (V c main_v84) (V c main_v85) (V c main_v86) (V c main_v87) :=
  (dat5 V c).arrAt_eq_of_cover 6 (bnRelu (V c main_v82) (V c main_v83) (V c main_v84) (V c main_v85) (V c main_v86) (V c main_v87)) (fun t _ => flushed5 V c t) (cover5)

end Cert.KernelIdeal.Regions

end
-- ==== Proof.Region6.lean ====
/-
  The last launch of the program: the two dense layers of the head, 2000 rows at a time.

  Grid point t takes rows 2000·t … 2000·t + 1999 of the last layer's output and the two weight matrices and two one-row
  biases whole, and writes the head's rows to the same rows of the result.  Each of the head's five stages works one row
  at a time, so the 25 blocks written back are the 25 row blocks of ONE head of the whole matrix, and they tile the result.
-/
import proofs.«111996_j38113539785179_1_alg».proof.Proof.Gen.KernelIdeal.Frame
import proofs.«111996_j38113539785179_1_alg».proof.Proof.LibNormStages
import Idealize.ShloMosaic.Lib.Pipeline.Value
import Idealize.ShloMosaic.Lib.ValueIdx

set_option maxRecDepth 16384

noncomputable section

namespace Cert.KernelIdeal.Regions

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.LibRowStages Cert.LibNormStages

variable (V : (c : Dev nD) → (b : Ref sig .tc) → Buf (Elt Ideal) ((c : Thread nD τ).loc b))

theorem hz6 : (![0, 0] : Fin 2 → Nat) = fun _ => 0 := funext fun a => by fin_cases a <;> rfl

/-- The body's arithmetic is the head of its loaded blocks (the changes to the narrower float format change no
    extended real). -/
theorem pay6 (h : Vec Ideal S2000x256 .f32) (w1 : Vec Ideal S256x128 .f32) (b1 : Vec Ideal S1x128 .f32)
    (w2 : Vec Ideal S128x40 .f32) (b2 : Vec Ideal S1x40 .f32) :
    k6_pay1 h w1 b1 w2 b2 = head h w1 b1 w2 b2 := by
  unfold k6_pay1 head
  simp only [shapeCast_self]
  rw [matmul_eq_mm dot_S2000x256_S256x128_S2000x128_1_0_0_1_n_n rfl rfl rfl rfl rfl rfl none _ _,
    addf_spread_eq_addRow broadcasts_S1x128_S2000x128, maximumf_zero_eq_relu,
    matmul_eq_mm dot_S2000x128_S128x40_S2000x40_1_0_0_1_n_n rfl rfl rfl rfl rfl rfl none _ _,
    addf_spread_eq_addRow broadcasts_S1x40_S2000x40]
  rfl

/-- The printed index maps over the grid: the input's and the result's row blocks move together, point t's at block t. -/
theorem idx6 : ∀ t : Fin cfg6.N, win6_0.index t (0 : Fin 2) = win6_5.index t (0 : Fin 2)
    ∧ win6_0.index t (1 : Fin 2) = 0 ∧ win6_5.index t (1 : Fin 2) = 0 ∧ win6_5.index t (0 : Fin 2) ≤ 24 :=
  (by decide +kernel : ∀ t : Fin grid6.N, _)
theorem zero6_1 : ∀ t : Fin cfg6.N, win6_1.index t (0 : Fin 2) = 0 ∧ win6_1.index t (1 : Fin 2) = 0 :=
  (by decide +kernel : ∀ t : Fin grid6.N, _)
theorem zero6_2 : ∀ t : Fin cfg6.N, win6_2.index t (0 : Fin 2) = 0 ∧ win6_2.index t (1 : Fin 2) = 0 :=
  (by decide +kernel : ∀ t : Fin grid6.N, _)
theorem zero6_3 : ∀ t : Fin cfg6.N, win6_3.index t (0 : Fin 2) = 0 ∧ win6_3.index t (1 : Fin 2) = 0 :=
  (by decide +kernel : ∀ t : Fin grid6.N, _)
theorem zero6_4 : ∀ t : Fin cfg6.N, win6_4.index t (0 : Fin 2) = 0 ∧ win6_4.index t (1 : Fin 2) = 0 :=
  (by decide +kernel : ∀ t : Fin grid6.N, _)

theorem onto6 : ∀ q : Fin 25, ∃ t : Fin cfg6.N, win6_5.index t (0 : Fin 2) = q.val :=
  (by decide +kernel : ∀ q : Fin 25, ∃ t : Fin grid6.N, win6_5.index t (0 : Fin 2) = q.val)

/-- Row q of the input's block at point t is row 2000·(block index) + q of its array. -/
theorem rows6 (c : Dev nD) (t : Fin cfg6.N) (q : Fin 2000) (p : Fin 50000)
    (hp : p.val = win6_5.index t (0 : Fin 2) * 2000 + q.val) :
    RowEq (iblk6 V c 0 t) q (V c main_v88) p := fun j => by
  obtain ⟨e0, e1, -, -⟩ := idx6 t
  show V c main_v88 (((cfg6.win 0).blk t).view.emb (ix2 q j)) = V c main_v88 (ix2 p j)
  refine congrArg _ ?_
  funext a; apply Fin.ext
  match a with
  | ⟨0, _⟩ => show win6_0.index t (0 : Fin 2) * 2000 + 1 * q.val = p.val; omega
  | ⟨1, _⟩ => show win6_0.index t (1 : Fin 2) * 256 + 1 * j.val = j.val; omega

/-- Window 1's block is its whole array at every point. -/
theorem whole6_1 (c : Dev nD) (t : Fin cfg6.N) : iblk6 V c 1 t = V c main_arg20 := by
  obtain ⟨z0, z1⟩ := zero6_1 t
  funext y
  show V c main_arg20 (((cfg6.win 1).blk t).view.emb y) = V c main_arg20 y
  refine congrArg _ ?_
  funext a; apply Fin.ext
  match a with
  | ⟨0, _⟩ => show win6_1.index t (0 : Fin 2) * 256 + 1 * (y 0).val = (y 0).val; omega
  | ⟨1, _⟩ => show win6_1.index t (1 : Fin 2) * 128 + 1 * (y 1).val = (y 1).val; omega

/-- Window 2's block is its whole array at every point. -/
theorem whole6_2 (c : Dev nD) (t : Fin cfg6.N) : iblk6 V c 2 t = V c main_v89 := by
  obtain ⟨z0, z1⟩ := zero6_2 t
  funext y
  show V c main_v89 (((cfg6.win 2).blk t).view.emb y) = V c main_v89 y
  refine congrArg _ ?_
  funext a; apply Fin.ext
  match a with
  | ⟨0, _⟩ => show win6_2.index t (0 : Fin 2) * 1 + 1 * (y 0).val = (y 0).val; omega
  | ⟨1, _⟩ => show win6_2.index t (1 : Fin 2) * 128 + 1 * (y 1).val = (y 1).val; omega

/-- Window 3's block is its whole array at every point. -/
theorem whole6_3 (c : Dev nD) (t : Fin cfg6.N) : iblk6 V c 3 t = V c main_arg22 := by
  obtain ⟨z0, z1⟩ := zero6_3 t
  funext y
  show V c main_arg22 (((cfg6.win 3).blk t).view.emb y) = V c main_arg22 y
  refine congrArg _ ?_
  funext a; apply Fin.ext
  match a with
  | ⟨0, _⟩ => show win6_3.index t (0 : Fin 2) * 128 + 1 * (y 0).val = (y 0).val; omega
  | ⟨1, _⟩ => show win6_3.index t (1 : Fin 2) * 40 + 1 * (y 1).val = (y 1).val; omega

/-- Window 4's block is its whole array at every point. -/
theorem whole6_4 (c : Dev nD) (t : Fin cfg6.N) : iblk6 V c 4 t = V c main_v90 := by
  obtain ⟨z0, z1⟩ := zero6_4 t
  funext y
  show V c main_v90 (((cfg6.win 4).blk t).view.emb y) = V c main_v90 y
  refine congrArg _ ?_
  funext a; apply Fin.ext
  match a with
  | ⟨0, _⟩ => show win6_4.index t (0 : Fin 2) * 1 + 1 * (y 0).val = (y 0).val; omega
  | ⟨1, _⟩ => show win6_4.index t (1 : Fin 2) * 40 + 1 * (y 1).val = (y 1).val; omega

/-- What point t writes back is block t of the head of the whole arrays. -/
theorem flushed6 (c : Dev nD) (t : Fin cfg6.N) :
    (dat6 V c).flushed 5 t = ((cfg6.win 5).blk t).view.read (Elt Ideal) (head (V c main_v88) (V c main_arg20) (V c main_v89) (V c main_arg22) (V c main_v90)) := by
  show (cfg6.win 5).cut (grid6.coords t) ((dat6 V c).after 5 t) = _
  rw [after6_5]
  unfold out6_5
  rw [View.canon_unit_zero hz6]
  simp only [View.ld_unit_zero (S := S2000x256) hz6, View.ld_unit_zero (S := S256x128) hz6,
    View.ld_unit_zero (S := S1x128) hz6, View.ld_unit_zero (S := S128x40) hz6, View.ld_unit_zero (S := S1x40) hz6]
  rw [pay6, whole6_1, whole6_2, whole6_3, whole6_4]
  obtain ⟨-, -, e4, e5⟩ := idx6 t
  funext y
  obtain ⟨q, j, rfl⟩ : ∃ (q : Fin 2000) (j : Fin 40), y = ix2 q j := ⟨y 0, y 1, eq_ix2 y⟩
  show head (iblk6 V c 0 t) (V c main_arg20) (V c main_v89) (V c main_arg22) (V c main_v90) (ix2 q j)
    = (head (V c main_v88) (V c main_arg20) (V c main_v89) (V c main_arg22) (V c main_v90)) (((cfg6.win 5).blk t).view.emb (ix2 q j))
  have hq : q.val < 2000 := q.isLt
  have hemb : ((cfg6.win 5).blk t).view.emb (ix2 q j)
      = ix2 (⟨win6_5.index t (0 : Fin 2) * 2000 + q.val, by omega⟩ : Fin 50000) j := by
    funext a; apply Fin.ext
    match a with
    | ⟨0, _⟩ => show win6_5.index t (0 : Fin 2) * 2000 + 1 * q.val = win6_5.index t (0 : Fin 2) * 2000 + q.val; omega
    | ⟨1, _⟩ => show win6_5.index t (1 : Fin 2) * 40 + 1 * j.val = j.val; omega
  rw [hemb]
  exact head_row (rows6 V c t q _ rfl) _ _ _ _ j

theorem mem_blk6 (t : Fin cfg6.N) (i : S50000x40.Idx) :
    i ∈ ((cfg6.win 5).blk t).view.set ↔ ∀ a : Fin 2, win6_5.index t a * S2000x40.size a ≤ (i a).val
      ∧ (i a).val < win6_5.index t a * S2000x40.size a + S2000x40.size a := by
  show i ∈ ((View.whole main_v91).slice (win6_5.rect t)).set ↔ _
  rw [View.set_slice_whole, Rect.mem_set_unit]
  exact Iff.rfl

/-- The 25 row blocks tile the result array. -/
theorem cover6 (i : S50000x40.Idx) :
    ∃ t : Fin cfg6.N, (cfg6.win 5).flush t = true ∧ i ∈ ((cfg6.win 5).blk t).view.set := by
  have hi0 : (i 0).val < 50000 := (i 0).isLt
  have hi1 : (i 1).val < 40 := (i 1).isLt
  obtain ⟨t, ht⟩ := onto6 ⟨(i 0).val / 2000, by omega⟩
  have ht' : win6_5.index t (0 : Fin 2) = (i 0).val / 2000 := ht
  obtain ⟨-, -, e4, -⟩ := idx6 t
  refine ⟨t, flush6_5 t, ?_⟩
  rw [mem_blk6]
  intro a
  match a with
  | ⟨0, _⟩ => show win6_5.index t (0 : Fin 2) * 2000 ≤ (i 0).val ∧ (i 0).val < win6_5.index t (0 : Fin 2) * 2000 + 2000; omega
  | ⟨1, _⟩ => show win6_5.index t (1 : Fin 2) * 40 ≤ (i 1).val ∧ (i 1).val < win6_5.index t (1 : Fin 2) * 40 + 40; omega

/-- After the launch the result array is the head of the arrays as the launch found them. -/
theorem final6 (c : Dev nD) :
    (dat6 V c).arrAt 5 cfg6.N = head (V c main_v88) (V c main_arg20) (V c main_v89) (V c main_arg22) (V c main_v90) :=
  (dat6 V c).arrAt_eq_of_cover 5 (head (V c main_v88) (V c main_arg20) (V c main_v89) (V c main_arg22) (V c main_v90)) (fun t _ => flushed6 V c t) (cover6)

end Cert.KernelIdeal.Regions

end
-- ==== Proof.Fold.lean ====
/-
  The idealized kernel program's result as one function of its arguments.

  The buffer contents at the twelve segment boundaries are a fold from the launch memory: a stretch of host operations
  rewrites the buffers it writes, a launch rewrites its output array, and everything else is carried along.  Walking the
  fold forward: the edge vectors and weights after the first stretch are the reference's stages of the edge list; each
  product launch leaves the matrix product of what it was given; each stretch after it leaves the aggregate and the
  reshaped parameters; each normalisation launch leaves the normalisation stage; the last launch leaves the head.  An
  argument, and the edge vectors and weights, are written by nothing after they are made, so each is read back to where
  it was made.  Stage by stage these are the reference's own stages, so the result buffer ends at the reference's last
  stage of the kernel program's arguments.
-/
import proofs.«111996_j38113539785179_1_alg».proof.Proof.Gen.KernelIdeal.Frame
import proofs.«111996_j38113539785179_1_alg».proof.Proof.HostSide
import proofs.«111996_j38113539785179_1_alg».proof.Proof.RefSide
import proofs.«111996_j38113539785179_1_alg».proof.Proof.Region0
import proofs.«111996_j38113539785179_1_alg».proof.Proof.Region1
import proofs.«111996_j38113539785179_1_alg».proof.Proof.Region2
import proofs.«111996_j38113539785179_1_alg».proof.Proof.Region3
import proofs.«111996_j38113539785179_1_alg».proof.Proof.Region4
import proofs.«111996_j38113539785179_1_alg».proof.Proof.Region5
import proofs.«111996_j38113539785179_1_alg».proof.Proof.Region6

set_option maxRecDepth 16384

noncomputable section

namespace Cert.KernelIdeal.Fold

open Cert.KernelIdeal Cert.KernelIdeal.Gen
open Idealize.ShloMosaic Idealize.ShloMosaic.TcCoe
open Idealize.SL.Sem
open Cert.LibRowStages Cert.LibNormStages

variable (m : (ℓ : Loc nD τ sig) → Buf (Elt Ideal) ℓ) (ρ : Dev nD → PrngReg) (c : Dev nD)

/-! ## Arguments read back to the launch memory -/

theorem arg0_at1 : W1 m ρ c (Proc.devRef .tc main_arg0) = (m ((c : Thread nD τ).loc main_arg0)) :=
  calc W1 m ρ c (Proc.devRef .tc main_arg0)
    _ = W0 m ρ c (Proc.devRef .tc main_arg0) := (HostSide.keep0 (W0 m ρ c) main_arg0 (by decide))
    _ = (m ((c : Thread nD τ).loc main_arg0)) := rfl
theorem arg2_at1 : W1 m ρ c (Proc.devRef .tc main_arg2) = (m ((c : Thread nD τ).loc main_arg2)) :=
  calc W1 m ρ c (Proc.devRef .tc main_arg2)
    _ = W0 m ρ c (Proc.devRef .tc main_arg2) := (HostSide.keep0 (W0 m ρ c) main_arg2 (by decide))
    _ = (m ((c : Thread nD τ).loc main_arg2)) := rfl
theorem arg3_at2 : W2 m ρ c (Proc.devRef .tc main_arg3) = (m ((c : Thread nD τ).loc main_arg3)) :=
  calc W2 m ρ c (Proc.devRef .tc main_arg3)
    _ = W1 m ρ c (Proc.devRef .tc main_arg3) := (W2_of_ne m ρ c main_arg3 (by decide))
    _ = W0 m ρ c (Proc.devRef .tc main_arg3) := (HostSide.keep0 (W0 m ρ c) main_arg3 (by decide))
    _ = (m ((c : Thread nD τ).loc main_arg3)) := rfl
theorem arg4_at2 : W2 m ρ c (Proc.devRef .tc main_arg4) = (m ((c : Thread nD τ).loc main_arg4)) :=
  calc W2 m ρ c (Proc.devRef .tc main_arg4)
    _ = W1 m ρ c (Proc.devRef .tc main_arg4) := (W2_of_ne m ρ c main_arg4 (by decide))
    _ = W0 m ρ c (Proc.devRef .tc main_arg4) := (HostSide.keep0 (W0 m ρ c) main_arg4 (by decide))
    _ = (m ((c : Thread nD τ).loc main_arg4)) := rfl
theorem arg5_at2 : W2 m ρ c (Proc.devRef .tc main_arg5) = (m ((c : Thread nD τ).loc main_arg5)) :=
  calc W2 m ρ c (Proc.devRef .tc main_arg5)
    _ = W1 m ρ c (Proc.devRef .tc main_arg5) := (W2_of_ne m ρ c main_arg5 (by decide))
    _ = W0 m ρ c (Proc.devRef .tc main_arg5) := (HostSide.keep0 (W0 m ρ c) main_arg5 (by decide))
    _ = (m ((c : Thread nD τ).loc main_arg5)) := rfl
theorem arg6_at2 : W2 m ρ c (Proc.devRef .tc main_arg6) = (m ((c : Thread nD τ).loc main_arg6)) :=
  calc W2 m ρ c (Proc.devRef .tc main_arg6)
    _ = W1 m ρ c (Proc.devRef .tc main_arg6) := (W2_of_ne m ρ c main_arg6 (by decide))
    _ = W0 m ρ c (Proc.devRef .tc main_arg6) := (HostSide.keep0 (W0 m ρ c) main_arg6 (by decide))
    _ = (m ((c : Thread nD τ).loc main_arg6)) := rfl
theorem arg7_at2 : W2 m ρ c (Proc.devRef .tc main_arg7) = (m ((c : Thread nD τ).loc main_arg7)) :=
  calc W2 m ρ c (Proc.devRef .tc main_arg7)
    _ = W1 m ρ c (Proc.devRef .tc main_arg7) := (W2_of_ne m ρ c main_arg7 (by decide))
    _ = W0 m ρ c (Proc.devRef .tc main_arg7) := (HostSide.keep0 (W0 m ρ c) main_arg7 (by decide))
    _ = (m ((c : Thread nD τ).loc main_arg7)) := rfl
theorem arg8_at4 : W4 m ρ c (Proc.devRef .tc main_arg8) = (m ((c : Thread nD τ).loc main_arg8)) :=
  calc W4 m ρ c (Proc.devRef .tc main_arg8)
    _ = W3 m ρ c (Proc.devRef .tc main_arg8) := (W4_of_ne m ρ c main_arg8 (by decide))
    _ = W2 m ρ c (Proc.devRef .tc main_arg8) := (HostSide.keep1 (W2 m ρ c) main_arg8 (by decide))
    _ = W1 m ρ c (Proc.devRef .tc main_arg8) := (W2_of_ne m ρ c main_arg8 (by decide))
    _ = W0 m ρ c (Proc.devRef .tc main_arg8) := (HostSide.keep0 (W0 m ρ c) main_arg8 (by decide))
    _ = (m ((c : Thread nD τ).loc main_arg8)) := rfl
theorem arg9_at5 : W5 m ρ c (Proc.devRef .tc main_arg9) = (m ((c : Thread nD τ).loc main_arg9)) :=
  calc W5 m ρ c (Proc.devRef .tc main_arg9)
    _ = W4 m ρ c (Proc.devRef .tc main_arg9) := (W5_of_ne m ρ c main_arg9 (by decide))
    _ = W3 m ρ c (Proc.devRef .tc main_arg9) := (W4_of_ne m ρ c main_arg9 (by decide))
    _ = W2 m ρ c (Proc.devRef .tc main_arg9) := (HostSide.keep1 (W2 m ρ c) main_arg9 (by decide))
    _ = W1 m ρ c (Proc.devRef .tc main_arg9) := (W2_of_ne m ρ c main_arg9 (by decide))
    _ = W0 m ρ c (Proc.devRef .tc main_arg9) := (HostSide.keep0 (W0 m ρ c) main_arg9 (by decide))
    _ = (m ((c : Thread nD τ).loc main_arg9)) := rfl
theorem arg10_at5 : W5 m ρ c (Proc.devRef .tc main_arg10) = (m ((c : Thread nD τ).loc main_arg10)) :=
  calc W5 m ρ c (Proc.devRef .tc main_arg10)
    _ = W4 m ρ c (Proc.devRef .tc main_arg10) := (W5_of_ne m ρ c main_arg10 (by decide))
    _ = W3 m ρ c (Proc.devRef .tc main_arg10) := (W4_of_ne m ρ c main_arg10 (by decide))
    _ = W2 m ρ c (Proc.devRef .tc main_arg10) := (HostSide.keep1 (W2 m ρ c) main_arg10 (by decide))
    _ = W1 m ρ c (Proc.devRef .tc main_arg10) := (W2_of_ne m ρ c main_arg10 (by decide))
    _ = W0 m ρ c (Proc.devRef .tc main_arg10) := (HostSide.keep0 (W0 m ρ c) main_arg10 (by decide))
    _ = (m ((c : Thread nD τ).loc main_arg10)) := rfl
theorem arg11_at5 : W5 m ρ c (Proc.devRef .tc main_arg11) = (m ((c : Thread nD τ).loc main_arg11)) :=
  calc W5 m ρ c (Proc.devRef .tc main_arg11)
    _ = W4 m ρ c (Proc.devRef .tc main_arg11) := (W5_of_ne m ρ c main_arg11 (by decide))
    _ = W3 m ρ c (Proc.devRef .tc main_arg11) := (W4_of_ne m ρ c main_arg11 (by decide))
    _ = W2 m ρ c (Proc.devRef .tc main_arg11) := (HostSide.keep1 (W2 m ρ c) main_arg11 (by decide))
    _ = W1 m ρ c (Proc.devRef .tc main_arg11) := (W2_of_ne m ρ c main_arg11 (by decide))
    _ = W0 m ρ c (Proc.devRef .tc main_arg11) := (HostSide.keep0 (W0 m ρ c) main_arg11 (by decide))
    _ = (m ((c : Thread nD τ).loc main_arg11)) := rfl
theorem arg12_at5 : W5 m ρ c (Proc.devRef .tc main_arg12) = (m ((c : Thread nD τ).loc main_arg12)) :=
  calc W5 m ρ c (Proc.devRef .tc main_arg12)
    _ = W4 m ρ c (Proc.devRef .tc main_arg12) := (W5_of_ne m ρ c main_arg12 (by decide))
    _ = W3 m ρ c (Proc.devRef .tc main_arg12) := (W4_of_ne m ρ c main_arg12 (by decide))
    _ = W2 m ρ c (Proc.devRef .tc main_arg12) := (HostSide.keep1 (W2 m ρ c) main_arg12 (by decide))
    _ = W1 m ρ c (Proc.devRef .tc main_arg12) := (W2_of_ne m ρ c main_arg12 (by decide))
    _ = W0 m ρ c (Proc.devRef .tc main_arg12) := (HostSide.keep0 (W0 m ρ c) main_arg12 (by decide))
    _ = (m ((c : Thread nD τ).loc main_arg12)) := rfl
theorem arg13_at5 : W5 m ρ c (Proc.devRef .tc main_arg13) = (m ((c : Thread nD τ).loc main_arg13)) :=
  calc W5 m ρ c (Proc.devRef .tc main_arg13)
    _ = W4 m ρ c (Proc.devRef .tc main_arg13) := (W5_of_ne m ρ c main_arg13 (by decide))
    _ = W3 m ρ c (Proc.devRef .tc main_arg13) := (W4_of_ne m ρ c main_arg13 (by decide))
    _ = W2 m ρ c (Proc.devRef .tc main_arg13) := (HostSide.keep1 (W2 m ρ c) main_arg13 (by decide))
    _ = W1 m ρ c (Proc.devRef .tc main_arg13) := (W2_of_ne m ρ c main_arg13 (by decide))
    _ = W0 m ρ c (Proc.devRef .tc main_arg13) := (HostSide.keep0 (W0 m ρ c) main_arg13 (by decide))
    _ = (m ((c : Thread nD τ).loc main_arg13)) := rfl
theorem arg14_at7 : W7 m ρ c (Proc.devRef .tc main_arg14) = (m ((c : Thread nD τ).loc main_arg14)) :=
  calc W7 m ρ c (Proc.devRef .tc main_arg14)
    _ = W6 m ρ c (Proc.devRef .tc main_arg14) := (W7_of_ne m ρ c main_arg14 (by decide))
    _ = W5 m ρ c (Proc.devRef .tc main_arg14) := (HostSide.keep3 (W5 m ρ c) main_arg14 (by decide))
    _ = W4 m ρ c (Proc.devRef .tc main_arg14) := (W5_of_ne m ρ c main_arg14 (by decide))
    _ = W3 m ρ c (Proc.devRef .tc main_arg14) := (W4_of_ne m ρ c main_arg14 (by decide))
    _ = W2 m ρ c (Proc.devRef .tc main_arg14) := (HostSide.keep1 (W2 m ρ c) main_arg14 (by decide))
    _ = W1 m ρ c (Proc.devRef .tc main_arg14) := (W2_of_ne m ρ c main_arg14 (by decide))
    _ = W0 m ρ c (Proc.devRef .tc main_arg14) := (HostSide.keep0 (W0 m ρ c) main_arg14 (by decide))
    _ = (m ((c : Thread nD τ).loc main_arg14)) := rfl
theorem arg15_at8 : W8 m ρ c (Proc.devRef .tc main_arg15) = (m ((c : Thread nD τ).loc main_arg15)) :=
  calc W8 m ρ c (Proc.devRef .tc main_arg15)
    _ = W7 m ρ c (Proc.devRef .tc main_arg15) := (W8_of_ne m ρ c main_arg15 (by decide))
    _ = W6 m ρ c (Proc.devRef .tc main_arg15) := (W7_of_ne m ρ c main_arg15 (by decide))
    _ = W5 m ρ c (Proc.devRef .tc main_arg15) := (HostSide.keep3 (W5 m ρ c) main_arg15 (by decide))
    _ = W4 m ρ c (Proc.devRef .tc main_arg15) := (W5_of_ne m ρ c main_arg15 (by decide))
    _ = W3 m ρ c (Proc.devRef .tc main_arg15) := (W4_of_ne m ρ c main_arg15 (by decide))
    _ = W2 m ρ c (Proc.devRef .tc main_arg15) := (HostSide.keep1 (W2 m ρ c) main_arg15 (by decide))
    _ = W1 m ρ c (Proc.devRef .tc main_arg15) := (W2_of_ne m ρ c main_arg15 (by decide))
    _ = W0 m ρ c (Proc.devRef .tc main_arg15) := (HostSide.keep0 (W0 m ρ c) main_arg15 (by decide))
    _ = (m ((c : Thread nD τ).loc main_arg15)) := rfl
theorem arg16_at8 : W8 m ρ c (Proc.devRef .tc main_arg16) = (m ((c : Thread nD τ).loc main_arg16)) :=
  calc W8 m ρ c (Proc.devRef .tc main_arg16)
    _ = W7 m ρ c (Proc.devRef .tc main_arg16) := (W8_of_ne m ρ c main_arg16 (by decide))
    _ = W6 m ρ c (Proc.devRef .tc main_arg16) := (W7_of_ne m ρ c main_arg16 (by decide))
    _ = W5 m ρ c (Proc.devRef .tc main_arg16) := (HostSide.keep3 (W5 m ρ c) main_arg16 (by decide))
    _ = W4 m ρ c (Proc.devRef .tc main_arg16) := (W5_of_ne m ρ c main_arg16 (by decide))
    _ = W3 m ρ c (Proc.devRef .tc main_arg16) := (W4_of_ne m ρ c main_arg16 (by decide))
    _ = W2 m ρ c (Proc.devRef .tc main_arg16) := (HostSide.keep1 (W2 m ρ c) main_arg16 (by decide))
    _ = W1 m ρ c (Proc.devRef .tc main_arg16) := (W2_of_ne m ρ c main_arg16 (by decide))
    _ = W0 m ρ c (Proc.devRef .tc main_arg16) := (HostSide.keep0 (W0 m ρ c) main_arg16 (by decide))
    _ = (m ((c : Thread nD τ).loc main_arg16)) := rfl
theorem arg17_at8 : W8 m ρ c (Proc.devRef .tc main_arg17) = (m ((c : Thread nD τ).loc main_arg17)) :=
  calc W8 m ρ c (Proc.devRef .tc main_arg17)
    _ = W7 m ρ c (Proc.devRef .tc main_arg17) := (W8_of_ne m ρ c main_arg17 (by decide))
    _ = W6 m ρ c (Proc.devRef .tc main_arg17) := (W7_of_ne m ρ c main_arg17 (by decide))
    _ = W5 m ρ c (Proc.devRef .tc main_arg17) := (HostSide.keep3 (W5 m ρ c) main_arg17 (by decide))
    _ = W4 m ρ c (Proc.devRef .tc main_arg17) := (W5_of_ne m ρ c main_arg17 (by decide))
    _ = W3 m ρ c (Proc.devRef .tc main_arg17) := (W4_of_ne m ρ c main_arg17 (by decide))
    _ = W2 m ρ c (Proc.devRef .tc main_arg17) := (HostSide.keep1 (W2 m ρ c) main_arg17 (by decide))
    _ = W1 m ρ c (Proc.devRef .tc main_arg17) := (W2_of_ne m ρ c main_arg17 (by decide))
    _ = W0 m ρ c (Proc.devRef .tc main_arg17) := (HostSide.keep0 (W0 m ρ c) main_arg17 (by decide))
    _ = (m ((c : Thread nD τ).loc main_arg17)) := rfl
theorem arg18_at8 : W8 m ρ c (Proc.devRef .tc main_arg18) = (m ((c : Thread nD τ).loc main_arg18)) :=
  calc W8 m ρ c (Proc.devRef .tc main_arg18)
    _ = W7 m ρ c (Proc.devRef .tc main_arg18) := (W8_of_ne m ρ c main_arg18 (by decide))
    _ = W6 m ρ c (Proc.devRef .tc main_arg18) := (W7_of_ne m ρ c main_arg18 (by decide))
    _ = W5 m ρ c (Proc.devRef .tc main_arg18) := (HostSide.keep3 (W5 m ρ c) main_arg18 (by decide))
    _ = W4 m ρ c (Proc.devRef .tc main_arg18) := (W5_of_ne m ρ c main_arg18 (by decide))
    _ = W3 m ρ c (Proc.devRef .tc main_arg18) := (W4_of_ne m ρ c main_arg18 (by decide))
    _ = W2 m ρ c (Proc.devRef .tc main_arg18) := (HostSide.keep1 (W2 m ρ c) main_arg18 (by decide))
    _ = W1 m ρ c (Proc.devRef .tc main_arg18) := (W2_of_ne m ρ c main_arg18 (by decide))
    _ = W0 m ρ c (Proc.devRef .tc main_arg18) := (HostSide.keep0 (W0 m ρ c) main_arg18 (by decide))
    _ = (m ((c : Thread nD τ).loc main_arg18)) := rfl
theorem arg19_at8 : W8 m ρ c (Proc.devRef .tc main_arg19) = (m ((c : Thread nD τ).loc main_arg19)) :=
  calc W8 m ρ c (Proc.devRef .tc main_arg19)
    _ = W7 m ρ c (Proc.devRef .tc main_arg19) := (W8_of_ne m ρ c main_arg19 (by decide))
    _ = W6 m ρ c (Proc.devRef .tc main_arg19) := (W7_of_ne m ρ c main_arg19 (by decide))
    _ = W5 m ρ c (Proc.devRef .tc main_arg19) := (HostSide.keep3 (W5 m ρ c) main_arg19 (by decide))
    _ = W4 m ρ c (Proc.devRef .tc main_arg19) := (W5_of_ne m ρ c main_arg19 (by decide))
    _ = W3 m ρ c (Proc.devRef .tc main_arg19) := (W4_of_ne m ρ c main_arg19 (by decide))
    _ = W2 m ρ c (Proc.devRef .tc main_arg19) := (HostSide.keep1 (W2 m ρ c) main_arg19 (by decide))
    _ = W1 m ρ c (Proc.devRef .tc main_arg19) := (W2_of_ne m ρ c main_arg19 (by decide))
    _ = W0 m ρ c (Proc.devRef .tc main_arg19) := (HostSide.keep0 (W0 m ρ c) main_arg19 (by decide))
    _ = (m ((c : Thread nD τ).loc main_arg19)) := rfl
theorem arg21_at10 : W10 m ρ c (Proc.devRef .tc main_arg21) = (m ((c : Thread nD τ).loc main_arg21)) :=
  calc W10 m ρ c (Proc.devRef .tc main_arg21)
    _ = W9 m ρ c (Proc.devRef .tc main_arg21) := (W10_of_ne m ρ c main_arg21 (by decide))
    _ = W8 m ρ c (Proc.devRef .tc main_arg21) := (HostSide.keep5 (W8 m ρ c) main_arg21 (by decide))
    _ = W7 m ρ c (Proc.devRef .tc main_arg21) := (W8_of_ne m ρ c main_arg21 (by decide))
    _ = W6 m ρ c (Proc.devRef .tc main_arg21) := (W7_of_ne m ρ c main_arg21 (by decide))
    _ = W5 m ρ c (Proc.devRef .tc main_arg21) := (HostSide.keep3 (W5 m ρ c) main_arg21 (by decide))
    _ = W4 m ρ c (Proc.devRef .tc main_arg21) := (W5_of_ne m ρ c main_arg21 (by decide))
    _ = W3 m ρ c (Proc.devRef .tc main_arg21) := (W4_of_ne m ρ c main_arg21 (by decide))
    _ = W2 m ρ c (Proc.devRef .tc main_arg21) := (HostSide.keep1 (W2 m ρ c) main_arg21 (by decide))
    _ = W1 m ρ c (Proc.devRef .tc main_arg21) := (W2_of_ne m ρ c main_arg21 (by decide))
    _ = W0 m ρ c (Proc.devRef .tc main_arg21) := (HostSide.keep0 (W0 m ρ c) main_arg21 (by decide))
    _ = (m ((c : Thread nD τ).loc main_arg21)) := rfl
theorem arg23_at10 : W10 m ρ c (Proc.devRef .tc main_arg23) = (m ((c : Thread nD τ).loc main_arg23)) :=
  calc W10 m ρ c (Proc.devRef .tc main_arg23)
    _ = W9 m ρ c (Proc.devRef .tc main_arg23) := (W10_of_ne m ρ c main_arg23 (by decide))
    _ = W8 m ρ c (Proc.devRef .tc main_arg23) := (HostSide.keep5 (W8 m ρ c) main_arg23 (by decide))
    _ = W7 m ρ c (Proc.devRef .tc main_arg23) := (W8_of_ne m ρ c main_arg23 (by decide))
    _ = W6 m ρ c (Proc.devRef .tc main_arg23) := (W7_of_ne m ρ c main_arg23 (by decide))
    _ = W5 m ρ c (Proc.devRef .tc main_arg23) := (HostSide.keep3 (W5 m ρ c) main_arg23 (by decide))
    _ = W4 m ρ c (Proc.devRef .tc main_arg23) := (W5_of_ne m ρ c main_arg23 (by decide))
    _ = W3 m ρ c (Proc.devRef .tc main_arg23) := (W4_of_ne m ρ c main_arg23 (by decide))
    _ = W2 m ρ c (Proc.devRef .tc main_arg23) := (HostSide.keep1 (W2 m ρ c) main_arg23 (by decide))
    _ = W1 m ρ c (Proc.devRef .tc main_arg23) := (W2_of_ne m ρ c main_arg23 (by decide))
    _ = W0 m ρ c (Proc.devRef .tc main_arg23) := (HostSide.keep0 (W0 m ρ c) main_arg23 (by decide))
    _ = (m ((c : Thread nD τ).loc main_arg23)) := rfl
theorem arg20_at11 : W11 m ρ c (Proc.devRef .tc main_arg20) = (m ((c : Thread nD τ).loc main_arg20)) :=
  calc W11 m ρ c (Proc.devRef .tc main_arg20)
    _ = W10 m ρ c (Proc.devRef .tc main_arg20) := (HostSide.keep6 (W10 m ρ c) main_arg20 (by decide))
    _ = W9 m ρ c (Proc.devRef .tc main_arg20) := (W10_of_ne m ρ c main_arg20 (by decide))
    _ = W8 m ρ c (Proc.devRef .tc main_arg20) := (HostSide.keep5 (W8 m ρ c) main_arg20 (by decide))
    _ = W7 m ρ c (Proc.devRef .tc main_arg20) := (W8_of_ne m ρ c main_arg20 (by decide))
    _ = W6 m ρ c (Proc.devRef .tc main_arg20) := (W7_of_ne m ρ c main_arg20 (by decide))
    _ = W5 m ρ c (Proc.devRef .tc main_arg20) := (HostSide.keep3 (W5 m ρ c) main_arg20 (by decide))
    _ = W4 m ρ c (Proc.devRef .tc main_arg20) := (W5_of_ne m ρ c main_arg20 (by decide))
    _ = W3 m ρ c (Proc.devRef .tc main_arg20) := (W4_of_ne m ρ c main_arg20 (by decide))
    _ = W2 m ρ c (Proc.devRef .tc main_arg20) := (HostSide.keep1 (W2 m ρ c) main_arg20 (by decide))
    _ = W1 m ρ c (Proc.devRef .tc main_arg20) := (W2_of_ne m ρ c main_arg20 (by decide))
    _ = W0 m ρ c (Proc.devRef .tc main_arg20) := (HostSide.keep0 (W0 m ρ c) main_arg20 (by decide))
    _ = (m ((c : Thread nD τ).loc main_arg20)) := rfl
theorem arg22_at11 : W11 m ρ c (Proc.devRef .tc main_arg22) = (m ((c : Thread nD τ).loc main_arg22)) :=
  calc W11 m ρ c (Proc.devRef .tc main_arg22)
    _ = W10 m ρ c (Proc.devRef .tc main_arg22) := (HostSide.keep6 (W10 m ρ c) main_arg22 (by decide))
    _ = W9 m ρ c (Proc.devRef .tc main_arg22) := (W10_of_ne m ρ c main_arg22 (by decide))
    _ = W8 m ρ c (Proc.devRef .tc main_arg22) := (HostSide.keep5 (W8 m ρ c) main_arg22 (by decide))
    _ = W7 m ρ c (Proc.devRef .tc main_arg22) := (W8_of_ne m ρ c main_arg22 (by decide))
    _ = W6 m ρ c (Proc.devRef .tc main_arg22) := (W7_of_ne m ρ c main_arg22 (by decide))
    _ = W5 m ρ c (Proc.devRef .tc main_arg22) := (HostSide.keep3 (W5 m ρ c) main_arg22 (by decide))
    _ = W4 m ρ c (Proc.devRef .tc main_arg22) := (W5_of_ne m ρ c main_arg22 (by decide))
    _ = W3 m ρ c (Proc.devRef .tc main_arg22) := (W4_of_ne m ρ c main_arg22 (by decide))
    _ = W2 m ρ c (Proc.devRef .tc main_arg22) := (HostSide.keep1 (W2 m ρ c) main_arg22 (by decide))
    _ = W1 m ρ c (Proc.devRef .tc main_arg22) := (W2_of_ne m ρ c main_arg22 (by decide))
    _ = W0 m ρ c (Proc.devRef .tc main_arg22) := (HostSide.keep0 (W0 m ρ c) main_arg22 (by decide))
    _ = (m ((c : Thread nD τ).loc main_arg22)) := rfl

/-! ## The edge vectors and weights, made once and read by every layer -/

theorem src_at1 : W1 m ρ c (Proc.devRef .tc main_v3) = Cert.ReferenceIdeal.Read.val_main_v3 (F := Ideal) (m ((c : Thread nD τ).loc main_arg1)) := HostSide.src0 (W0 m ρ c)
theorem dst_at1 : W1 m ρ c (Proc.devRef .tc main_v6) = Cert.ReferenceIdeal.Read.val_main_v6 (F := Ideal) (m ((c : Thread nD τ).loc main_arg1)) := HostSide.dst0 (W0 m ρ c)
theorem nrm_at1 : W1 m ρ c (Proc.devRef .tc main_v28) = Cert.ReferenceIdeal.Read.val_main_v28 (F := Ideal) (m ((c : Thread nD τ).loc main_arg1)) := HostSide.nrm0 (W0 m ρ c)
theorem src_at2 : W2 m ρ c (Proc.devRef .tc main_v3) = Cert.ReferenceIdeal.Read.val_main_v3 (F := Ideal) (m ((c : Thread nD τ).loc main_arg1)) :=
  calc W2 m ρ c (Proc.devRef .tc main_v3)
    _ = W1 m ρ c (Proc.devRef .tc main_v3) := (W2_of_ne m ρ c main_v3 (by decide))
    _ = Cert.ReferenceIdeal.Read.val_main_v3 (F := Ideal) (m ((c : Thread nD τ).loc main_arg1)) := src_at1 m ρ c
theorem dst_at2 : W2 m ρ c (Proc.devRef .tc main_v6) = Cert.ReferenceIdeal.Read.val_main_v6 (F := Ideal) (m ((c : Thread nD τ).loc main_arg1)) :=
  calc W2 m ρ c (Proc.devRef .tc main_v6)
    _ = W1 m ρ c (Proc.devRef .tc main_v6) := (W2_of_ne m ρ c main_v6 (by decide))
    _ = Cert.ReferenceIdeal.Read.val_main_v6 (F := Ideal) (m ((c : Thread nD τ).loc main_arg1)) := dst_at1 m ρ c
theorem nrm_at2 : W2 m ρ c (Proc.devRef .tc main_v28) = Cert.ReferenceIdeal.Read.val_main_v28 (F := Ideal) (m ((c : Thread nD τ).loc main_arg1)) :=
  calc W2 m ρ c (Proc.devRef .tc main_v28)
    _ = W1 m ρ c (Proc.devRef .tc main_v28) := (W2_of_ne m ρ c main_v28 (by decide))
    _ = Cert.ReferenceIdeal.Read.val_main_v28 (F := Ideal) (m ((c : Thread nD τ).loc main_arg1)) := nrm_at1 m ρ c
theorem src_at5 : W5 m ρ c (Proc.devRef .tc main_v3) = Cert.ReferenceIdeal.Read.val_main_v3 (F := Ideal) (m ((c : Thread nD τ).loc main_arg1)) :=
  calc W5 m ρ c (Proc.devRef .tc main_v3)
    _ = W4 m ρ c (Proc.devRef .tc main_v3) := (W5_of_ne m ρ c main_v3 (by decide))
    _ = W3 m ρ c (Proc.devRef .tc main_v3) := (W4_of_ne m ρ c main_v3 (by decide))
    _ = W2 m ρ c (Proc.devRef .tc main_v3) := (HostSide.keep1 (W2 m ρ c) main_v3 (by decide))
    _ = W1 m ρ c (Proc.devRef .tc main_v3) := (W2_of_ne m ρ c main_v3 (by decide))
    _ = Cert.ReferenceIdeal.Read.val_main_v3 (F := Ideal) (m ((c : Thread nD τ).loc main_arg1)) := src_at1 m ρ c
theorem dst_at5 : W5 m ρ c (Proc.devRef .tc main_v6) = Cert.ReferenceIdeal.Read.val_main_v6 (F := Ideal) (m ((c : Thread nD τ).loc main_arg1)) :=
  calc W5 m ρ c (Proc.devRef .tc main_v6)
    _ = W4 m ρ c (Proc.devRef .tc main_v6) := (W5_of_ne m ρ c main_v6 (by decide))
    _ = W3 m ρ c (Proc.devRef .tc main_v6) := (W4_of_ne m ρ c main_v6 (by decide))
    _ = W2 m ρ c (Proc.devRef .tc main_v6) := (HostSide.keep1 (W2 m ρ c) main_v6 (by decide))
    _ = W1 m ρ c (Proc.devRef .tc main_v6) := (W2_of_ne m ρ c main_v6 (by decide))
    _ = Cert.ReferenceIdeal.Read.val_main_v6 (F := Ideal) (m ((c : Thread nD τ).loc main_arg1)) := dst_at1 m ρ c
theorem nrm_at5 : W5 m ρ c (Proc.devRef .tc main_v28) = Cert.ReferenceIdeal.Read.val_main_v28 (F := Ideal) (m ((c : Thread nD τ).loc main_arg1)) :=
  calc W5 m ρ c (Proc.devRef .tc main_v28)
    _ = W4 m ρ c (Proc.devRef .tc main_v28) := (W5_of_ne m ρ c main_v28 (by decide))
    _ = W3 m ρ c (Proc.devRef .tc main_v28) := (W4_of_ne m ρ c main_v28 (by decide))
    _ = W2 m ρ c (Proc.devRef .tc main_v28) := (HostSide.keep1 (W2 m ρ c) main_v28 (by decide))
    _ = W1 m ρ c (Proc.devRef .tc main_v28) := (W2_of_ne m ρ c main_v28 (by decide))
    _ = Cert.ReferenceIdeal.Read.val_main_v28 (F := Ideal) (m ((c : Thread nD τ).loc main_arg1)) := nrm_at1 m ρ c
theorem src_at8 : W8 m ρ c (Proc.devRef .tc main_v3) = Cert.ReferenceIdeal.Read.val_main_v3 (F := Ideal) (m ((c : Thread nD τ).loc main_arg1)) :=
  calc W8 m ρ c (Proc.devRef .tc main_v3)
    _ = W7 m ρ c (Proc.devRef .tc main_v3) := (W8_of_ne m ρ c main_v3 (by decide))
    _ = W6 m ρ c (Proc.devRef .tc main_v3) := (W7_of_ne m ρ c main_v3 (by decide))
    _ = W5 m ρ c (Proc.devRef .tc main_v3) := (HostSide.keep3 (W5 m ρ c) main_v3 (by decide))
    _ = W4 m ρ c (Proc.devRef .tc main_v3) := (W5_of_ne m ρ c main_v3 (by decide))
    _ = W3 m ρ c (Proc.devRef .tc main_v3) := (W4_of_ne m ρ c main_v3 (by decide))
    _ = W2 m ρ c (Proc.devRef .tc main_v3) := (HostSide.keep1 (W2 m ρ c) main_v3 (by decide))
    _ = W1 m ρ c (Proc.devRef .tc main_v3) := (W2_of_ne m ρ c main_v3 (by decide))
    _ = Cert.ReferenceIdeal.Read.val_main_v3 (F := Ideal) (m ((c : Thread nD τ).loc main_arg1)) := src_at1 m ρ c
theorem dst_at8 : W8 m ρ c (Proc.devRef .tc main_v6) = Cert.ReferenceIdeal.Read.val_main_v6 (F := Ideal) (m ((c : Thread nD τ).loc main_arg1)) :=
  calc W8 m ρ c (Proc.devRef .tc main_v6)
    _ = W7 m ρ c (Proc.devRef .tc main_v6) := (W8_of_ne m ρ c main_v6 (by decide))
    _ = W6 m ρ c (Proc.devRef .tc main_v6) := (W7_of_ne m ρ c main_v6 (by decide))
    _ = W5 m ρ c (Proc.devRef .tc main_v6) := (HostSide.keep3 (W5 m ρ c) main_v6 (by decide))
    _ = W4 m ρ c (Proc.devRef .tc main_v6) := (W5_of_ne m ρ c main_v6 (by decide))
    _ = W3 m ρ c (Proc.devRef .tc main_v6) := (W4_of_ne m ρ c main_v6 (by decide))
    _ = W2 m ρ c (Proc.devRef .tc main_v6) := (HostSide.keep1 (W2 m ρ c) main_v6 (by decide))
    _ = W1 m ρ c (Proc.devRef .tc main_v6) := (W2_of_ne m ρ c main_v6 (by decide))
    _ = Cert.ReferenceIdeal.Read.val_main_v6 (F := Ideal) (m ((c : Thread nD τ).loc main_arg1)) := dst_at1 m ρ c
theorem nrm_at8 : W8 m ρ c (Proc.devRef .tc main_v28) = Cert.ReferenceIdeal.Read.val_main_v28 (F := Ideal) (m ((c : Thread nD τ).loc main_arg1)) :=
  calc W8 m ρ c (Proc.devRef .tc main_v28)
    _ = W7 m ρ c (Proc.devRef .tc main_v28) := (W8_of_ne m ρ c main_v28 (by decide))
    _ = W6 m ρ c (Proc.devRef .tc main_v28) := (W7_of_ne m ρ c main_v28 (by decide))
    _ = W5 m ρ c (Proc.devRef .tc main_v28) := (HostSide.keep3 (W5 m ρ c) main_v28 (by decide))
    _ = W4 m ρ c (Proc.devRef .tc main_v28) := (W5_of_ne m ρ c main_v28 (by decide))
    _ = W3 m ρ c (Proc.devRef .tc main_v28) := (W4_of_ne m ρ c main_v28 (by decide))
    _ = W2 m ρ c (Proc.devRef .tc main_v28) := (HostSide.keep1 (W2 m ρ c) main_v28 (by decide))
    _ = W1 m ρ c (Proc.devRef .tc main_v28) := (W2_of_ne m ρ c main_v28 (by decide))
    _ = Cert.ReferenceIdeal.Read.val_main_v28 (F := Ideal) (m ((c : Thread nD τ).loc main_arg1)) := nrm_at1 m ρ c

/-! ## Layer 1 -/

theorem xw1 : W2 m ρ c (Proc.devRef .tc main_v29) = Cert.ReferenceIdeal.Read.val_main_v29 (F := Ideal) (m ((c : Thread nD τ).loc main_arg0)) (m ((c : Thread nD τ).loc main_arg2)) :=
  (W2_arr m ρ c 2).trans <| (Regions.final0 (V1 m ρ) c).trans <| by
    show mm (n := 50000) (k := 128) (d := 128) (W1 m ρ c (Proc.devRef .tc main_arg0)) (W1 m ρ c (Proc.devRef .tc main_arg2)) = _
    rw [arg0_at1 m ρ c, arg2_at1 m ρ c]
    exact (Cert.Gcn.Ref.xw1 _ _).symm

theorem agg1 : W3 m ρ c (Proc.devRef .tc main_v42) = Cert.ReferenceIdeal.Read.val_main_v42 (F := Ideal) (m ((c : Thread nD τ).loc main_arg0)) (m ((c : Thread nD τ).loc main_arg1)) (m ((c : Thread nD τ).loc main_arg2)) :=
  (HostSide.agg1 (W2 m ρ c)).trans <| by
    rw [xw1 m ρ c, src_at2 m ρ c, dst_at2 m ρ c, nrm_at2 m ρ c]
    exact (Cert.Gcn.Ref.agg1 _ _ _).symm

theorem par_v43 : W3 m ρ c (Proc.devRef .tc main_v43) = shapeCast (⟨2, ![1, 128]⟩ : Shape) (m ((c : Thread nD τ).loc main_arg3)) shapeCasts_S128_S1x128 :=
  (HostSide.par1_v43 (W2 m ρ c)).trans (by rw [arg3_at2 m ρ c])
theorem par_v44 : W3 m ρ c (Proc.devRef .tc main_v44) = shapeCast (⟨2, ![1, 128]⟩ : Shape) (m ((c : Thread nD τ).loc main_arg4)) shapeCasts_S128_S1x128 :=
  (HostSide.par1_v44 (W2 m ρ c)).trans (by rw [arg4_at2 m ρ c])
theorem par_v45 : W3 m ρ c (Proc.devRef .tc main_v45) = shapeCast (⟨2, ![1, 128]⟩ : Shape) (m ((c : Thread nD τ).loc main_arg5)) shapeCasts_S128_S1x128 :=
  (HostSide.par1_v45 (W2 m ρ c)).trans (by rw [arg5_at2 m ρ c])
theorem par_v46 : W3 m ρ c (Proc.devRef .tc main_v46) = shapeCast (⟨2, ![1, 128]⟩ : Shape) (m ((c : Thread nD τ).loc main_arg6)) shapeCasts_S128_S1x128 :=
  (HostSide.par1_v46 (W2 m ρ c)).trans (by rw [arg6_at2 m ρ c])
theorem par_v47 : W3 m ρ c (Proc.devRef .tc main_v47) = shapeCast (⟨2, ![1, 128]⟩ : Shape) (m ((c : Thread nD τ).loc main_arg7)) shapeCasts_S128_S1x128 :=
  (HostSide.par1_v47 (W2 m ρ c)).trans (by rw [arg7_at2 m ρ c])

theorem h1 : W4 m ρ c (Proc.devRef .tc main_v48) = Cert.ReferenceIdeal.Read.val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (W4_arr m ρ c 6).trans <| (Regions.final1 (V3 m ρ) c).trans <| by
    show bnRelu (n := 50000) (k := 128) (W3 m ρ c (Proc.devRef .tc main_v42)) (W3 m ρ c (Proc.devRef .tc main_v43)) (W3 m ρ c (Proc.devRef .tc main_v44)) (W3 m ρ c (Proc.devRef .tc main_v45)) (W3 m ρ c (Proc.devRef .tc main_v46)) (W3 m ρ c (Proc.devRef .tc main_v47)) = _
    rw [agg1 m ρ c, par_v43 m ρ c, par_v44 m ρ c, par_v45 m ρ c, par_v46 m ρ c, par_v47 m ρ c]
    exact (Cert.Gcn.Ref.h1 _ _ _ _ _ _ _ _ shapeCasts_S128_S1x128).symm

/-! ## Layer 2 -/

theorem xw2 : W5 m ρ c (Proc.devRef .tc main_v49) = Cert.ReferenceIdeal.Read.val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (W5_arr m ρ c 2).trans <| (Regions.final2 (V4 m ρ) c).trans <| by
    show mm (n := 50000) (k := 128) (d := 128) (W4 m ρ c (Proc.devRef .tc main_v48)) (W4 m ρ c (Proc.devRef .tc main_arg8)) = _
    rw [h1 m ρ c, arg8_at4 m ρ c]
    exact (Cert.Gcn.Ref.xw2 _ _ _ _ _ _ _ _ _).symm

theorem agg2 : W6 m ρ c (Proc.devRef .tc main_v62) = Cert.ReferenceIdeal.Read.val_main_v75 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (HostSide.agg3 (W5 m ρ c)).trans <| by
    rw [xw2 m ρ c, src_at5 m ρ c, dst_at5 m ρ c, nrm_at5 m ρ c]
    exact (Cert.Gcn.Ref.agg2 _ _ _ _ _ _ _ _ _).symm

theorem par_v63 : W6 m ρ c (Proc.devRef .tc main_v63) = shapeCast (⟨2, ![1, 128]⟩ : Shape) (m ((c : Thread nD τ).loc main_arg9)) shapeCasts_S128_S1x128 :=
  (HostSide.par3_v63 (W5 m ρ c)).trans (by rw [arg9_at5 m ρ c])
theorem par_v64 : W6 m ρ c (Proc.devRef .tc main_v64) = shapeCast (⟨2, ![1, 128]⟩ : Shape) (m ((c : Thread nD τ).loc main_arg10)) shapeCasts_S128_S1x128 :=
  (HostSide.par3_v64 (W5 m ρ c)).trans (by rw [arg10_at5 m ρ c])
theorem par_v65 : W6 m ρ c (Proc.devRef .tc main_v65) = shapeCast (⟨2, ![1, 128]⟩ : Shape) (m ((c : Thread nD τ).loc main_arg11)) shapeCasts_S128_S1x128 :=
  (HostSide.par3_v65 (W5 m ρ c)).trans (by rw [arg11_at5 m ρ c])
theorem par_v66 : W6 m ρ c (Proc.devRef .tc main_v66) = shapeCast (⟨2, ![1, 128]⟩ : Shape) (m ((c : Thread nD τ).loc main_arg12)) shapeCasts_S128_S1x128 :=
  (HostSide.par3_v66 (W5 m ρ c)).trans (by rw [arg12_at5 m ρ c])
theorem par_v67 : W6 m ρ c (Proc.devRef .tc main_v67) = shapeCast (⟨2, ![1, 128]⟩ : Shape) (m ((c : Thread nD τ).loc main_arg13)) shapeCasts_S128_S1x128 :=
  (HostSide.par3_v67 (W5 m ρ c)).trans (by rw [arg13_at5 m ρ c])

theorem h2 : W7 m ρ c (Proc.devRef .tc main_v68) = Cert.ReferenceIdeal.Read.val_main_v94 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) :=
  (W7_arr m ρ c 6).trans <| (Regions.final3 (V6 m ρ) c).trans <| by
    show bnRelu (n := 50000) (k := 128) (W6 m ρ c (Proc.devRef .tc main_v62)) (W6 m ρ c (Proc.devRef .tc main_v63)) (W6 m ρ c (Proc.devRef .tc main_v64)) (W6 m ρ c (Proc.devRef .tc main_v65)) (W6 m ρ c (Proc.devRef .tc main_v66)) (W6 m ρ c (Proc.devRef .tc main_v67)) = _
    rw [agg2 m ρ c, par_v63 m ρ c, par_v64 m ρ c, par_v65 m ρ c, par_v66 m ρ c, par_v67 m ρ c]
    exact (Cert.Gcn.Ref.h2 _ _ _ _ _ _ _ _ _ _ _ _ _ _ shapeCasts_S128_S1x128).symm

/-! ## Layer 3 -/

theorem xw3 : W8 m ρ c (Proc.devRef .tc main_v69) = Cert.ReferenceIdeal.Read.val_main_v95 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) :=
  (W8_arr m ρ c 2).trans <| (Regions.final4 (V7 m ρ) c).trans <| by
    show mm (n := 50000) (k := 128) (d := 256) (W7 m ρ c (Proc.devRef .tc main_v68)) (W7 m ρ c (Proc.devRef .tc main_arg14)) = _
    rw [h2 m ρ c, arg14_at7 m ρ c]
    exact (Cert.Gcn.Ref.xw3 _ _ _ _ _ _ _ _ _ _ _ _ _ _ _).symm

theorem agg3 : W9 m ρ c (Proc.devRef .tc main_v82) = Cert.ReferenceIdeal.Read.val_main_v108 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) :=
  (HostSide.agg5 (W8 m ρ c)).trans <| by
    rw [xw3 m ρ c, src_at8 m ρ c, dst_at8 m ρ c, nrm_at8 m ρ c]
    exact (Cert.Gcn.Ref.agg3 _ _ _ _ _ _ _ _ _ _ _ _ _ _ _).symm

theorem par_v83 : W9 m ρ c (Proc.devRef .tc main_v83) = shapeCast (⟨2, ![1, 256]⟩ : Shape) (m ((c : Thread nD τ).loc main_arg15)) shapeCasts_S256_S1x256 :=
  (HostSide.par5_v83 (W8 m ρ c)).trans (by rw [arg15_at8 m ρ c])
theorem par_v84 : W9 m ρ c (Proc.devRef .tc main_v84) = shapeCast (⟨2, ![1, 256]⟩ : Shape) (m ((c : Thread nD τ).loc main_arg16)) shapeCasts_S256_S1x256 :=
  (HostSide.par5_v84 (W8 m ρ c)).trans (by rw [arg16_at8 m ρ c])
theorem par_v85 : W9 m ρ c (Proc.devRef .tc main_v85) = shapeCast (⟨2, ![1, 256]⟩ : Shape) (m ((c : Thread nD τ).loc main_arg17)) shapeCasts_S256_S1x256 :=
  (HostSide.par5_v85 (W8 m ρ c)).trans (by rw [arg17_at8 m ρ c])
theorem par_v86 : W9 m ρ c (Proc.devRef .tc main_v86) = shapeCast (⟨2, ![1, 256]⟩ : Shape) (m ((c : Thread nD τ).loc main_arg18)) shapeCasts_S256_S1x256 :=
  (HostSide.par5_v86 (W8 m ρ c)).trans (by rw [arg18_at8 m ρ c])
theorem par_v87 : W9 m ρ c (Proc.devRef .tc main_v87) = shapeCast (⟨2, ![1, 256]⟩ : Shape) (m ((c : Thread nD τ).loc main_arg19)) shapeCasts_S256_S1x256 :=
  (HostSide.par5_v87 (W8 m ρ c)).trans (by rw [arg19_at8 m ρ c])

theorem h3 : W10 m ρ c (Proc.devRef .tc main_v88) = Cert.ReferenceIdeal.Read.val_main_v127 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) :=
  (W10_arr m ρ c 6).trans <| (Regions.final5 (V9 m ρ) c).trans <| by
    show bnRelu (n := 50000) (k := 256) (W9 m ρ c (Proc.devRef .tc main_v82)) (W9 m ρ c (Proc.devRef .tc main_v83)) (W9 m ρ c (Proc.devRef .tc main_v84)) (W9 m ρ c (Proc.devRef .tc main_v85)) (W9 m ρ c (Proc.devRef .tc main_v86)) (W9 m ρ c (Proc.devRef .tc main_v87)) = _
    rw [agg3 m ρ c, par_v83 m ρ c, par_v84 m ρ c, par_v85 m ρ c, par_v86 m ρ c, par_v87 m ρ c]
    exact (Cert.Gcn.Ref.h3 _ _ _ _ _ _ _ _ _ _ _ _ _ _ _ _ _ _ _ _ shapeCasts_S256_S1x256).symm

/-! ## The head -/

theorem h3_at11 : W11 m ρ c (Proc.devRef .tc main_v88) = Cert.ReferenceIdeal.Read.val_main_v127 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) :=
  (HostSide.keep6 (W10 m ρ c) main_v88 (by decide)).trans (h3 m ρ c)
theorem par_v89 : W11 m ρ c (Proc.devRef .tc main_v89) = shapeCast (⟨2, ![1, 128]⟩ : Shape) (m ((c : Thread nD τ).loc main_arg21)) shapeCasts_S128_S1x128 :=
  (HostSide.par6_v89 (W10 m ρ c)).trans (by rw [arg21_at10 m ρ c])
theorem par_v90 : W11 m ρ c (Proc.devRef .tc main_v90) = shapeCast (⟨2, ![1, 40]⟩ : Shape) (m ((c : Thread nD τ).loc main_arg23)) shapeCasts_S40_S1x40 :=
  (HostSide.par6_v90 (W10 m ρ c)).trans (by rw [arg23_at10 m ρ c])

/-- The result buffer at the last boundary is the reference's last stage of the program's arguments. -/
theorem out : W12 m ρ c (Proc.devRef .tc main_v91) = Cert.ReferenceIdeal.Read.val_main_v136 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) :=
  (W12_arr m ρ c 5).trans <| (Regions.final6 (V11 m ρ) c).trans <| by
    show head (n := 50000) (k := 256) (d := 128) (e := 40) (W11 m ρ c (Proc.devRef .tc main_v88)) (W11 m ρ c (Proc.devRef .tc main_arg20)) (W11 m ρ c (Proc.devRef .tc main_v89)) (W11 m ρ c (Proc.devRef .tc main_arg22)) (W11 m ρ c (Proc.devRef .tc main_v90)) = _
    rw [h3_at11 m ρ c, arg20_at11 m ρ c, par_v89 m ρ c, arg22_at11 m ρ c, par_v90 m ρ c]
    exact (Cert.Gcn.Ref.out _ _ _ _ _ _ _ _ _ _ _ _ _ _ _ _ _ _ _ _ _ _ _ _ shapeCasts_S128_S1x128 shapeCasts_S40_S1x40).symm

end Cert.KernelIdeal.Fold

end
-- ==== Proof.lean ====
/-
  A three-layer graph convolution network with a two-layer head, run as seven kernel launches among host operations,
  against its plain reference — equal as extended reals.

  Both programs compute, from the node features, the edge list and the parameters: the edge normalisation; three times
  "matrix product, gather along the edges and scale, scatter-add to the target nodes, bias, normalisation by running
  statistics, floor at zero"; then two dense layers.  The kernel program runs the matrix products, the normalisations and
  the head as launches over blocks of 2000 rows and leaves the gathers and scatter-adds to the host; the reference runs
  everything on the host.  Operation by operation the two compute the same sums, differences, products and maxima in the
  same order: a change of float format is the identity on the extended reals, a matrix unit's product into a zero
  accumulator and the host's contraction are one sum of products, and the reciprocal square root is one function for the
  unit and for the host.  So no law of arithmetic is needed beyond regrouping nothing at all, and the precondition
  (finite inputs) is never opened.

  What carries the proof is row-locality: every dense stage computes row p of its result from row p of its matrix
  operand, so the 25 blocks a launch writes back are the row blocks of ONE stage of the whole matrix (Proof/LibNormStages.lean,
  Proof/Region0.lean … Proof/Region6.lean).  The buffer contents at the segment boundaries are then walked forward from
  the launch memory (Proof/HostSide.lean, Proof/Fold.lean) and meet the reference's run stage by stage
  (Proof/RefSide.lean).  The three frames are the generated ones; the idealization rewrote nothing, so `preserves` is `True`.
-/
import proofs.«111996_j38113539785179_1_alg».proof.Defs
import proofs.«111996_j38113539785179_1_alg».proof.Proof.Gen.Kernel
import proofs.«111996_j38113539785179_1_alg».proof.Proof.Gen.Kernel.Skeleton
import proofs.«111996_j38113539785179_1_alg».proof.Proof.Gen.Kernel.Launch
import proofs.«111996_j38113539785179_1_alg».proof.Proof.Gen.Kernel.Points
import proofs.«111996_j38113539785179_1_alg».proof.Proof.Gen.Kernel.Frame
import proofs.«111996_j38113539785179_1_alg».proof.Proof.Gen.KernelIdeal
import proofs.«111996_j38113539785179_1_alg».proof.Proof.Gen.KernelIdeal.Skeleton
import proofs.«111996_j38113539785179_1_alg».proof.Proof.Gen.KernelIdeal.Launch
import proofs.«111996_j38113539785179_1_alg».proof.Proof.Gen.KernelIdeal.Points
import proofs.«111996_j38113539785179_1_alg».proof.Proof.Gen.KernelIdeal.Frame
import proofs.«111996_j38113539785179_1_alg».proof.Proof.Gen.ReferenceIdeal
import proofs.«111996_j38113539785179_1_alg».proof.Proof.Gen.Pre_finite_inputs
import proofs.«111996_j38113539785179_1_alg».proof.Proof.Gen.ReferenceIdeal.Run
import proofs.«111996_j38113539785179_1_alg».proof.Proof.Gen.ReferenceIdeal.Read
import proofs.«111996_j38113539785179_1_alg».proof.Proof.KernelRun
import proofs.«111996_j38113539785179_1_alg».proof.Proof.Fold
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end at the reference's last stage of the arguments: the kernel program by the walk through its segment
    boundaries, the reference by its run; the arguments agree, and neither program changes them. -/
theorem algebraic : Cert.algebraic_KernelIdeal_ReferenceIdeal := by
  intro m ρ m' ρ' _ hagree
  refine ⟨fun c => Cert.ReferenceIdeal.Read.val_main_v136 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)), ?_, ?_⟩
  · exact (θ_run Cert.KernelIdeal.defs _ _).mono
      (fun r h c => ⟨(h c).1.trans (Cert.KernelIdeal.Fold.out m ρ c), (h c).2⟩)
      (Cert.KernelIdeal.RunValue.run m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11, e12, e13, e14, e15, e16, e17, e18, e19, e20, e21, e22, e23⟩ := hagree c
    rw [Cert.ReferenceIdeal.Read.val_main_v136_eq, e0, e1, e2, e3, e4, e5, e6, e7, e8, e9, e10, e11, e12, e13, e14, e15, e16, e17, e18, e19, e20, e21, e22, e23]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
